-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024x61440 : Shape := ⟨2, ![1024, 61440]⟩
abbrev S1024x256 : Shape := ⟨2, ![1024, 256]⟩
abbrev S256 : Shape := ⟨1, ![256]⟩
abbrev S256x128 : Shape := ⟨2, ![256, 128]⟩
abbrev S128 : Shape := ⟨1, ![128]⟩
abbrev S61440x256 : Shape := ⟨2, ![61440, 256]⟩
abbrev S128x128 : Shape := ⟨2, ![128, 128]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x61440 : S_.BroadcastsInDim S1024x61440 (![] : Fin 0 → Fin S1024x61440.rank)
  reducesTo_S1024x61440_S_d0_1 : S1024x61440.ReducesTo [0, 1] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S61440x256 : S_.BroadcastsInDim S61440x256 (![] : Fin 0 → Fin S61440x256.rank)
  reducesTo_S61440x256_S_d0_1 : S61440x256.ReducesTo [0, 1] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg11 : FVec F S128x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  main_v58

def fn_part2 {F : FTy → Type} [FloatOps F] (main_arg7 : FVec F S61440x256 .f32) (main_arg8 : FVec F S256 .f32) (main_arg9 : FVec F S256x128 .f32) (main_arg10 : FVec F S128 .f32) (main_arg11 : FVec F S128x128 .f32) (main_v33 : IVec S_ 1) : IVec S_ 1 :=
  let main_v34 : FVec F S61440x256 .f32 := Host.absf main_arg7
  let main_cst_12 : FVec F S_ .f32 := constant S_ .f32 0x7F800000#32
  let main_v35 : FVec F S61440x256 .f32 := broadcastInDim S61440x256 ![] bcast_S_S61440x256 main_cst_12
  let main_v36 : IVec S61440x256 1 := cmpf .olt main_v34 main_v35
  let main_c_13 : IVec S_ 1 := constantI S_ 1 1#1
  let main_v37 : IVec S_ 1 := (fun x v => Host.reduce IntOp.andi x v reducesTo_S61440x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg9
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_v48 main_v49 main_v50

def fn_part1 {F : FTy → Type} [FloatOps F] (main_arg4 : FVec F S256 .f32) (main_arg5 : FVec F S256x128 .f32) (main_arg6 : FVec F S128 .f32) (main_arg7 : FVec F S61440x256 .f32) (main_arg8 : FVec F S256 .f32) (main_arg9 : FVec F S256x128 .f32) (main_arg10 : FVec F S128 .f32) (main_arg11 : FVec F S128x128 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1024x1024 .f32) (main_arg1 : FVec F S1024x61440 .f32) (main_arg2 : FVec F S1024x61440 .f32) (main_arg3 : FVec F S1024x256 .f32) (main_arg4 : FVec F S256 .f32) (main_arg5 : FVec F S256x128 .f32) (main_arg6 : FVec F S128 .f32) (main_arg7 : FVec F S61440x256 .f32) (main_arg8 : FVec F S256 .f32) (main_arg9 : FVec F S256x128 .f32) (main_arg10 : FVec F S128 .f32) (main_arg11 : FVec F S128x128 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x61440 .f32 := Host.absf main_arg1
  let main_cst_0 : FVec F S_ .f32 := constant S_ .f32 0x7F800000#32
  let main_v5 : FVec F S1024x61440 .f32 := broadcastInDim S1024x61440 ![] bcast_S_S1024x61440 main_cst_0
  let main_v6 : IVec S1024x61440 1 := cmpf .olt main_v4 main_v5
  let main_c_1 : IVec S_ 1 := constantI S_ 1 1#1
  let main_v7 : IVec S_ 1 := (fun x v => Host.reduce IntOp.andi x v reducesTo_S1024x61440_S_d0_1 h_S_) main_v6 main_c_1
  let main_v8 : IVec S_ 1 := andi main_v3 main_v7
  let main_v9 : FVec F S1024x61440 .f32 := Host.absf main_arg2
  let main_cst_2 : FVec F S_ .f32 := constant S_ .f32 0x7F800000#32
  let main_v10 : FVec F S1024x61440 .f32 := broadcastInDim S1024x61440 ![] bcast_S_S1024x61440 main_cst_2
  let main_v11 : IVec S1024x61440 1 := cmpf .olt main_v9 main_v10
  let main_c_3 : IVec S_ 1 := constantI S_ 1 1#1
  let main_v12 : IVec S_ 1 := (fun x v => Host.reduce IntOp.andi x v reducesTo_S1024x61440_S_d0_1 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_arg6 main_arg7 main_arg8 main_arg9 main_arg10 main_arg11 main_v13 main_v16
-- ==== Kernel.lean ====
abbrev S1024x1024 : Shape := ⟨2, ![1024, 1024]⟩
abbrev S1024x61440 : Shape := ⟨2, ![1024, 61440]⟩
abbrev S1024x256 : Shape := ⟨2, ![1024, 256]⟩
abbrev S256 : Shape := ⟨1, ![256]⟩
abbrev S256x128 : Shape := ⟨2, ![256, 128]⟩
abbrev S128 : Shape := ⟨1, ![128]⟩
abbrev S61440x256 : Shape := ⟨2, ![61440, 256]⟩
abbrev S128x128 : Shape := ⟨2, ![128, 128]⟩
abbrev S1x256 : Shape := ⟨2, ![1, 256]⟩
abbrev S1x128 : Shape := ⟨2, ![1, 128]⟩
abbrev S1024x128 : Shape := ⟨2, ![1024, 128]⟩
abbrev S512x1024 : Shape := ⟨2, ![512, 1024]⟩
abbrev S512x128 : Shape := ⟨2, ![512, 128]⟩
abbrev S512x256 : Shape := ⟨2, ![512, 256]⟩
abbrev S128x1024 : Shape := ⟨2, ![128, 1024]⟩
abbrev S128x1 : Shape := ⟨2, ![128, 1]⟩

abbrev nBuf : Space → Nat
  | .hbm => 20
  | .vmem => 31
  | .smem => 0
  | _ => 0

abbrev bufTy : (tb : Table) → Fin (tcTables nBuf tb) → BufTy
  | .hbm, ⟨0, _⟩ => ⟨S1024x1024, .f32⟩
  | .hbm, ⟨1, _⟩ => ⟨S1024x61440, .f32⟩
  | .hbm, ⟨2, _⟩ => ⟨S1024x61440, .f32⟩
  | .hbm, ⟨3, _⟩ => ⟨S1024x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S61440x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S1x256, .f32⟩
  | .hbm, ⟨13, _⟩ => ⟨S1x128, .f32⟩
  | .hbm, ⟨14, _⟩ => ⟨S1024x128, .f32⟩
  | .hbm, ⟨15, _⟩ => ⟨S1x256, .f32⟩
  | .hbm, ⟨16, _⟩ => ⟨S1x128, .f32⟩
  | .hbm, ⟨17, _⟩ => ⟨S1024x128, .f32⟩
  | .hbm, ⟨18, _⟩ => ⟨S1024x128, .f32⟩
  | .hbm, ⟨19, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1024x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1024x256, .f32⟩
  | .local _ .vmem, ⟨13, _⟩ => ⟨S1024x256, .f32⟩
  | .local _ .vmem, ⟨14, _⟩ => ⟨S1x256, .f32⟩
  | .local _ .vmem, ⟨15, _⟩ => ⟨S256x128, .f32⟩
  | .local _ .vmem, ⟨16, _⟩ => ⟨S1x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x256, .f32⟩
  | .local _ .vmem, ⟨24, _⟩ => ⟨S512x256, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S1024x128, .f32⟩
  | .local _ .vmem, ⟨29, _⟩ => ⟨S128x1024, .f32⟩
  | .local _ .vmem, ⟨30, _⟩ => ⟨S128x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_scratch0 : Ref sig .tc := ⟨.vmem, 23, rfl⟩
abbrev cc1_scratch1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg3_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem3_0 : DmaSem sig := 27
abbrev cc2_sem3_1 : DmaSem sig := 28

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 60], ![false, false]⟩

def k1_cond2 (i : grid1.Coords) : BitVec 1 :=
  let arg1 : BitVec 32 := BitVec.ofNat 32 (i 1).val
  let c59_i32 : BitVec 32 := 59#32
  let v21 : BitVec 1 := Scalar.cmpi .eq arg1 c59_i32
  let v22 : BitVec 32 := Scalar.extui v21
  let c0_i32_15 : BitVec 32 := 0#32
  let v23 : BitVec 1 := Scalar.cmpi .ne v22 c0_i32_15
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S512x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S128x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S256_S1x256 : S256.ShapeCasts S1x256
  shapeCasts_S128_S1x128 : S128.ShapeCasts S1x128
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S512x128_S512x128 : S512x128.ShapeCasts S512x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S128x1024_S128 : S128x1024.Reduces [1] S128
  shapeCasts_S128_S128x1 : S128.ShapeCasts S128x1
  broadcasts_S128x1_S128x1024 : S128x1.Broadcasts S128x1024
  inb_S128x1024_S128x1024_0_0 : ∀ a, (![0, 0] : Fin 2 → Nat) a + S128x1024.size a ≤ S128x1024.size a
  h_S128x1024 : 0 < S128x1024.numel
  dot_S512x1024_S1024x256_S512x256_1_0_0_1_n_n_wf : DotDims.WF S512x1024 S1024x256 S512x256 [1] [0] [0] [1] [] []
  dot_S512x256_S256x128_S512x128_1_0_0_1_n_n_wf : DotDims.WF S512x256 S256x128 S512x128 [1] [0] [0] [1] [] []
  dot_S128x128_S128x128_S128x128_1_0_0_1_n_n_wf : DotDims.WF S128x128 S128x128 S128x128 [1] [0] [0] [1] [] []
  dot_S128x128_S1024x128_S128x1024_1_1_0_0_n_n_wf : DotDims.WF S128x128 S1024x128 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S1024x1024.size a
  hwx0_0 : ∀ i : grid0.Coords, EltTy.bits .f32 = 32 ∨ (Rect.block (s := S1024x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S1024x128.size a
  hwx0_5 : ∀ i : grid0.Coords, EltTy.bits .f32 = 32 ∨ (Rect.block (s := S1024x128) S512x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S1024x61440.size a
  hwx1_0 : ∀ i : grid1.Coords, EltTy.bits .f32 = 32 ∨ (Rect.block (s := S1024x61440) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S1024x61440.size a
  hwx1_1 : ∀ i : grid1.Coords, EltTy.bits .f32 = 32 ∨ (Rect.block (s := S1024x61440) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S61440x256.size a
  hwx1_2 : ∀ i : grid1.Coords, EltTy.bits .f32 = 32 ∨ (Rect.block (s := S61440x256) S1024x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x128.size a ≤ S1024x128.size a
  hwx1_6 : ∀ i : grid1.Coords, EltTy.bits .f32 = 32 ∨ (Rect.block (s := S1024x128) S512x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x128.size a ≤ S1024x128.size a
  hwx1_7 : ∀ i : grid1.Coords, EltTy.bits .f32 = 32 ∨ (Rect.block (s := S1024x128) S512x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x128.size a ≤ S1024x128.size a
  hwx1_8 : ∀ i : grid1.Coords, EltTy.bits .f32 = 32 ∨ (Rect.block (s := S1024x128) S512x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x128.size a ≤ S1024x128.size a
  hwx2_0 : ∀ i : grid2.Coords, EltTy.bits .f32 = 32 ∨ (Rect.block (s := S1024x128) S128x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S1024x128.size a
  hwx2_2 : ∀ i : grid2.Coords, EltTy.bits .f32 = 32 ∨ (Rect.block (s := S1024x128) S1024x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x1024.size a ≤ S1024x1024.size a
  hwx2_3 : ∀ i : grid2.Coords, EltTy.bits .f32 = 32 ∨ (Rect.block (s := S1024x1024) S128x1024.size (cc2_transform_3 i) (hinb2_3 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S1024x128_S128x1024_1_1_0_0_n_n : DotDims S128x128 S1024x128 S128x1024 where
  lhsContracting := [1]
  rhsContracting := [1]
  lhsNonContracting := [0]
  rhsNonContracting := [0]
  lhsBatch := []
  rhsBatch := []
  wf := dot_S128x128_S1024x128_S128x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S512x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v5_0) S512x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v5_1) S512x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun i => !(k1_cond2 i == 1#1) | 8 => fun i => !(k1_cond2 i == 1#1) | ⟨_ + 9, h⟩ => absurd h (Nat.not_lt.2 (Nat.le_add_left _ _))

abbrev win2_0 : Pipeline.Window sig grid2 :=
  Pipeline.Window.ofSpec (Memref.whole main_v5_0) S128x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5_1) S1024x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S128x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1024x1024 : Shape := ⟨2, ![1024, 1024]⟩
abbrev S1024x61440 : Shape := ⟨2, ![1024, 61440]⟩
abbrev S1024x256 : Shape := ⟨2, ![1024, 256]⟩
abbrev S256 : Shape := ⟨1, ![256]⟩
abbrev S256x128 : Shape := ⟨2, ![256, 128]⟩
abbrev S128 : Shape := ⟨1, ![128]⟩
abbrev S61440x256 : Shape := ⟨2, ![61440, 256]⟩
abbrev S128x128 : Shape := ⟨2, ![128, 128]⟩
abbrev S1x256 : Shape := ⟨2, ![1, 256]⟩
abbrev S_ : Shape := ⟨0, ![]⟩
abbrev S1024x128 : Shape := ⟨2, ![1024, 128]⟩
abbrev S1x128 : Shape := ⟨2, ![1, 128]⟩
abbrev S128x1024 : Shape := ⟨2, ![128, 1024]⟩
abbrev S1024 : Shape := ⟨1, ![1024]⟩
abbrev S1024x1 : Shape := ⟨2, ![1024, 1]⟩

abbrev nBuf : Space → Nat
  | .hbm => 93
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x61440, .f32⟩
  | .hbm, ⟨2, _⟩ => ⟨S1024x61440, .f32⟩
  | .hbm, ⟨3, _⟩ => ⟨S1024x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S61440x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S1024x256, .f32⟩
  | .hbm, ⟨13, _⟩ => ⟨S1x256, .f32⟩
  | .hbm, ⟨14, _⟩ => ⟨S1024x256, .f32⟩
  | .hbm, ⟨15, _⟩ => ⟨S1024x256, .f32⟩
  | .hbm, ⟨16, _⟩ => ⟨S_, .f32⟩
  | .hbm, ⟨17, _⟩ => ⟨S1024x256, .f32⟩
  | .hbm, ⟨18, _⟩ => ⟨S1024x256, .f32⟩
  | .hbm, ⟨19, _⟩ => ⟨S1024x128, .f32⟩
  | .hbm, ⟨20, _⟩ => ⟨S1x128, .f32⟩
  | .hbm, ⟨21, _⟩ => ⟨S1024x128, .f32⟩
  | .hbm, ⟨22, _⟩ => ⟨S1024x128, .f32⟩
  | .hbm, ⟨23, _⟩ => ⟨S_, .f32⟩
  | .hbm, ⟨24, _⟩ => ⟨S1024x128, .f32⟩
  | .hbm, ⟨25, _⟩ => ⟨S1024x128, .f32⟩
  | .hbm, ⟨26, _⟩ => ⟨S1024x256, .f32⟩
  | .hbm, ⟨27, _⟩ => ⟨S1x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x128, .f32⟩
  | .hbm, ⟨34, _⟩ => ⟨S1x128, .f32⟩
  | .hbm, ⟨35, _⟩ => ⟨S1024x128, .f32⟩
  | .hbm, ⟨36, _⟩ => ⟨S1024x128, .f32⟩
  | .hbm, ⟨37, _⟩ => ⟨S_, .f32⟩
  | .hbm, ⟨38, _⟩ => ⟨S1024x128, .f32⟩
  | .hbm, ⟨39, _⟩ => ⟨S1024x128, .f32⟩
  | .hbm, ⟨40, _⟩ => ⟨S1024x128, .f32⟩
  | .hbm, ⟨41, _⟩ => ⟨S1024x256, .f32⟩
  | .hbm, ⟨42, _⟩ => ⟨S1x256, .f32⟩
  | .hbm, ⟨43, _⟩ => ⟨S1024x256, .f32⟩
  | .hbm, ⟨44, _⟩ => ⟨S1024x256, .f32⟩
  | .hbm, ⟨45, _⟩ => ⟨S_, .f32⟩
  | .hbm, ⟨46, _⟩ => ⟨S1024x256, .f32⟩
  | .hbm, ⟨47, _⟩ => ⟨S1024x256, .f32⟩
  | .hbm, ⟨48, _⟩ => ⟨S1024x128, .f32⟩
  | .hbm, ⟨49, _⟩ => ⟨S1x128, .f32⟩
  | .hbm, ⟨50, _⟩ => ⟨S1024x128, .f32⟩
  | .hbm, ⟨51, _⟩ => ⟨S1024x128, .f32⟩
  | .hbm, ⟨52, _⟩ => ⟨S_, .f32⟩
  | .hbm, ⟨53, _⟩ => ⟨S1024x128, .f32⟩
  | .hbm, ⟨54, _⟩ => ⟨S1024x128, .f32⟩
  | .hbm, ⟨55, _⟩ => ⟨S1024x256, .f32⟩
  | .hbm, ⟨56, _⟩ => ⟨S1x256, .f32⟩
  | .hbm, ⟨57, _⟩ => ⟨S1024x256, .f32⟩
  | .hbm, ⟨58, _⟩ => ⟨S1024x256, .f32⟩
  | .hbm, ⟨59, _⟩ => ⟨S_, .f32⟩
  | .hbm, ⟨60, _⟩ => ⟨S1024x256, .f32⟩
  | .hbm, ⟨61, _⟩ => ⟨S1024x256, .f32⟩
  | .hbm, ⟨62, _⟩ => ⟨S1024x128, .f32⟩
  | .hbm, ⟨63, _⟩ => ⟨S1x128, .f32⟩
  | .hbm, ⟨64, _⟩ => ⟨S1024x128, .f32⟩
  | .hbm, ⟨65, _⟩ => ⟨S1024x128, .f32⟩
  | .hbm, ⟨66, _⟩ => ⟨S_, .f32⟩
  | .hbm, ⟨67, _⟩ => ⟨S1024x128, .f32⟩
  | .hbm, ⟨68, _⟩ => ⟨S1024x128, .f32⟩
  | .hbm, ⟨69, _⟩ => ⟨S1024x128, .f32⟩
  | .hbm, ⟨70, _⟩ => ⟨S1024x128, .f32⟩
  | .hbm, ⟨71, _⟩ => ⟨S128x1024, .f32⟩
  | .hbm, ⟨72, _⟩ => ⟨S1024x1024, .f32⟩
  | .hbm, ⟨73, _⟩ => ⟨S_, .f32⟩
  | .hbm, ⟨74, _⟩ => ⟨S1024x1024, .f32⟩
  | .hbm, ⟨75, _⟩ => ⟨S1024x1024, .i1⟩
  | .hbm, ⟨76, _⟩ => ⟨S_, .f32⟩
  | .hbm, ⟨77, _⟩ => ⟨S1024x1024, .f32⟩
  | .hbm, ⟨78, _⟩ => ⟨S1024x1024, .f32⟩
  | .hbm, ⟨79, _⟩ => ⟨S_, .f32⟩
  | .hbm, ⟨80, _⟩ => ⟨S1024, .f32⟩
  | .hbm, ⟨81, _⟩ => ⟨S_, .f32⟩
  | .hbm, ⟨82, _⟩ => ⟨S1024, .f32⟩
  | .hbm, ⟨83, _⟩ => ⟨S1024, .f32⟩
  | .hbm, ⟨84, _⟩ => ⟨S1024x1, .f32⟩
  | .hbm, ⟨85, _⟩ => ⟨S1024x1024, .f32⟩
  | .hbm, ⟨86, _⟩ => ⟨S1024x1024, .f32⟩
  | .hbm, ⟨87, _⟩ => ⟨S1024x1024, .f32⟩
  | .hbm, ⟨88, _⟩ => ⟨S_, .f32⟩
  | .hbm, ⟨89, _⟩ => ⟨S1024, .f32⟩
  | .hbm, ⟨90, _⟩ => ⟨S1024x1, .f32⟩
  | .hbm, ⟨91, _⟩ => ⟨S1024x1024, .f32⟩
  | .hbm, ⟨92, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_cst : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call2_cst : Ref sig .tc := ⟨.hbm, 30, rfl⟩
abbrev main_call2_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call3_cst : Ref sig .tc := ⟨.hbm, 37, rfl⟩
abbrev main_call3_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call4_cst : Ref sig .tc := ⟨.hbm, 45, rfl⟩
abbrev main_call4_v0 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call5_cst : Ref sig .tc := ⟨.hbm, 52, rfl⟩
abbrev main_call5_v0 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call6_cst : Ref sig .tc := ⟨.hbm, 59, rfl⟩
abbrev main_call6_v0 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call7_cst : Ref sig .tc := ⟨.hbm, 66, rfl⟩
abbrev main_call7_v0 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst : Ref sig .tc := ⟨.hbm, 73, rfl⟩
abbrev main_v45 : Ref sig .tc := ⟨.hbm, 74, rfl⟩
abbrev main_v46 : Ref sig .tc := ⟨.hbm, 75, rfl⟩
abbrev main_cst_0 : Ref sig .tc := ⟨.hbm, 76, rfl⟩
abbrev main_call8_v0 : Ref sig .tc := ⟨.hbm, 77, rfl⟩
abbrev main_v47 : Ref sig .tc := ⟨.hbm, 78, rfl⟩
abbrev main_cst_1 : Ref sig .tc := ⟨.hbm, 79, rfl⟩
abbrev main_v48 : Ref sig .tc := ⟨.hbm, 80, rfl⟩
abbrev main_cst_2 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_3 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  transposes_S1024x128_S128x1024_1_0 : S1024x128.Transposes [1, 0] S128x1024
  bcast_S_S1024x1024 : S_.BroadcastsInDim S1024x1024 (![] : Fin 0 → Fin S1024x1024.rank)
  reducesTo_S1024x1024_S1024_d1 : S1024x1024.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  dot_S1024x1024_S1024x256_S1024x256_1_0_0_1_n_n_wf : DotDims.WF S1024x1024 S1024x256 S1024x256 [1] [0] [0] [1] [] []
  dot_S1024x256_S256x128_S1024x128_1_0_0_1_n_n_wf : DotDims.WF S1024x256 S256x128 S1024x128 [1] [0] [0] [1] [] []
  dot_S1024x61440_S61440x256_S1024x256_1_0_0_1_n_n_wf : DotDims.WF S1024x61440 S61440x256 S1024x256 [1] [0] [0] [1] [] []
  dot_S1024x128_S128x128_S1024x128_1_0_0_1_n_n_wf : DotDims.WF S1024x128 S128x128 S1024x128 [1] [0] [0] [1] [] []
  dot_S1024x128_S128x1024_S1024x1024_1_0_0_1_n_n_wf : DotDims.WF S1024x128 S128x1024 S1024x1024 [1] [0] [0] [1] [] []

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x61440_S61440x256_S1024x256_1_0_0_1_n_n : DotDims S1024x61440 S61440x256 S1024x256 where
  lhsContracting := [1]
  rhsContracting := [0]
  lhsNonContracting := [0]
  rhsNonContracting := [1]
  lhsBatch := []
  rhsBatch := []
  wf := dot_S1024x61440_S61440x256_S1024x256_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

class Facts : Prop extends Facts₀ where

variable [Facts]
-- ==== Proof.FrameKernel.Reg0.lean ====
/-
  The spatial two-layer perceptron (the first of the three TensorCore calls), as the pipeline runs it: the half of its
  frame proof that is stated at a parameter V, the TensorCore's buffer contents when the call is entered.

  The call has six windows over a grid of two points. Window 0 is the 512-row block of the node matrix of the point;
  windows 1 to 4 are the two weight matrices and the two bias rows, whole, with a constant block index; window 5 is
  the 512-row block of the result. The body reads the five input buffers whole and writes the result buffer whole,
  once, so what it leaves there is a function of the five input blocks alone.
-/
import proofs.«179632_j35485019800147_2_alg».proof.Proof.Gen.Kernel.Launch
import proofs.«179632_j35485019800147_2_alg».proof.Proof.Gen.Kernel.Skeleton
import proofs.«179632_j35485019800147_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents of each core when the call is entered
variable (V : (c : Dev nD) → (b : Ref sig .tc) → Buf (Elt F) ((c : Thread nD τ).loc b))

/-! ## The blocks of the windows -/

/-- The block of window w at grid point t: the rectangle of the window's array, as the call finds it, that the block
    index of the point selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of the node-matrix window holds the block of the point when the body starts: the window is an
    input, is fetched whole, and the body leaves it as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the first weight matrix. Its block index is constant, so at the second point, where nothing is fetched,
    the buffer still holds the first point's block, which is the second point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the first bias row. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The same for the second weight matrix. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The same for the second bias row. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each buffer, whole -/

abbrev r0_0 : Rect S512x1024 := Rect.unit (s := S512x1024) ![0, 0] S512x1024.size inb_S512x1024_S512x1024_0_0
abbrev r0_1 : Rect S1024x256 := Rect.unit (s := S1024x256) ![0, 0] S1024x256.size inb_S1024x256_S1024x256_0_0
abbrev r0_2 : Rect S1x256 := Rect.unit (s := S1x256) ![0, 0] S1x256.size inb_S1x256_S1x256_0_0
abbrev r0_3 : Rect S256x128 := Rect.unit (s := S256x128) ![0, 0] S256x128.size inb_S256x128_S256x128_0_0
abbrev r0_4 : Rect S1x128 := Rect.unit (s := S1x128) ![0, 0] S1x128.size inb_S1x128_S1x128_0_0
abbrev r0_5 : Rect S512x128 := Rect.unit (s := S512x128) ![0, 0] S512x128.size inb_S512x128_S512x128_0_0

/-! ## What the body leaves in the result buffer -/

/-- The result buffer after the body, as a function of the five input buffers' contents: one write of the whole
    buffer, its value the second layer's rectified output computed from what the five loads read. -/
def out0_5 (x0 : Vec F S512x1024 .f32) (x1 : Vec F S1024x256 .f32) (x2 : Vec F S1x256 .f32) (x3 : Vec F S256x128 .f32)
    (x4 : Vec F S1x128 .f32) : Vec F S512x128 .f32 :=
  View.canon [⟨r0_5, k0_pay1 (View.ld x0 r0_0) (View.ld x1 r0_1) (View.ld x2 r0_2) (View.ld x3 r0_3) (View.ld x4 r0_4)⟩]

/-- The one write is of the whole buffer, so every index of the buffer lies in it. -/
theorem cover0_5 (p0 : Vec F S512x128 .f32) (y : S512x128.Idx) :
    ∃ pc ∈ ([⟨r0_5, p0⟩] : List (View.Piece (Elt F) S512x128 .f32)), y ∈ pc.1.set :=
  View.cover_of_tiled [⟨r0_5, p0⟩] S512x128.size (by rfl) y

/-! ## The body's triple -/

set_option maxHeartbeats 1000000 in
/-- The body run on six whole staging buffers, the five inputs holding x0 .. x4 and the result buffer anything, ends with
    the inputs unchanged and the result buffer at out0_5 of them. (The body also reads the result buffer once before
    it writes it; the value read is not used.) -/
theorem sound_kernel0 (c : Dev nD) (E : Set ℕ) (i : grid0.Coords)
    (arg1 : Memref sig .tc .vmem S512x1024 .f32) (harg1 : arg1.IsWhole) (arg2 : Memref sig .tc .vmem S1024x256 .f32) (harg2 : arg2.IsWhole)
    (arg3 : Memref sig .tc .vmem S1x256 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S512x128 .f32) (harg6 : arg6.IsWhole)
    (x0 : Vec F S512x1024 .f32) (x1 : Vec F S1024x256 .f32) (x2 : Vec F S1x256 .f32) (x3 : Vec F S256x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__spatial_kernel i arg1 harg1 arg2 harg2 arg3 harg3 arg4 harg4 arg5 harg5 arg6 harg6) K := by
  simp only [cc0__spatial_kernel_eq_skeleton]; unfold cc0__spatial_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The proof data of the pipeline -/

/-- The proof data of the call on core c. The arrays are as the call finds them; after the body at point t each input
    buffer holds its block and the result buffer holds out0_5 of the five blocks; the invariant carried from point to
    point is the plain one (the scoped buffers the body does not name and the generator register, untouched); the core
    owes nothing; all shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The arrays of the proof data are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

/-- What each input buffer holds when the body starts: the window's block at the point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation at a generic point -/

/-- What the body is started with at point t: the invariant, the core's debts, and the six current staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: each input buffer holds its block, so the body's triple applies at the five blocks; the
    invariant and the core's debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.FrameKernel.Reg1Runs.lean ====
/-
  Region 1 (the fused temporal kernel): what its three control cases share.

  The grid is 2 × 60; the second coordinate k walks the sixty blocks of the contracted axis.  The body zeroes its two
  accumulators when k = 0, adds one block's product into each at every k, and when k = 59 finishes both embeddings from
  the accumulators and stores them.  So a grid point is in one of three cases — first (k = 0), middle, last (k = 59) —,
  the two output windows are touched at the last k only, and the accumulators are carried from point to point.
-/
import proofs.«179632_j35485019800147_2_alg».proof.Proof.Gen.Kernel.Launch
import proofs.«179632_j35485019800147_2_alg».proof.Proof.Gen.Kernel.Skeleton
import proofs.«179632_j35485019800147_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or carried over (its block
    index has not moved since the fetch), for any proof data whose array is the entry contents and whose body leaves
    the inputs in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end

/-! ## The two conditions of the body, in closed form over the grid -/

/-- `k = 0`: the accumulators are zeroed. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 60 = 0 :=
  (by decide +kernel : ∀ t : Fin grid1.N, cond1_0 (grid1.coords t) ↔ t.val % 60 = 0)

/-- `k = 59`: the embeddings are finished and stored. -/
abbrev cond1_1 (i : grid1.Coords) : Prop := k1_cond2 i = 1#1
theorem hcond1_1 : ∀ t : Fin cfg1.N, cond1_1 (grid1.coords t) ↔ t.val % 60 = 59 :=
  (by decide +kernel : ∀ t : Fin grid1.N, cond1_1 (grid1.coords t) ↔ t.val % 60 = 59)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- Away from the last `k` the two output windows are idle and not written back. -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
theorem liveAt1_8 : ∀ t : Fin cfg1.N, cond1_1 (grid1.coords t) → cfg1.idle 8 (grid1.coords t) = false := by decide +kernel

/-! ## The memrefs the body is called with -/

/-- One staging buffer of each output window, through which its contents are stated. -/
abbrev VO1_7 : View sig .tc .vmem S512x128 .f32 := (Memref.whole cc1_stg7_0 : Memref sig .tc .vmem S512x128 .f32).view
abbrev VO1_8 : View sig .tc .vmem S512x128 .f32 := (Memref.whole cc1_stg8_0 : Memref sig .tc .vmem S512x128 .f32).view
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x128 .f32 := win1_8.stage (cfg1.slots t 8)
abbrev hs1_8 (t : Fin cfg1.N) : (ms1_8 t).IsWhole := hstage1_8 ((cfg1.slots t 8).cast nbuf1_8)
/-- The two accumulators: whole scoped buffers of the kernel's own. -/
abbrev scM1_0 : Memref sig .tc .vmem S512x256 .f32 := Memref.whole cc1_scratch0
abbrev scM1_1 : Memref sig .tc .vmem S512x256 .f32 := Memref.whole cc1_scratch1
abbrev VS1_0 : View sig .tc .vmem S512x256 .f32 := scM1_0.view
abbrev VS1_1 : View sig .tc .vmem S512x256 .f32 := scM1_1.view

end Cert.Kernel.Fr

end
-- ==== Proof.FrameKernel.Reg1RunA.lean ====
/-
  Region 1, the FIRST case (k = 0): both accumulators are zeroed, then one block's product is added into each; the outputs are not touched.
-/
import proofs.«179632_j35485019800147_2_alg».proof.Proof.FrameKernel.Reg1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, on whole memrefs: the inputs at their contents come back as they were; each buffer the
    case stores into comes back with its stores written, as a list of pieces (last store first) that the run itself
    determines. -/
noncomputable def kernelRun1_A (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : cond1_0 i) (hc1 : ¬cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) :
    Σ' (LS0 : List (View.Piece (Elt F) S512x256 .f32)), { LS1 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1__temporal_fused_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__temporal_fused_kernel_eq_skeleton]; unfold cc1__temporal_fused_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Fr

end
-- ==== Proof.FrameKernel.Reg1RunB.lean ====
/-
  Region 1, the MIDDLE case (0 < k < 59): one block's product is added into each accumulator, which holds what the point before left; the outputs are not touched.
-/
import proofs.«179632_j35485019800147_2_alg».proof.Proof.FrameKernel.Reg1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, on whole memrefs: the inputs at their contents come back as they were; each buffer the
    case stores into comes back with its stores written, as a list of pieces (last store first) that the run itself
    determines. -/
noncomputable def kernelRun1_B (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : ¬cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) :
    Σ' (LS0 : List (View.Piece (Elt F) S512x256 .f32)), { LS1 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1__temporal_fused_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__temporal_fused_kernel_eq_skeleton]; unfold cc1__temporal_fused_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Fr

end
-- ==== Proof.FrameKernel.Reg1RunC.lean ====
/-
  Region 1, the LAST case (k = 59): the last block's product is added into each accumulator, and both embeddings are finished from the accumulators and stored whole into the two output windows.
-/
import proofs.«179632_j35485019800147_2_alg».proof.Proof.FrameKernel.Reg1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, on whole memrefs: the inputs at their contents come back as they were; each buffer the
    case stores into comes back with its stores written, as a list of pieces (last store first) that the run itself
    determines. -/
noncomputable def kernelRun1_C (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) :
    Σ' (L7 : List (View.Piece (Elt F) S512x128 .f32)) (L8 : List (View.Piece (Elt F) S512x128 .f32)) (LS0 : List (View.Piece (Elt F) S512x256 .f32)), { LS1 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1__temporal_fused_kernel i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__temporal_fused_kernel_eq_skeleton]; unfold cc1__temporal_fused_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [HS0]; · iexists _; iexact HS0
    iexists _; iexact HS1

end Cert.Kernel.Fr

end
-- ==== Proof.FrameKernel.Reg1.lean ====
/-
  Region 1 (the fused temporal kernel): what the two accumulators and the two output windows hold after each grid
  point, the invariant that carries the accumulators from point to point, the proof data and the body obligation.

  After the body at a point the accumulators hold: at k = 0, zero plus the first block's product; at a later k, what
  the point before left plus this block's product.  At k = 59 the two output windows receive the finished embeddings,
  computed from the accumulators as this point leaves them; at every other k they are idle.
-/
import proofs.«179632_j35485019800147_2_alg».proof.Proof.FrameKernel.Reg1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, as pieces read back -/

theorem scover1_A_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : cond1_0 i) (hc1 : ¬cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (y : S512x256.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6).1 S512x256.size (by sl_kernel_rfl) y

def sout1_A_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : cond1_0 i) (hc1 : ¬cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) : Vec F S512x256 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6).1)

theorem scover1_A_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : cond1_0 i) (hc1 : ¬cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (y : S512x256.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6).2.1 S512x256.size (by sl_kernel_rfl) y

def sout1_A_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : cond1_0 i) (hc1 : ¬cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) : Vec F S512x256 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6).2.1)

theorem scover1_B_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : ¬cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) (y : S512x256.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S512x256.size (by sl_kernel_rfl) y

def sout1_B_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : ¬cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) : Vec F S512x256 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

theorem scover1_B_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : ¬cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) (y : S512x256.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S512x256.size (by sl_kernel_rfl) y

def sout1_B_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : ¬cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) : Vec F S512x256 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

theorem cover1_C_7 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) (y : S512x128.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S512x128.size (by sl_kernel_rfl) y

def out1_C_7 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) : Vec F S512x128 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

theorem cover1_C_8 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) (y : S512x128.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S512x128.size (by sl_kernel_rfl) y

def out1_C_8 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) : Vec F S512x128 .f32 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

theorem scover1_C_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) (y : S512x256.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S512x256.size (by sl_kernel_rfl) y

def sout1_C_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) : Vec F S512x256 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

theorem scover1_C_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) (y : S512x256.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1 S512x256.size (by sl_kernel_rfl) y

def sout1_C_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) : Vec F S512x256 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1)

/-- A placeholder for an idle output window's contents: nothing consults it (at an idle point the window is neither written
    back nor read at the next point). -/
def idleOut : Vec F S512x128 .f32 := VO1_7.read (Elt F) VO1_7.junk

section
variable (V : (c : Dev nD) → (b : Ref sig .tc) → Buf (Elt F) ((c : Thread nD τ).loc b))

/-! ## Point by point -/

/-- THE ACCUMULATION: after the body at position `n`, the two output windows' staging buffers and the two accumulators
    (in this order).  The case is the one `n mod 60` selects; a later point's case runs over the accumulators the point
    before left. -/
def outsAt1 (c : Dev nD) : (n : ℕ) → n < cfg1.N → Vec F S512x128 .f32 × Vec F S512x128 .f32 × Vec F S512x256 .f32 × Vec F S512x256 .f32
  | 0, hn => (idleOut, idleOut, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 60 = 0 then
      if h1 : (n + 1) % 60 = 59 then False.elim (by omega)
      else (idleOut, idleOut, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      if h1 : (n + 1) % 60 = 59 then (out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.1 (outsAt1 c n (Nat.lt_of_succ_lt hn)).2.2.2, out1_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.1 (outsAt1 c n (Nat.lt_of_succ_lt hn)).2.2.2)
      else (idleOut, idleOut, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.1 (outsAt1 c n (Nat.lt_of_succ_lt hn)).2.2.2)

theorem outsAt1_A (c : Dev nD) (t : Fin cfg1.N) (h0 : t.val % 60 = 0) (h1 : ¬t.val % 60 = 59) :
    outsAt1 V c t.val t.isLt = (idleOut, idleOut, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans ((dif_neg h1).trans rfl)

theorem outsAt1_B (c : Dev nD) (t : Fin cfg1.N) (h0 : ¬t.val % 60 = 0) (h1 : ¬t.val % 60 = 59) :
    outsAt1 V c t.val t.isLt = (idleOut, idleOut, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 60 = 0) (h1 : t.val % 60 = 59) :
    outsAt1 V c t.val t.isLt = (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The core's scoped buffers that are neither a staging buffer of this region nor one of its accumulators (the other two
    regions' staging buffers), each whole at some contents: they ride through the region untouched. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f))

/-- Before the first point the accumulators hold anything; afterwards what the point before left. -/
def PhiS1 (c : Dev nD) : (n : ℕ) → n ≤ cfg1.N → sProp 𝕄
  | 0, _ => iprop((∃ d, owns (c : Thread nD τ) scM1_0 fullShare d) ∗ (∃ d, owns (c : Thread nD τ) scM1_1 fullShare d) ∗ others1 c ∗ (∃ r, prngReg c r))
  | n + 1, hn => iprop(owns (c : Thread nD τ) scM1_0 fullShare ((outsAt1 V c n hn).2.2.1) ∗ owns (c : Thread nD τ) scM1_1 fullShare ((outsAt1 V c n hn).2.2.2) ∗ others1 c ∗ (∃ r, prngReg c r))

theorem PhiS1_zero (c : Dev nD) (n : ℕ) (h : n ≤ cfg1.N) (hz : n = 0) :
    PhiS1 V c n h = iprop((∃ d, owns (c : Thread nD τ) scM1_0 fullShare d) ∗ (∃ d, owns (c : Thread nD τ) scM1_1 fullShare d) ∗ others1 c ∗ (∃ r, prngReg c r)) := by
  subst hz; rfl

theorem PhiS1_succ (c : Dev nD) (n : ℕ) (hn : n < cfg1.N) :
    PhiS1 V c (n + 1) hn = iprop(owns (c : Thread nD τ) scM1_0 fullShare ((outsAt1 V c n hn).2.2.1) ∗ owns (c : Thread nD τ) scM1_1 fullShare ((outsAt1 V c n hn).2.2.2) ∗ others1 c ∗ (∃ r, prngReg c r)) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2.2.1) ∗ owns (c : Thread nD τ) scM1_1 fullShare ((outsAt1 V c (n - 1) (by omega)).2.2.2) ∗ others1 c ∗ (∃ r, prngReg c r)) := by
  cases n with
  | zero => exact absurd rfl hz
  | succ n => rfl

/-! ## The proof data -/

/-- The arrays as the region finds them; after the body each input's buffer at its block, the outputs' at the
    accumulation's components; the invariant carrying the accumulators; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem after1_8 (c : Dev nD) (t : Fin cfg1.N) : (dat1 V c).after 8 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 8000000 in
/-- The body at any point.  The inputs' memrefs hold their blocks; `t mod 60` says which case the point is in; the invariant
    hands the body the accumulators at what the point before left (at anything before the first point) and takes them back
    at this point's contents; an idle output window's buffer goes back as it came; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  have hN : t.val < 120 := lt_of_lt_of_eq t.isLt (show cfg1.N = 120 from N_1)
  by_cases h0 : t.val % 60 = 0
  · have h1 : ¬t.val % 60 = 59 := by omega
    rw [Dat.leavesExact_idle (dat1 V c) 7 t (idleAt1_7 t (fun h => h1 ((hcond1_1 t).mp h))) (noFlush1_7 t (fun h => h1 ((hcond1_1 t).mp h))),
      Dat.leavesExact_idle (dat1 V c) 8 t (idleAt1_8 t (fun h => h1 ((hcond1_1 t).mp h))) (noFlush1_8 t (fun h => h1 ((hcond1_1 t).mp h)))]
    rw [outsAt1_A V c t h0 h1]
    unfold sout1_A_0 sout1_A_1; (try dsimp only)
    by_cases hz : t.val = 0
    · rw [PhiS1_castSucc V c t, PhiS1_zero V c _ _ hz]
      iintro ⟨⟨HS0, HS1, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hoth Hg]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    · rw [PhiS1_castSucc V c t, PhiS1_pos V c _ _ hz]
      iintro ⟨⟨HS0, HS1, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, ⟨%es0, HS0⟩, ⟨%es1, HS1⟩⟩
      isplitl [HS0 HS1 Hoth Hg]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
  · have hz : t.val ≠ 0 := fun h => h0 (by rw [h])
    by_cases h1 : t.val % 60 = 59
    · rw [show (dat1 V c).leavesExact 7 t = owns (c : Thread nD τ) (ms1_7 t) fullShare ((dat1 V c).after 7 t) from by
        unfold Dat.leavesExact; rw [liveAt1_7 t ((hcond1_1 t).mpr h1)], after1_7]
      rw [show (dat1 V c).leavesExact 8 t = owns (c : Thread nD τ) (ms1_8 t) fullShare ((dat1 V c).after 8 t) from by
        unfold Dat.leavesExact; rw [liveAt1_8 t ((hcond1_1 t).mpr h1)], after1_8]
      rw [outsAt1_C V c t h0 h1]
      unfold out1_C_7 out1_C_8 sout1_C_0 sout1_C_1; (try dsimp only)
      rw [PhiS1_castSucc V c t, PhiS1_pos V c _ _ hz]
      iintro ⟨⟨HS0, HS1, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, ⟨%e7, H7⟩, ⟨%e8, H8⟩, ⟨%es0, HS0⟩, ⟨%es1, HS1⟩⟩
      isplitl [HS0 HS1 Hoth Hg]
      · isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover1_C_7 c _ _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover1_C_8 c _ _ _ _ _ _ _ _ _ _ _ _ _ _ _ _ _ _ _ _ _ _ _ _ _ _ _ _ _ _ _ _ _ _)
    · rw [Dat.leavesExact_idle (dat1 V c) 7 t (idleAt1_7 t (fun h => h1 ((hcond1_1 t).mp h))) (noFlush1_7 t (fun h => h1 ((hcond1_1 t).mp h))),
        Dat.leavesExact_idle (dat1 V c) 8 t (idleAt1_8 t (fun h => h1 ((hcond1_1 t).mp h))) (noFlush1_8 t (fun h => h1 ((hcond1_1 t).mp h)))]
      rw [outsAt1_B V c t h0 h1]
      unfold sout1_B_0 sout1_B_1; (try dsimp only)
      rw [PhiS1_castSucc V c t, PhiS1_pos V c _ _ hz]
      iintro ⟨⟨HS0, HS1, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hoth Hg]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- What the region is handed at entry — the generator register and every scoped buffer that is no staging buffer of its
    own, each at some contents — is the invariant before the first point. -/
theorem hin1 (c : Dev nD) :
    iprop((∃ r, prngReg c r) ∗ Pipeline.scopedRest (Ix := Unit) (Name := ℕ) (U := UR sig nD τ) (Lvl := ℕ) (Val := Elt F) spec1 c)
      ⊢ (PhiS1 V c 0 (Nat.zero_le _) : sProp 𝕄) := by
  rw [PhiS1_zero V c 0 _ rfl, scopedRest1_eq]; unfold others1
  simp only [scM1_0, scM1_1, owns_whole]
  iintro ⟨Hp, A1, A2, A3, A4, A5, A6, A7, A8, S0, S1, B1, B2, B3, B4, B5, B6⟩
  isplitl [S0]; · iexact S0
  isplitl [S1]; · iexact S1
  isplitl [A1 A2 A3 A4 A5 A6 A7 A8 B1 B2 B3 B4 B5 B6]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [B1]; · iexact B1
    isplitl [B2]; · iexact B2
    isplitl [B3]; · iexact B3
    isplitl [B4]; · iexact B4
    isplitl [B5]; · iexact B5
    iexact B6
  iexact Hp

/-- After any point the invariant gives that back: the accumulators' named contents are forgotten. -/
theorem hout1 (c : Dev nD) (n : ℕ) (h : n ≤ cfg1.N) (hz : n ≠ 0) :
    (PhiS1 V c n h : sProp 𝕄)
      ⊢ iprop((∃ r, prngReg c r) ∗ Pipeline.scopedRest (Ix := Unit) (Name := ℕ) (U := UR sig nD τ) (Lvl := ℕ) (Val := Elt F) spec1 c) := by
  rw [PhiS1_pos V c n h hz, scopedRest1_eq]; unfold others1
  simp only [scM1_0, scM1_1, owns_whole]
  iintro ⟨S0, S1, ⟨A1, A2, A3, A4, A5, A6, A7, A8, B1, B2, B3, B4, B5, B6⟩, Hp⟩
  isplitl [Hp]; · iexact Hp
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [S0]; · iexists _; iexact S0
  isplitl [S1]; · iexists _; iexact S1
  isplitl [B1]; · iexact B1
  isplitl [B2]; · iexact B2
  isplitl [B3]; · iexact B3
  isplitl [B4]; · iexact B4
  isplitl [B5]; · iexact B5
  iexact B6

end

end Cert.Kernel.Fr

end
-- ==== Proof.FrameKernel.Reg2.lean ====
/- Region 2 of @main (the score kernel, pipeline 2): its whole-rectangle half, stated at a parameter
   V — the TensorCore's buffer contents when the region is entered. Three input windows (a 128-row
   block of the first embedding, the bilinear form, the whole second embedding) and one output window
   (a 128-row block of the result): each input's staging buffer holds its block at every point; the
   body loads the three whole rectangles, stores one whole rectangle — the payload of the three loads —
   and so leaves the output buffer at that payload, whatever it held before. -/
import proofs.«179632_j35485019800147_2_alg».proof.Proof.Gen.Kernel.Launch
import proofs.«179632_j35485019800147_2_alg».proof.Proof.Gen.Kernel.Skeleton
import proofs.«179632_j35485019800147_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the buffer contents at the region's entry: every statement below is at this parameter
variable (V : (c : Dev nD) → (b : Ref sig .tc) → Buf (Elt F) ((c : Thread nD τ).loc b))

/-! ## The windows' blocks -/

/-- Window w's block at point t: the rectangle of its array, as the region finds the array, that
    the window's index map selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (a row block of the first embedding, moved at every point): its current staging
    buffer holds its block, for any proof data over the entry contents whose body leaves the block
    in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the bilinear form, one block for the whole grid, moved at the first point only):
    where it is not moved its block index has not changed, so the buffer still holds the block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the whole second embedding, moved at the first point only): likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer read or written as one whole rectangle -/

abbrev r2_0 : Rect S128x128 := Rect.unit (s := S128x128) ![0, 0] S128x128.size inb_S128x128_S128x128_0_0
abbrev r2_1 : Rect S1024x128 := Rect.unit (s := S1024x128) ![0, 0] S1024x128.size inb_S1024x128_S1024x128_0_0
abbrev r2_2 : Rect S128x1024 := Rect.unit (s := S128x1024) ![0, 0] S128x1024.size inb_S128x1024_S128x1024_0_0

/-! ## What the body leaves in the output window's buffer -/

/-- The output buffer after the body, from the three input blocks: its one store, of the payload of
    the three whole-rectangle loads. -/
def out2_3 (x0 : Vec F S128x128 .f32) (x1 : Vec F S128x128 .f32) (x2 : Vec F S1024x128 .f32) : Vec F S128x1024 .f32 :=
  View.canon [⟨r2_2, k2_pay1 (View.ld x0 r2_0) (View.ld x1 r2_0) (View.ld x2 r2_1)⟩]

/-- The one store is of the whole buffer, so it covers every element. -/
theorem cover2_3 (p0 : Vec F S128x1024 .f32) (y : S128x1024.Idx) :
    ∃ pc ∈ ([⟨r2_2, p0⟩] : List (View.Piece (Elt F) S128x1024 .f32)), y ∈ pc.1.set :=
  View.cover_of_tiled [⟨r2_2, p0⟩] S128x1024.size (by rfl) y

/-! ## The body's triple -/

set_option maxHeartbeats 1000000 in
/-- The body on whole staging memrefs — the inputs' at contents x0, x1, x2, the output's at anything —
    runs to the continuation with the inputs' as they were and the output's at out2_3 of them. The
    body also reads the output buffer once before storing; the value read is not used. -/
theorem sound_kernel2 (c : Dev nD) (E : Set ℕ) (i : grid2.Coords) (arg1 : Memref sig .tc .vmem S128x128 .f32) (harg1 : arg1.IsWhole) (arg2 : Memref sig .tc .vmem S128x128 .f32) (harg2 : arg2.IsWhole) (arg3 : Memref sig .tc .vmem S1024x128 .f32) (harg3 : arg3.IsWhole) (arg4 : Memref sig .tc .vmem S128x1024 .f32) (harg4 : arg4.IsWhole)
    (x0 : Vec F S128x128 .f32) (x1 : Vec F S128x128 .f32) (x2 : Vec F S1024x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__score_kernel i arg1 harg1 arg2 harg2 arg3 harg3 arg4 harg4) K := by
  simp only [cc2__score_kernel_eq_skeleton]; unfold cc2__score_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core c: the arrays as the region finds them; after the body at
    point t each input's buffer at its block and the output's at out2_3 of the three input blocks;
    the invariant is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, moved there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Fr

end
-- ==== Proof.FrameKernel.Run.lean ====
/-
  The whole program's run: the two host stretches (reshapes of the biases) and the three kernel regions in order, from the
  launch to the return.  Between two items every unscoped buffer of the core is held at a named valuation: the launch
  memory, then each host stretch's effect, then each region's arrays at what its write-backs leave.  The last valuation
  is read against the final state, so the run ends with EVERY unscoped buffer at it: the arguments walk back to the
  launch memory (no item writes one), the result is what the last region leaves in its output array.
-/
import proofs.«179632_j35485019800147_2_alg».proof.Proof.FrameKernel.Reg0
import proofs.«179632_j35485019800147_2_alg».proof.Proof.FrameKernel.Reg1
import proofs.«179632_j35485019800147_2_alg».proof.Proof.FrameKernel.Reg2

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev Wb0 : Dev nD → Valuation τ sig (Elt F) := fun c b => (s₀ m ρ).mem ((c : Dev nD), b)
/-- After the first host stretch (region 0's entry). -/
abbrev Wb1 : Dev nD → Valuation τ sig (Elt F) := fun c => StableHlo.after hostOps0 (Wb0 m ρ c)
abbrev Vb1 : (c : Dev nD) → (b : Ref sig .tc) → Buf (Elt F) ((c : Thread nD τ).loc b) := fun c b => Wb1 m ρ c b

/-- At region 0's exit: its arrays at what the pipeline leaves (the inputs as entered, each output's write-backs folded),
    every other buffer as entered. -/
def Wb2 (c : Dev nD) : Valuation τ sig (Elt F) :=
  Pipeline.withArrays spec0 c (Wb1 m ρ c) fun w => (dat0 (Vb1 m ρ) c).arrAt w cfg0.N
theorem Wb2_arr (c : Dev nD) (w : Fin cfg0.W) :
    Wb2 m ρ c (Proc.devRef .tc (Pipeline.arrRef spec0 w)) = (dat0 (Vb1 m ρ) c).arrAt w cfg0.N := by
  unfold Wb2; exact Pipeline.withArrays_arr spec0 launch0.win.arr_inj c _ _ w
theorem Wb2_of_ne (c : Dev nD) (b : Ref sig .tc) (hb : ∀ w, Pipeline.arrRef spec0 w ≠ b) :
    Wb2 m ρ c (Proc.devRef .tc b) = Wb1 m ρ c (Proc.devRef .tc b) := by
  unfold Wb2; exact Pipeline.withArrays_of_ne spec0 c _ _ b hb
abbrev Vb2 : (c : Dev nD) → (b : Ref sig .tc) → Buf (Elt F) ((c : Thread nD τ).loc b) := fun c b => Wb2 m ρ c b
theorem hF0 (c : Dev nD) (w : Fin cfg0.W) : (dat0 (Vb1 m ρ) c).arrAt w cfg0.N = Vb2 m ρ c (Pipeline.arrRef spec0 w) :=
  (Wb2_arr m ρ c w).symm
theorem hrest0 (c : Dev nD) : ∀ b, b ∉ Finset.univ.image (Pipeline.arrRef spec0) → Vb2 m ρ c b = Vb1 m ρ c b :=
  fun b hb => Wb2_of_ne m ρ c b fun w e => hb (Finset.mem_image.mpr ⟨w, Finset.mem_univ _, e⟩)

/-- After the second host stretch (region 1's entry). -/
abbrev Wb3 : Dev nD → Valuation τ sig (Elt F) := fun c => StableHlo.after hostOps1 (Wb2 m ρ c)
abbrev Vb3 : (c : Dev nD) → (b : Ref sig .tc) → Buf (Elt F) ((c : Thread nD τ).loc b) := fun c b => Wb3 m ρ c b

/-- At region 1's exit: its arrays at what the pipeline leaves (the inputs as entered, each output's write-backs folded),
    every other buffer as entered. -/
def Wb4 (c : Dev nD) : Valuation τ sig (Elt F) :=
  Pipeline.withArrays spec1 c (Wb3 m ρ c) fun w => (dat1 (Vb3 m ρ) c).arrAt w cfg1.N
theorem Wb4_arr (c : Dev nD) (w : Fin cfg1.W) :
    Wb4 m ρ c (Proc.devRef .tc (Pipeline.arrRef spec1 w)) = (dat1 (Vb3 m ρ) c).arrAt w cfg1.N := by
  unfold Wb4; exact Pipeline.withArrays_arr spec1 launch1.win.arr_inj c _ _ w
theorem Wb4_of_ne (c : Dev nD) (b : Ref sig .tc) (hb : ∀ w, Pipeline.arrRef spec1 w ≠ b) :
    Wb4 m ρ c (Proc.devRef .tc b) = Wb3 m ρ c (Proc.devRef .tc b) := by
  unfold Wb4; exact Pipeline.withArrays_of_ne spec1 c _ _ b hb
abbrev Vb4 : (c : Dev nD) → (b : Ref sig .tc) → Buf (Elt F) ((c : Thread nD τ).loc b) := fun c b => Wb4 m ρ c b
theorem hF1 (c : Dev nD) (w : Fin cfg1.W) : (dat1 (Vb3 m ρ) c).arrAt w cfg1.N = Vb4 m ρ c (Pipeline.arrRef spec1 w) :=
  (Wb4_arr m ρ c w).symm
theorem hrest1 (c : Dev nD) : ∀ b, b ∉ Finset.univ.image (Pipeline.arrRef spec1) → Vb4 m ρ c b = Vb3 m ρ c b :=
  fun b hb => Wb4_of_ne m ρ c b fun w e => hb (Finset.mem_image.mpr ⟨w, Finset.mem_univ _, e⟩)

/-- At region 2's exit: its arrays at what the pipeline leaves (the inputs as entered, each output's write-backs folded),
    every other buffer as entered. -/
def Wb5 (c : Dev nD) : Valuation τ sig (Elt F) :=
  Pipeline.withArrays spec2 c (Wb4 m ρ c) fun w => (dat2 (Vb4 m ρ) c).arrAt w cfg2.N
theorem Wb5_arr (c : Dev nD) (w : Fin cfg2.W) :
    Wb5 m ρ c (Proc.devRef .tc (Pipeline.arrRef spec2 w)) = (dat2 (Vb4 m ρ) c).arrAt w cfg2.N := by
  unfold Wb5; exact Pipeline.withArrays_arr spec2 launch2.win.arr_inj c _ _ w
theorem Wb5_of_ne (c : Dev nD) (b : Ref sig .tc) (hb : ∀ w, Pipeline.arrRef spec2 w ≠ b) :
    Wb5 m ρ c (Proc.devRef .tc b) = Wb4 m ρ c (Proc.devRef .tc b) := by
  unfold Wb5; exact Pipeline.withArrays_of_ne spec2 c _ _ b hb
abbrev Vb5 : (c : Dev nD) → (b : Ref sig .tc) → Buf (Elt F) ((c : Thread nD τ).loc b) := fun c b => Wb5 m ρ c b
theorem hF2 (c : Dev nD) (w : Fin cfg2.W) : (dat2 (Vb4 m ρ) c).arrAt w cfg2.N = Vb5 m ρ c (Pipeline.arrRef spec2 w) :=
  (Wb5_arr m ρ c w).symm
theorem hrest2 (c : Dev nD) : ∀ b, b ∉ Finset.univ.image (Pipeline.arrRef spec2) → Vb5 m ρ c b = Vb4 m ρ c b :=
  fun b hb => Wb5_of_ne m ρ c b fun w e => hb (Finset.mem_image.mpr ⟨w, Finset.mem_univ _, e⟩)

/-! ## The arguments end as launched -/

theorem Wb5_main_arg0 (c : Dev nD) : Wb5 m ρ c (Proc.devRef .tc main_arg0) = m ((c : Thread nD τ).loc main_arg0) :=
  calc Wb5 m ρ c (Proc.devRef .tc main_arg0)
    _ = Wb4 m ρ c (Proc.devRef .tc main_arg0) := Wb5_of_ne m ρ c main_arg0 (by decide)
    _ = Wb3 m ρ c (Proc.devRef .tc main_arg0) := Wb4_of_ne m ρ c main_arg0 (by decide)
    _ = Wb2 m ρ c (Proc.devRef .tc main_arg0) := StableHlo.after_of_forall_not_mem (b := Proc.devRef .tc main_arg0) _ _ (List.forall_iff_forall_mem.mp (by
          simp only [hostOps1, List.Forall, StableHlo.reshape_writes, Finset.mem_singleton]
          repeat' apply And.intro
          all_goals exact StableHlo.devRef_ne_of_ne (by decide)))
    _ = Wb1 m ρ c (Proc.devRef .tc main_arg0) := (Wb2_arr m ρ c 0).trans (((dat0 (Vb1 m ρ) c).arrAt_in 0 rfl _).trans (A_eq0 (Vb1 m ρ) c 0))
    _ = Wb0 m ρ c (Proc.devRef .tc main_arg0) := StableHlo.after_of_forall_not_mem (b := Proc.devRef .tc main_arg0) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg0) := rfl

theorem Wb5_main_arg1 (c : Dev nD) : Wb5 m ρ c (Proc.devRef .tc main_arg1) = m ((c : Thread nD τ).loc main_arg1) :=
  calc Wb5 m ρ c (Proc.devRef .tc main_arg1)
    _ = Wb4 m ρ c (Proc.devRef .tc main_arg1) := Wb5_of_ne m ρ c main_arg1 (by decide)
    _ = Wb3 m ρ c (Proc.devRef .tc main_arg1) := (Wb4_arr m ρ c 0).trans (((dat1 (Vb3 m ρ) c).arrAt_in 0 rfl _).trans (A_eq1 (Vb3 m ρ) c 0))
    _ = Wb2 m ρ c (Proc.devRef .tc main_arg1) := StableHlo.after_of_forall_not_mem (b := Proc.devRef .tc main_arg1) _ _ (List.forall_iff_forall_mem.mp (by
          simp only [hostOps1, List.Forall, StableHlo.reshape_writes, Finset.mem_singleton]
          repeat' apply And.intro
          all_goals exact StableHlo.devRef_ne_of_ne (by decide)))
    _ = Wb1 m ρ c (Proc.devRef .tc main_arg1) := Wb2_of_ne m ρ c main_arg1 (by decide)
    _ = Wb0 m ρ c (Proc.devRef .tc main_arg1) := StableHlo.after_of_forall_not_mem (b := Proc.devRef .tc main_arg1) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg1) := rfl

theorem Wb5_main_arg2 (c : Dev nD) : Wb5 m ρ c (Proc.devRef .tc main_arg2) = m ((c : Thread nD τ).loc main_arg2) :=
  calc Wb5 m ρ c (Proc.devRef .tc main_arg2)
    _ = Wb4 m ρ c (Proc.devRef .tc main_arg2) := Wb5_of_ne m ρ c main_arg2 (by decide)
    _ = Wb3 m ρ c (Proc.devRef .tc main_arg2) := (Wb4_arr m ρ c 1).trans (((dat1 (Vb3 m ρ) c).arrAt_in 1 rfl _).trans (A_eq1 (Vb3 m ρ) c 1))
    _ = Wb2 m ρ c (Proc.devRef .tc main_arg2) := StableHlo.after_of_forall_not_mem (b := Proc.devRef .tc main_arg2) _ _ (List.forall_iff_forall_mem.mp (by
          simp only [hostOps1, List.Forall, StableHlo.reshape_writes, Finset.mem_singleton]
          repeat' apply And.intro
          all_goals exact StableHlo.devRef_ne_of_ne (by decide)))
    _ = Wb1 m ρ c (Proc.devRef .tc main_arg2) := Wb2_of_ne m ρ c main_arg2 (by decide)
    _ = Wb0 m ρ c (Proc.devRef .tc main_arg2) := StableHlo.after_of_forall_not_mem (b := Proc.devRef .tc main_arg2) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg2) := rfl

theorem Wb5_main_arg3 (c : Dev nD) : Wb5 m ρ c (Proc.devRef .tc main_arg3) = m ((c : Thread nD τ).loc main_arg3) :=
  calc Wb5 m ρ c (Proc.devRef .tc main_arg3)
    _ = Wb4 m ρ c (Proc.devRef .tc main_arg3) := Wb5_of_ne m ρ c main_arg3 (by decide)
    _ = Wb3 m ρ c (Proc.devRef .tc main_arg3) := Wb4_of_ne m ρ c main_arg3 (by decide)
    _ = Wb2 m ρ c (Proc.devRef .tc main_arg3) := StableHlo.after_of_forall_not_mem (b := Proc.devRef .tc main_arg3) _ _ (List.forall_iff_forall_mem.mp (by
          simp only [hostOps1, List.Forall, StableHlo.reshape_writes, Finset.mem_singleton]
          repeat' apply And.intro
          all_goals exact StableHlo.devRef_ne_of_ne (by decide)))
    _ = Wb1 m ρ c (Proc.devRef .tc main_arg3) := (Wb2_arr m ρ c 1).trans (((dat0 (Vb1 m ρ) c).arrAt_in 1 rfl _).trans (A_eq0 (Vb1 m ρ) c 1))
    _ = Wb0 m ρ c (Proc.devRef .tc main_arg3) := StableHlo.after_of_forall_not_mem (b := Proc.devRef .tc main_arg3) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg3) := rfl

theorem Wb5_main_arg4 (c : Dev nD) : Wb5 m ρ c (Proc.devRef .tc main_arg4) = m ((c : Thread nD τ).loc main_arg4) :=
  calc Wb5 m ρ c (Proc.devRef .tc main_arg4)
    _ = Wb4 m ρ c (Proc.devRef .tc main_arg4) := Wb5_of_ne m ρ c main_arg4 (by decide)
    _ = Wb3 m ρ c (Proc.devRef .tc main_arg4) := Wb4_of_ne m ρ c main_arg4 (by decide)
    _ = Wb2 m ρ c (Proc.devRef .tc main_arg4) := StableHlo.after_of_forall_not_mem (b := Proc.devRef .tc main_arg4) _ _ (List.forall_iff_forall_mem.mp (by
          simp only [hostOps1, List.Forall, StableHlo.reshape_writes, Finset.mem_singleton]
          repeat' apply And.intro
          all_goals exact StableHlo.devRef_ne_of_ne (by decide)))
    _ = Wb1 m ρ c (Proc.devRef .tc main_arg4) := Wb2_of_ne m ρ c main_arg4 (by decide)
    _ = Wb0 m ρ c (Proc.devRef .tc main_arg4) := StableHlo.after_of_forall_not_mem (b := Proc.devRef .tc main_arg4) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg4) := rfl

theorem Wb5_main_arg5 (c : Dev nD) : Wb5 m ρ c (Proc.devRef .tc main_arg5) = m ((c : Thread nD τ).loc main_arg5) :=
  calc Wb5 m ρ c (Proc.devRef .tc main_arg5)
    _ = Wb4 m ρ c (Proc.devRef .tc main_arg5) := Wb5_of_ne m ρ c main_arg5 (by decide)
    _ = Wb3 m ρ c (Proc.devRef .tc main_arg5) := Wb4_of_ne m ρ c main_arg5 (by decide)
    _ = Wb2 m ρ c (Proc.devRef .tc main_arg5) := StableHlo.after_of_forall_not_mem (b := Proc.devRef .tc main_arg5) _ _ (List.forall_iff_forall_mem.mp (by
          simp only [hostOps1, List.Forall, StableHlo.reshape_writes, Finset.mem_singleton]
          repeat' apply And.intro
          all_goals exact StableHlo.devRef_ne_of_ne (by decide)))
    _ = Wb1 m ρ c (Proc.devRef .tc main_arg5) := (Wb2_arr m ρ c 3).trans (((dat0 (Vb1 m ρ) c).arrAt_in 3 rfl _).trans (A_eq0 (Vb1 m ρ) c 3))
    _ = Wb0 m ρ c (Proc.devRef .tc main_arg5) := StableHlo.after_of_forall_not_mem (b := Proc.devRef .tc main_arg5) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg5) := rfl

theorem Wb5_main_arg6 (c : Dev nD) : Wb5 m ρ c (Proc.devRef .tc main_arg6) = m ((c : Thread nD τ).loc main_arg6) :=
  calc Wb5 m ρ c (Proc.devRef .tc main_arg6)
    _ = Wb4 m ρ c (Proc.devRef .tc main_arg6) := Wb5_of_ne m ρ c main_arg6 (by decide)
    _ = Wb3 m ρ c (Proc.devRef .tc main_arg6) := Wb4_of_ne m ρ c main_arg6 (by decide)
    _ = Wb2 m ρ c (Proc.devRef .tc main_arg6) := StableHlo.after_of_forall_not_mem (b := Proc.devRef .tc main_arg6) _ _ (List.forall_iff_forall_mem.mp (by
          simp only [hostOps1, List.Forall, StableHlo.reshape_writes, Finset.mem_singleton]
          repeat' apply And.intro
          all_goals exact StableHlo.devRef_ne_of_ne (by decide)))
    _ = Wb1 m ρ c (Proc.devRef .tc main_arg6) := Wb2_of_ne m ρ c main_arg6 (by decide)
    _ = Wb0 m ρ c (Proc.devRef .tc main_arg6) := StableHlo.after_of_forall_not_mem (b := Proc.devRef .tc main_arg6) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg6) := rfl

theorem Wb5_main_arg7 (c : Dev nD) : Wb5 m ρ c (Proc.devRef .tc main_arg7) = m ((c : Thread nD τ).loc main_arg7) :=
  calc Wb5 m ρ c (Proc.devRef .tc main_arg7)
    _ = Wb4 m ρ c (Proc.devRef .tc main_arg7) := Wb5_of_ne m ρ c main_arg7 (by decide)
    _ = Wb3 m ρ c (Proc.devRef .tc main_arg7) := (Wb4_arr m ρ c 2).trans (((dat1 (Vb3 m ρ) c).arrAt_in 2 rfl _).trans (A_eq1 (Vb3 m ρ) c 2))
    _ = Wb2 m ρ c (Proc.devRef .tc main_arg7) := StableHlo.after_of_forall_not_mem (b := Proc.devRef .tc main_arg7) _ _ (List.forall_iff_forall_mem.mp (by
          simp only [hostOps1, List.Forall, StableHlo.reshape_writes, Finset.mem_singleton]
          repeat' apply And.intro
          all_goals exact StableHlo.devRef_ne_of_ne (by decide)))
    _ = Wb1 m ρ c (Proc.devRef .tc main_arg7) := Wb2_of_ne m ρ c main_arg7 (by decide)
    _ = Wb0 m ρ c (Proc.devRef .tc main_arg7) := StableHlo.after_of_forall_not_mem (b := Proc.devRef .tc main_arg7) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg7) := rfl

theorem Wb5_main_arg8 (c : Dev nD) : Wb5 m ρ c (Proc.devRef .tc main_arg8) = m ((c : Thread nD τ).loc main_arg8) :=
  calc Wb5 m ρ c (Proc.devRef .tc main_arg8)
    _ = Wb4 m ρ c (Proc.devRef .tc main_arg8) := Wb5_of_ne m ρ c main_arg8 (by decide)
    _ = Wb3 m ρ c (Proc.devRef .tc main_arg8) := Wb4_of_ne m ρ c main_arg8 (by decide)
    _ = Wb2 m ρ c (Proc.devRef .tc main_arg8) := StableHlo.after_of_forall_not_mem (b := Proc.devRef .tc main_arg8) _ _ (List.forall_iff_forall_mem.mp (by
          simp only [hostOps1, List.Forall, StableHlo.reshape_writes, Finset.mem_singleton]
          repeat' apply And.intro
          all_goals exact StableHlo.devRef_ne_of_ne (by decide)))
    _ = Wb1 m ρ c (Proc.devRef .tc main_arg8) := Wb2_of_ne m ρ c main_arg8 (by decide)
    _ = Wb0 m ρ c (Proc.devRef .tc main_arg8) := StableHlo.after_of_forall_not_mem (b := Proc.devRef .tc main_arg8) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg8) := rfl

theorem Wb5_main_arg9 (c : Dev nD) : Wb5 m ρ c (Proc.devRef .tc main_arg9) = m ((c : Thread nD τ).loc main_arg9) :=
  calc Wb5 m ρ c (Proc.devRef .tc main_arg9)
    _ = Wb4 m ρ c (Proc.devRef .tc main_arg9) := Wb5_of_ne m ρ c main_arg9 (by decide)
    _ = Wb3 m ρ c (Proc.devRef .tc main_arg9) := (Wb4_arr m ρ c 4).trans (((dat1 (Vb3 m ρ) c).arrAt_in 4 rfl _).trans (A_eq1 (Vb3 m ρ) c 4))
    _ = Wb2 m ρ c (Proc.devRef .tc main_arg9) := StableHlo.after_of_forall_not_mem (b := Proc.devRef .tc main_arg9) _ _ (List.forall_iff_forall_mem.mp (by
          simp only [hostOps1, List.Forall, StableHlo.reshape_writes, Finset.mem_singleton]
          repeat' apply And.intro
          all_goals exact StableHlo.devRef_ne_of_ne (by decide)))
    _ = Wb1 m ρ c (Proc.devRef .tc main_arg9) := Wb2_of_ne m ρ c main_arg9 (by decide)
    _ = Wb0 m ρ c (Proc.devRef .tc main_arg9) := StableHlo.after_of_forall_not_mem (b := Proc.devRef .tc main_arg9) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg9) := rfl

theorem Wb5_main_arg10 (c : Dev nD) : Wb5 m ρ c (Proc.devRef .tc main_arg10) = m ((c : Thread nD τ).loc main_arg10) :=
  calc Wb5 m ρ c (Proc.devRef .tc main_arg10)
    _ = Wb4 m ρ c (Proc.devRef .tc main_arg10) := Wb5_of_ne m ρ c main_arg10 (by decide)
    _ = Wb3 m ρ c (Proc.devRef .tc main_arg10) := Wb4_of_ne m ρ c main_arg10 (by decide)
    _ = Wb2 m ρ c (Proc.devRef .tc main_arg10) := StableHlo.after_of_forall_not_mem (b := Proc.devRef .tc main_arg10) _ _ (List.forall_iff_forall_mem.mp (by
          simp only [hostOps1, List.Forall, StableHlo.reshape_writes, Finset.mem_singleton]
          repeat' apply And.intro
          all_goals exact StableHlo.devRef_ne_of_ne (by decide)))
    _ = Wb1 m ρ c (Proc.devRef .tc main_arg10) := Wb2_of_ne m ρ c main_arg10 (by decide)
    _ = Wb0 m ρ c (Proc.devRef .tc main_arg10) := StableHlo.after_of_forall_not_mem (b := Proc.devRef .tc main_arg10) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg10) := rfl

theorem Wb5_main_arg11 (c : Dev nD) : Wb5 m ρ c (Proc.devRef .tc main_arg11) = m ((c : Thread nD τ).loc main_arg11) :=
  calc Wb5 m ρ c (Proc.devRef .tc main_arg11)
    _ = Wb4 m ρ c (Proc.devRef .tc main_arg11) := (Wb5_arr m ρ c 1).trans (((dat2 (Vb4 m ρ) c).arrAt_in 1 rfl _).trans (A_eq2 (Vb4 m ρ) c 1))
    _ = Wb3 m ρ c (Proc.devRef .tc main_arg11) := Wb4_of_ne m ρ c main_arg11 (by decide)
    _ = Wb2 m ρ c (Proc.devRef .tc main_arg11) := StableHlo.after_of_forall_not_mem (b := Proc.devRef .tc main_arg11) _ _ (List.forall_iff_forall_mem.mp (by
          simp only [hostOps1, List.Forall, StableHlo.reshape_writes, Finset.mem_singleton]
          repeat' apply And.intro
          all_goals exact StableHlo.devRef_ne_of_ne (by decide)))
    _ = Wb1 m ρ c (Proc.devRef .tc main_arg11) := Wb2_of_ne m ρ c main_arg11 (by decide)
    _ = Wb0 m ρ c (Proc.devRef .tc main_arg11) := StableHlo.after_of_forall_not_mem (b := Proc.devRef .tc main_arg11) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg11) := rfl

/-- The result array ends at what the last region's write-backs leave. -/
theorem Wb5_result (c : Dev nD) : Wb5 m ρ c (Proc.devRef .tc main_v6) = (dat2 (Vb4 m ρ) c).arrAt 3 cfg2.N :=
  Wb5_arr m ρ c 3

/-! ## The proof data family and the thread state -/

abbrev admF : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) admF p) c
  | ⟨0, _⟩ => fun c => dat0 (Vb1 m ρ) c
  | ⟨1, _⟩ => fun c => dat1 (Vb3 m ρ) c
  | ⟨2, _⟩ => fun c => dat2 (Vb4 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (Wb5 m ρ c) ∗ ∃ r, prngReg c r)

/-- After any point but the first, region 1's invariant gives back the generator register and the scoped buffers it was
    handed, the accumulators' named contents forgotten. -/
theorem Phi1_out (c : Dev nD) (t : Fin (cfg1.N + 1)) (ht : t.val ≠ 0) :
    (pdats m ρ 1 c).Φ t ⊢ (iprop((∃ r, prngReg c r) ∗ Pipeline.scopedRest (Ix := Unit) (Name := ℕ) (U := UR sig nD τ) (Lvl := ℕ) (Val := Elt F) spec1 c) : sProp 𝕄) := by
  rw [show (pdats m ρ 1 c).Φ t = PhiS1 (Vb3 m ρ) c t.val (Nat.le_of_lt_succ t.isLt) from rfl]
  exact hout1 (Vb3 m ρ) c _ _ ht

/-! ## The regions as segments -/

set_option backward.isDefEq.respectTransparency.types false in
/-- Region 0 over the thread state: entered from every unscoped buffer at `Wb1`, left at `Wb2`.  Its arrays are split out of
    the unscoped buffers and put back at the exit contents; the generator register goes into the region's invariant and comes
    back; nothing is owed; the kernel has no semaphore of its own. -/
def reg0 : Pipeline.RegionSeg (pcfgs (F := F)) admF (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vb1 m ρ) c).loose
  hwaits := Pipeline.hwaits_of_owed_zero _ _ _ _ L lv 0 fun _ _ => rfl
  pre c := iprop(StableHlo.held (c : Thread nD τ) (Pipeline.ucRefs τ sig) (Wb1 m ρ c) ∗ R c)
  post c := iprop(StableHlo.held (c : Thread nD τ) (Pipeline.ucRefs τ sig) (Wb2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vb1 m ρ c)
  hentry c := by
    rw [Pipeline.ownSems0_none]
    have hsplit := Pipeline.arrays_of_unscopedBufs (p := 0) (pcfgs (F := F)) admF (pdats m ρ) launch0.win launch0.arr_whole c
      ((pdats m ρ 0 c).share_full fun _ => rfl) (Vb1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdats m ρ) ((pdats m ρ 0 c).share_full fun _ => rfl)
      (Vb1 m ρ c) (Vb2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `Wb3`, left at `Wb4`.  Its arrays are split out of
    the unscoped buffers and put back at the exit contents; the generator register goes into the region's invariant and comes
    back; nothing is owed; the kernel has no semaphore of its own. -/
def reg1 : Pipeline.RegionSeg (pcfgs (F := F)) admF (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb3 m ρ) c).loose
  hwaits := Pipeline.hwaits_of_owed_zero _ _ _ _ L lv 1 fun _ _ => rfl
  pre c := iprop(StableHlo.held (c : Thread nD τ) (Pipeline.ucRefs τ sig) (Wb3 m ρ c) ∗ R c)
  post c := iprop(StableHlo.held (c : Thread nD τ) (Pipeline.ucRefs τ sig) (Wb4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vb3 m ρ c)
  hentry c := by
    rw [Pipeline.ownSems0_none]
    have hsplit := Pipeline.arrays_of_unscopedBufs (p := 1) (pcfgs (F := F)) admF (pdats m ρ) launch1.win launch1.arr_whole c
      ((pdats m ρ 1 c).share_full fun _ => rfl) (Vb3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = PhiS1 (Vb3 m ρ) c 0 (Nat.zero_le _) from rfl]
    iintro ⟨Hp, -, Hr⟩
    iapply (hin1 (Vb3 m ρ) c)
    isplitl [Hp]; · iexact Hp
    iexact Hr
  hout c := by
    rw [Pipeline.ownSems0_none]
    have h := Phi1_out m ρ c (Fin.last _) (by rw [Fin.val_last]; have : cfg1.N = 120 := N_1; omega)
    iintro H
    ihave H' := h $$ H
    icases H' with ⟨Hp, Hr⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdats m ρ) ((pdats m ρ 1 c).share_full fun _ => rfl)
      (Vb3 m ρ c) (Vb4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `Wb4`, left at `Wb5`.  Its arrays are split out of
    the unscoped buffers and put back at the exit contents; the generator register goes into the region's invariant and comes
    back; nothing is owed; the kernel has no semaphore of its own. -/
def reg2 : Pipeline.RegionSeg (pcfgs (F := F)) admF (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vb4 m ρ) c).loose
  hwaits := Pipeline.hwaits_of_owed_zero _ _ _ _ L lv 2 fun _ _ => rfl
  pre c := iprop(StableHlo.held (c : Thread nD τ) (Pipeline.ucRefs τ sig) (Wb4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vb4 m ρ c)
  hentry c := by
    rw [Pipeline.ownSems0_none]
    have hsplit := Pipeline.arrays_of_unscopedBufs (p := 2) (pcfgs (F := F)) admF (pdats m ρ) launch2.win launch2.arr_whole c
      ((pdats m ρ 2 c).share_full fun _ => rfl) (Vb4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admF (Ix := Unit) (Name := ℕ) (U := UR sig nD τ) (Lvl := ℕ)
      launch2.win launch2.arr_whole c (pdats m ρ) ((pdats m ρ 2 c).share_full fun _ => rfl)
      (Vb4 m ρ c) (Vb5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) admF (pdats m ρ) () defs₀ 𝒱₀ L lv) :=
  [ .host (hseg hostOps0 hostOps0_sub ops0_fresh (Wb0 m ρ)),
    .region (reg0 m ρ),
    .host (hseg hostOps1 hostOps1_sub ops1_fresh (Wb2 m ρ)),
    .region (reg1 m ρ),
    .region (reg2 m ρ) ]

theorem main_run (c : Dev nD) : main (F := F) c = Pipeline.Seg.run (segs m ρ) := (main_chain c).trans (by chain_rfl)

set_option backward.isDefEq.respectTransparency.types false in
/-- THE RUN, at any float instance: from any memory with zero counters every weakly fair execution of the program
    terminates, nothing faulting, and the final memory holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wb5 m ρ c b) :=
  Pipeline.θ_run_regions_kit (pcfgs (F := F)) admF (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wb0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wb0 m ρ c)
        from Pipeline.unscopedBufs_held c (Wb0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb5 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wb5 m ρ c) s')
      isplitl [Hh] <;> iassumption)
    (hQ := fun s h c => h c)

/-- The frame at any float instance: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (Wb5_main_arg0 m ρ c),
     (h c _ (mem_uc main_arg1 (by decide))).trans (Wb5_main_arg1 m ρ c),
     (h c _ (mem_uc main_arg2 (by decide))).trans (Wb5_main_arg2 m ρ c),
     (h c _ (mem_uc main_arg3 (by decide))).trans (Wb5_main_arg3 m ρ c),
     (h c _ (mem_uc main_arg4 (by decide))).trans (Wb5_main_arg4 m ρ c),
     (h c _ (mem_uc main_arg5 (by decide))).trans (Wb5_main_arg5 m ρ c),
     (h c _ (mem_uc main_arg6 (by decide))).trans (Wb5_main_arg6 m ρ c),
     (h c _ (mem_uc main_arg7 (by decide))).trans (Wb5_main_arg7 m ρ c),
     (h c _ (mem_uc main_arg8 (by decide))).trans (Wb5_main_arg8 m ρ c),
     (h c _ (mem_uc main_arg9 (by decide))).trans (Wb5_main_arg9 m ρ c),
     (h c _ (mem_uc main_arg10 (by decide))).trans (Wb5_main_arg10 m ρ c),
     (h c _ (mem_uc main_arg11 (by decide))).trans (Wb5_main_arg11 m ρ c)⟩) (run_all m ρ)

end Cert.Kernel.Fr

end
-- ==== Proof.FrameKernelIdeal.Reg0.lean ====
/-
  The spatial two-layer perceptron (the first of the three TensorCore calls), as the pipeline runs it: the half of its
  frame proof that is stated at a parameter V, the TensorCore's buffer contents when the call is entered.

  The call has six windows over a grid of two points. Window 0 is the 512-row block of the node matrix of the point;
  windows 1 to 4 are the two weight matrices and the two bias rows, whole, with a constant block index; window 5 is
  the 512-row block of the result. The body reads the five input buffers whole and writes the result buffer whole,
  once, so what it leaves there is a function of the five input blocks alone.
-/
import proofs.«179632_j35485019800147_2_alg».proof.Proof.Gen.KernelIdeal.Launch
import proofs.«179632_j35485019800147_2_alg».proof.Proof.Gen.KernelIdeal.Skeleton
import proofs.«179632_j35485019800147_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents of each core when the call is entered
variable (V : (c : Dev nD) → (b : Ref sig .tc) → Buf (Elt F) ((c : Thread nD τ).loc b))

/-! ## The blocks of the windows -/

/-- The block of window w at grid point t: the rectangle of the window's array, as the call finds it, that the block
    index of the point selects. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of the node-matrix window holds the block of the point when the body starts: the window is an
    input, is fetched whole, and the body leaves it as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the first weight matrix. Its block index is constant, so at the second point, where nothing is fetched,
    the buffer still holds the first point's block, which is the second point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the first bias row. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The same for the second weight matrix. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The same for the second bias row. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each buffer, whole -/

abbrev r0_0 : Rect S512x1024 := Rect.unit (s := S512x1024) ![0, 0] S512x1024.size inb_S512x1024_S512x1024_0_0
abbrev r0_1 : Rect S1024x256 := Rect.unit (s := S1024x256) ![0, 0] S1024x256.size inb_S1024x256_S1024x256_0_0
abbrev r0_2 : Rect S1x256 := Rect.unit (s := S1x256) ![0, 0] S1x256.size inb_S1x256_S1x256_0_0
abbrev r0_3 : Rect S256x128 := Rect.unit (s := S256x128) ![0, 0] S256x128.size inb_S256x128_S256x128_0_0
abbrev r0_4 : Rect S1x128 := Rect.unit (s := S1x128) ![0, 0] S1x128.size inb_S1x128_S1x128_0_0
abbrev r0_5 : Rect S512x128 := Rect.unit (s := S512x128) ![0, 0] S512x128.size inb_S512x128_S512x128_0_0

/-! ## What the body leaves in the result buffer -/

/-- The result buffer after the body, as a function of the five input buffers' contents: one write of the whole
    buffer, its value the second layer's rectified output computed from what the five loads read. -/
def out0_5 (x0 : Vec F S512x1024 .f32) (x1 : Vec F S1024x256 .f32) (x2 : Vec F S1x256 .f32) (x3 : Vec F S256x128 .f32)
    (x4 : Vec F S1x128 .f32) : Vec F S512x128 .f32 :=
  View.canon [⟨r0_5, k0_pay1 (View.ld x0 r0_0) (View.ld x1 r0_1) (View.ld x2 r0_2) (View.ld x3 r0_3) (View.ld x4 r0_4)⟩]

/-- The one write is of the whole buffer, so every index of the buffer lies in it. -/
theorem cover0_5 (p0 : Vec F S512x128 .f32) (y : S512x128.Idx) :
    ∃ pc ∈ ([⟨r0_5, p0⟩] : List (View.Piece (Elt F) S512x128 .f32)), y ∈ pc.1.set :=
  View.cover_of_tiled [⟨r0_5, p0⟩] S512x128.size (by rfl) y

/-! ## The body's triple -/

set_option maxHeartbeats 1000000 in
/-- The body run on six whole staging buffers, the five inputs holding x0 .. x4 and the result buffer anything, ends with
    the inputs unchanged and the result buffer at out0_5 of them. (The body also reads the result buffer once before
    it writes it; the value read is not used.) -/
theorem sound_kernel0 (c : Dev nD) (E : Set ℕ) (i : grid0.Coords)
    (arg1 : Memref sig .tc .vmem S512x1024 .f32) (harg1 : arg1.IsWhole) (arg2 : Memref sig .tc .vmem S1024x256 .f32) (harg2 : arg2.IsWhole)
    (arg3 : Memref sig .tc .vmem S1x256 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S512x128 .f32) (harg6 : arg6.IsWhole)
    (x0 : Vec F S512x1024 .f32) (x1 : Vec F S1024x256 .f32) (x2 : Vec F S1x256 .f32) (x3 : Vec F S256x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__spatial_kernel i arg1 harg1 arg2 harg2 arg3 harg3 arg4 harg4 arg5 harg5 arg6 harg6) K := by
  simp only [cc0__spatial_kernel_eq_skeleton]; unfold cc0__spatial_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The proof data of the pipeline -/

/-- The proof data of the call on core c. The arrays are as the call finds them; after the body at point t each input
    buffer holds its block and the result buffer holds out0_5 of the five blocks; the invariant carried from point to
    point is the plain one (the scoped buffers the body does not name and the generator register, untouched); the core
    owes nothing; all shares are full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The arrays of the proof data are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

/-- What each input buffer holds when the body starts: the window's block at the point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation at a generic point -/

/-- What the body is started with at point t: the invariant, the core's debts, and the six current staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: each input buffer holds its block, so the body's triple applies at the five blocks; the
    invariant and the core's debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.FrameKernelIdeal.Reg1Runs.lean ====
/-
  Region 1 (the fused temporal kernel): what its three control cases share.

  The grid is 2 × 60; the second coordinate k walks the sixty blocks of the contracted axis.  The body zeroes its two
  accumulators when k = 0, adds one block's product into each at every k, and when k = 59 finishes both embeddings from
  the accumulators and stores them.  So a grid point is in one of three cases — first (k = 0), middle, last (k = 59) —,
  the two output windows are touched at the last k only, and the accumulators are carried from point to point.
-/
import proofs.«179632_j35485019800147_2_alg».proof.Proof.Gen.KernelIdeal.Launch
import proofs.«179632_j35485019800147_2_alg».proof.Proof.Gen.KernelIdeal.Skeleton
import proofs.«179632_j35485019800147_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or carried over (its block
    index has not moved since the fetch), for any proof data whose array is the entry contents and whose body leaves
    the inputs in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end

/-! ## The two conditions of the body, in closed form over the grid -/

/-- `k = 0`: the accumulators are zeroed. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 60 = 0 :=
  (by decide +kernel : ∀ t : Fin grid1.N, cond1_0 (grid1.coords t) ↔ t.val % 60 = 0)

/-- `k = 59`: the embeddings are finished and stored. -/
abbrev cond1_1 (i : grid1.Coords) : Prop := k1_cond2 i = 1#1
theorem hcond1_1 : ∀ t : Fin cfg1.N, cond1_1 (grid1.coords t) ↔ t.val % 60 = 59 :=
  (by decide +kernel : ∀ t : Fin grid1.N, cond1_1 (grid1.coords t) ↔ t.val % 60 = 59)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- Away from the last `k` the two output windows are idle and not written back. -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
theorem liveAt1_8 : ∀ t : Fin cfg1.N, cond1_1 (grid1.coords t) → cfg1.idle 8 (grid1.coords t) = false := by decide +kernel

/-! ## The memrefs the body is called with -/

/-- One staging buffer of each output window, through which its contents are stated. -/
abbrev VO1_7 : View sig .tc .vmem S512x128 .f32 := (Memref.whole cc1_stg7_0 : Memref sig .tc .vmem S512x128 .f32).view
abbrev VO1_8 : View sig .tc .vmem S512x128 .f32 := (Memref.whole cc1_stg8_0 : Memref sig .tc .vmem S512x128 .f32).view
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x128 .f32 := win1_8.stage (cfg1.slots t 8)
abbrev hs1_8 (t : Fin cfg1.N) : (ms1_8 t).IsWhole := hstage1_8 ((cfg1.slots t 8).cast nbuf1_8)
/-- The two accumulators: whole scoped buffers of the kernel's own. -/
abbrev scM1_0 : Memref sig .tc .vmem S512x256 .f32 := Memref.whole cc1_scratch0
abbrev scM1_1 : Memref sig .tc .vmem S512x256 .f32 := Memref.whole cc1_scratch1
abbrev VS1_0 : View sig .tc .vmem S512x256 .f32 := scM1_0.view
abbrev VS1_1 : View sig .tc .vmem S512x256 .f32 := scM1_1.view

end Cert.KernelIdeal.Fr

end
-- ==== Proof.FrameKernelIdeal.Reg1RunA.lean ====
/-
  Region 1, the FIRST case (k = 0): both accumulators are zeroed, then one block's product is added into each; the outputs are not touched.
-/
import proofs.«179632_j35485019800147_2_alg».proof.Proof.FrameKernelIdeal.Reg1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, on whole memrefs: the inputs at their contents come back as they were; each buffer the
    case stores into comes back with its stores written, as a list of pieces (last store first) that the run itself
    determines. -/
noncomputable def kernelRun1_A (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : cond1_0 i) (hc1 : ¬cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) :
    Σ' (LS0 : List (View.Piece (Elt F) S512x256 .f32)), { LS1 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1__temporal_fused_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__temporal_fused_kernel_eq_skeleton]; unfold cc1__temporal_fused_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Fr

end
-- ==== Proof.FrameKernelIdeal.Reg1RunB.lean ====
/-
  Region 1, the MIDDLE case (0 < k < 59): one block's product is added into each accumulator, which holds what the point before left; the outputs are not touched.
-/
import proofs.«179632_j35485019800147_2_alg».proof.Proof.FrameKernelIdeal.Reg1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, on whole memrefs: the inputs at their contents come back as they were; each buffer the
    case stores into comes back with its stores written, as a list of pieces (last store first) that the run itself
    determines. -/
noncomputable def kernelRun1_B (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : ¬cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) :
    Σ' (LS0 : List (View.Piece (Elt F) S512x256 .f32)), { LS1 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1__temporal_fused_kernel i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__temporal_fused_kernel_eq_skeleton]; unfold cc1__temporal_fused_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Fr

end
-- ==== Proof.FrameKernelIdeal.Reg1RunC.lean ====
/-
  Region 1, the LAST case (k = 59): the last block's product is added into each accumulator, and both embeddings are finished from the accumulators and stored whole into the two output windows.
-/
import proofs.«179632_j35485019800147_2_alg».proof.Proof.FrameKernelIdeal.Reg1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, on whole memrefs: the inputs at their contents come back as they were; each buffer the
    case stores into comes back with its stores written, as a list of pieces (last store first) that the run itself
    determines. -/
noncomputable def kernelRun1_C (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) :
    Σ' (L7 : List (View.Piece (Elt F) S512x128 .f32)) (L8 : List (View.Piece (Elt F) S512x128 .f32)) (LS0 : List (View.Piece (Elt F) S512x256 .f32)), { LS1 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1__temporal_fused_kernel i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc1__temporal_fused_kernel_eq_skeleton]; unfold cc1__temporal_fused_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [HS0]; · iexists _; iexact HS0
    iexists _; iexact HS1

end Cert.KernelIdeal.Fr

end
-- ==== Proof.FrameKernelIdeal.Reg1.lean ====
/-
  Region 1 (the fused temporal kernel): what the two accumulators and the two output windows hold after each grid
  point, the invariant that carries the accumulators from point to point, the proof data and the body obligation.

  After the body at a point the accumulators hold: at k = 0, zero plus the first block's product; at a later k, what
  the point before left plus this block's product.  At k = 59 the two output windows receive the finished embeddings,
  computed from the accumulators as this point leaves them; at every other k they are idle.
-/
import proofs.«179632_j35485019800147_2_alg».proof.Proof.FrameKernelIdeal.Reg1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, as pieces read back -/

theorem scover1_A_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : cond1_0 i) (hc1 : ¬cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (y : S512x256.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6).1 S512x256.size (by sl_kernel_rfl) y

def sout1_A_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : cond1_0 i) (hc1 : ¬cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) : Vec F S512x256 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6).1)

theorem scover1_A_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : cond1_0 i) (hc1 : ¬cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (y : S512x256.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6).2.1 S512x256.size (by sl_kernel_rfl) y

def sout1_A_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : cond1_0 i) (hc1 : ¬cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) : Vec F S512x256 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5 x6).2.1)

theorem scover1_B_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : ¬cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) (y : S512x256.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S512x256.size (by sl_kernel_rfl) y

def sout1_B_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : ¬cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) : Vec F S512x256 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

theorem scover1_B_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : ¬cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) (y : S512x256.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S512x256.size (by sl_kernel_rfl) y

def sout1_B_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : ¬cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) : Vec F S512x256 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

theorem cover1_C_7 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) (y : S512x128.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1 S512x128.size (by sl_kernel_rfl) y

def out1_C_7 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) : Vec F S512x128 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).1)

theorem cover1_C_8 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) (y : S512x128.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1 S512x128.size (by sl_kernel_rfl) y

def out1_C_8 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) : Vec F S512x128 .f32 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.1)

theorem scover1_C_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) (y : S512x256.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1 S512x256.size (by sl_kernel_rfl) y

def sout1_C_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) : Vec F S512x256 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.1)

theorem scover1_C_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) (y : S512x256.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1 S512x256.size (by sl_kernel_rfl) y

def sout1_C_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : cond1_1 i)
    (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) : Vec F S512x256 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1).2.2.2.1)

/-- A placeholder for an idle output window's contents: nothing consults it (at an idle point the window is neither written
    back nor read at the next point). -/
def idleOut : Vec F S512x128 .f32 := VO1_7.read (Elt F) VO1_7.junk

section
variable (V : (c : Dev nD) → (b : Ref sig .tc) → Buf (Elt F) ((c : Thread nD τ).loc b))

/-! ## Point by point -/

/-- THE ACCUMULATION: after the body at position `n`, the two output windows' staging buffers and the two accumulators
    (in this order).  The case is the one `n mod 60` selects; a later point's case runs over the accumulators the point
    before left. -/
def outsAt1 (c : Dev nD) : (n : ℕ) → n < cfg1.N → Vec F S512x128 .f32 × Vec F S512x128 .f32 × Vec F S512x256 .f32 × Vec F S512x256 .f32
  | 0, hn => (idleOut, idleOut, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩))
  | n + 1, hn =>
    if h0 : (n + 1) % 60 = 0 then
      if h1 : (n + 1) % 60 = 59 then False.elim (by omega)
      else (idleOut, idleOut, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩))
    else
      if h1 : (n + 1) % 60 = 59 then (out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.1 (outsAt1 c n (Nat.lt_of_succ_lt hn)).2.2.2, out1_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.1 (outsAt1 c n (Nat.lt_of_succ_lt hn)).2.2.2)
      else (idleOut, idleOut, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (outsAt1 c n (Nat.lt_of_succ_lt hn)).2.2.1 (outsAt1 c n (Nat.lt_of_succ_lt hn)).2.2.2)

theorem outsAt1_A (c : Dev nD) (t : Fin cfg1.N) (h0 : t.val % 60 = 0) (h1 : ¬t.val % 60 = 59) :
    outsAt1 V c t.val t.isLt = (idleOut, idleOut, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)) := by
  obtain ⟨n, hn⟩ := t
  cases n with
  | zero => exact rfl
  | succ n => exact (dif_pos h0).trans ((dif_neg h1).trans rfl)

theorem outsAt1_B (c : Dev nD) (t : Fin cfg1.N) (h0 : ¬t.val % 60 = 0) (h1 : ¬t.val % 60 = 59) :
    outsAt1 V c t.val t.isLt = (idleOut, idleOut, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 60 = 0) (h1 : t.val % 60 = 59) :
    outsAt1 V c t.val t.isLt = (out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The core's scoped buffers that are neither a staging buffer of this region nor one of its accumulators (the other two
    regions' staging buffers), each whole at some contents: they ride through the region untouched. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f))

/-- Before the first point the accumulators hold anything; afterwards what the point before left. -/
def PhiS1 (c : Dev nD) : (n : ℕ) → n ≤ cfg1.N → sProp 𝕄
  | 0, _ => iprop((∃ d, owns (c : Thread nD τ) scM1_0 fullShare d) ∗ (∃ d, owns (c : Thread nD τ) scM1_1 fullShare d) ∗ others1 c ∗ (∃ r, prngReg c r))
  | n + 1, hn => iprop(owns (c : Thread nD τ) scM1_0 fullShare ((outsAt1 V c n hn).2.2.1) ∗ owns (c : Thread nD τ) scM1_1 fullShare ((outsAt1 V c n hn).2.2.2) ∗ others1 c ∗ (∃ r, prngReg c r))

theorem PhiS1_zero (c : Dev nD) (n : ℕ) (h : n ≤ cfg1.N) (hz : n = 0) :
    PhiS1 V c n h = iprop((∃ d, owns (c : Thread nD τ) scM1_0 fullShare d) ∗ (∃ d, owns (c : Thread nD τ) scM1_1 fullShare d) ∗ others1 c ∗ (∃ r, prngReg c r)) := by
  subst hz; rfl

theorem PhiS1_succ (c : Dev nD) (n : ℕ) (hn : n < cfg1.N) :
    PhiS1 V c (n + 1) hn = iprop(owns (c : Thread nD τ) scM1_0 fullShare ((outsAt1 V c n hn).2.2.1) ∗ owns (c : Thread nD τ) scM1_1 fullShare ((outsAt1 V c n hn).2.2.2) ∗ others1 c ∗ (∃ r, prngReg c r)) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2.2.1) ∗ owns (c : Thread nD τ) scM1_1 fullShare ((outsAt1 V c (n - 1) (by omega)).2.2.2) ∗ others1 c ∗ (∃ r, prngReg c r)) := by
  cases n with
  | zero => exact absurd rfl hz
  | succ n => rfl

/-! ## The proof data -/

/-- The arrays as the region finds them; after the body each input's buffer at its block, the outputs' at the
    accumulation's components; the invariant carrying the accumulators; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem after1_8 (c : Dev nD) (t : Fin cfg1.N) : (dat1 V c).after 8 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 8000000 in
/-- The body at any point.  The inputs' memrefs hold their blocks; `t mod 60` says which case the point is in; the invariant
    hands the body the accumulators at what the point before left (at anything before the first point) and takes them back
    at this point's contents; an idle output window's buffer goes back as it came; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  have hN : t.val < 120 := lt_of_lt_of_eq t.isLt (show cfg1.N = 120 from N_1)
  by_cases h0 : t.val % 60 = 0
  · have h1 : ¬t.val % 60 = 59 := by omega
    rw [Dat.leavesExact_idle (dat1 V c) 7 t (idleAt1_7 t (fun h => h1 ((hcond1_1 t).mp h))) (noFlush1_7 t (fun h => h1 ((hcond1_1 t).mp h))),
      Dat.leavesExact_idle (dat1 V c) 8 t (idleAt1_8 t (fun h => h1 ((hcond1_1 t).mp h))) (noFlush1_8 t (fun h => h1 ((hcond1_1 t).mp h)))]
    rw [outsAt1_A V c t h0 h1]
    unfold sout1_A_0 sout1_A_1; (try dsimp only)
    by_cases hz : t.val = 0
    · rw [PhiS1_castSucc V c t, PhiS1_zero V c _ _ hz]
      iintro ⟨⟨HS0, HS1, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hoth Hg]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    · rw [PhiS1_castSucc V c t, PhiS1_pos V c _ _ hz]
      iintro ⟨⟨HS0, HS1, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, ⟨%es0, HS0⟩, ⟨%es1, HS1⟩⟩
      isplitl [HS0 HS1 Hoth Hg]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
  · have hz : t.val ≠ 0 := fun h => h0 (by rw [h])
    by_cases h1 : t.val % 60 = 59
    · rw [show (dat1 V c).leavesExact 7 t = owns (c : Thread nD τ) (ms1_7 t) fullShare ((dat1 V c).after 7 t) from by
        unfold Dat.leavesExact; rw [liveAt1_7 t ((hcond1_1 t).mpr h1)], after1_7]
      rw [show (dat1 V c).leavesExact 8 t = owns (c : Thread nD τ) (ms1_8 t) fullShare ((dat1 V c).after 8 t) from by
        unfold Dat.leavesExact; rw [liveAt1_8 t ((hcond1_1 t).mpr h1)], after1_8]
      rw [outsAt1_C V c t h0 h1]
      unfold out1_C_7 out1_C_8 sout1_C_0 sout1_C_1; (try dsimp only)
      rw [PhiS1_castSucc V c t, PhiS1_pos V c _ _ hz]
      iintro ⟨⟨HS0, HS1, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      isplitl [HS1]; · iexact HS1
      iintro ⟨H0, H1, H2, H3, H4, H5, H6, ⟨%e7, H7⟩, ⟨%e8, H8⟩, ⟨%es0, HS0⟩, ⟨%es1, HS1⟩⟩
      isplitl [HS0 HS1 Hoth Hg]
      · isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover1_C_7 c _ _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover1_C_8 c _ _ _ _ _ _ _ _ _ _ _ _ _ _ _ _ _ _ _ _ _ _ _ _ _ _ _ _ _ _ _ _ _ _)
    · rw [Dat.leavesExact_idle (dat1 V c) 7 t (idleAt1_7 t (fun h => h1 ((hcond1_1 t).mp h))) (noFlush1_7 t (fun h => h1 ((hcond1_1 t).mp h))),
        Dat.leavesExact_idle (dat1 V c) 8 t (idleAt1_8 t (fun h => h1 ((hcond1_1 t).mp h))) (noFlush1_8 t (fun h => h1 ((hcond1_1 t).mp h)))]
      rw [outsAt1_B V c t h0 h1]
      unfold sout1_B_0 sout1_B_1; (try dsimp only)
      rw [PhiS1_castSucc V c t, PhiS1_pos V c _ _ hz]
      iintro ⟨⟨HS0, HS1, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) _ _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, ⟨%es0, HS0⟩, ⟨%es1, HS1⟩⟩
      isplitl [HS0 HS1 Hoth Hg]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- What the region is handed at entry — the generator register and every scoped buffer that is no staging buffer of its
    own, each at some contents — is the invariant before the first point. -/
theorem hin1 (c : Dev nD) :
    iprop((∃ r, prngReg c r) ∗ Pipeline.scopedRest (Ix := Unit) (Name := ℕ) (U := UR sig nD τ) (Lvl := ℕ) (Val := Elt F) spec1 c)
      ⊢ (PhiS1 V c 0 (Nat.zero_le _) : sProp 𝕄) := by
  rw [PhiS1_zero V c 0 _ rfl, scopedRest1_eq]; unfold others1
  simp only [scM1_0, scM1_1, owns_whole]
  iintro ⟨Hp, A1, A2, A3, A4, A5, A6, A7, A8, S0, S1, B1, B2, B3, B4, B5, B6⟩
  isplitl [S0]; · iexact S0
  isplitl [S1]; · iexact S1
  isplitl [A1 A2 A3 A4 A5 A6 A7 A8 B1 B2 B3 B4 B5 B6]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [B1]; · iexact B1
    isplitl [B2]; · iexact B2
    isplitl [B3]; · iexact B3
    isplitl [B4]; · iexact B4
    isplitl [B5]; · iexact B5
    iexact B6
  iexact Hp

/-- After any point the invariant gives that back: the accumulators' named contents are forgotten. -/
theorem hout1 (c : Dev nD) (n : ℕ) (h : n ≤ cfg1.N) (hz : n ≠ 0) :
    (PhiS1 V c n h : sProp 𝕄)
      ⊢ iprop((∃ r, prngReg c r) ∗ Pipeline.scopedRest (Ix := Unit) (Name := ℕ) (U := UR sig nD τ) (Lvl := ℕ) (Val := Elt F) spec1 c) := by
  rw [PhiS1_pos V c n h hz, scopedRest1_eq]; unfold others1
  simp only [scM1_0, scM1_1, owns_whole]
  iintro ⟨S0, S1, ⟨A1, A2, A3, A4, A5, A6, A7, A8, B1, B2, B3, B4, B5, B6⟩, Hp⟩
  isplitl [Hp]; · iexact Hp
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [S0]; · iexists _; iexact S0
  isplitl [S1]; · iexists _; iexact S1
  isplitl [B1]; · iexact B1
  isplitl [B2]; · iexact B2
  isplitl [B3]; · iexact B3
  isplitl [B4]; · iexact B4
  isplitl [B5]; · iexact B5
  iexact B6

end

end Cert.KernelIdeal.Fr

end
-- ==== Proof.FrameKernelIdeal.Reg2.lean ====
/- Region 2 of @main (the score kernel, pipeline 2): its whole-rectangle half, stated at a parameter
   V — the TensorCore's buffer contents when the region is entered. Three input windows (a 128-row
   block of the first embedding, the bilinear form, the whole second embedding) and one output window
   (a 128-row block of the result): each input's staging buffer holds its block at every point; the
   body loads the three whole rectangles, stores one whole rectangle — the payload of the three loads —
   and so leaves the output buffer at that payload, whatever it held before. -/
import proofs.«179632_j35485019800147_2_alg».proof.Proof.Gen.KernelIdeal.Launch
import proofs.«179632_j35485019800147_2_alg».proof.Proof.Gen.KernelIdeal.Skeleton
import proofs.«179632_j35485019800147_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the buffer contents at the region's entry: every statement below is at this parameter
variable (V : (c : Dev nD) → (b : Ref sig .tc) → Buf (Elt F) ((c : Thread nD τ).loc b))

/-! ## The windows' blocks -/

/-- Window w's block at point t: the rectangle of its array, as the region finds the array, that
    the window's index map selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (a row block of the first embedding, moved at every point): its current staging
    buffer holds its block, for any proof data over the entry contents whose body leaves the block
    in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the bilinear form, one block for the whole grid, moved at the first point only):
    where it is not moved its block index has not changed, so the buffer still holds the block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the whole second embedding, moved at the first point only): likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer read or written as one whole rectangle -/

abbrev r2_0 : Rect S128x128 := Rect.unit (s := S128x128) ![0, 0] S128x128.size inb_S128x128_S128x128_0_0
abbrev r2_1 : Rect S1024x128 := Rect.unit (s := S1024x128) ![0, 0] S1024x128.size inb_S1024x128_S1024x128_0_0
abbrev r2_2 : Rect S128x1024 := Rect.unit (s := S128x1024) ![0, 0] S128x1024.size inb_S128x1024_S128x1024_0_0

/-! ## What the body leaves in the output window's buffer -/

/-- The output buffer after the body, from the three input blocks: its one store, of the payload of
    the three whole-rectangle loads. -/
def out2_3 (x0 : Vec F S128x128 .f32) (x1 : Vec F S128x128 .f32) (x2 : Vec F S1024x128 .f32) : Vec F S128x1024 .f32 :=
  View.canon [⟨r2_2, k2_pay1 (View.ld x0 r2_0) (View.ld x1 r2_0) (View.ld x2 r2_1)⟩]

/-- The one store is of the whole buffer, so it covers every element. -/
theorem cover2_3 (p0 : Vec F S128x1024 .f32) (y : S128x1024.Idx) :
    ∃ pc ∈ ([⟨r2_2, p0⟩] : List (View.Piece (Elt F) S128x1024 .f32)), y ∈ pc.1.set :=
  View.cover_of_tiled [⟨r2_2, p0⟩] S128x1024.size (by rfl) y

/-! ## The body's triple -/

set_option maxHeartbeats 1000000 in
/-- The body on whole staging memrefs — the inputs' at contents x0, x1, x2, the output's at anything —
    runs to the continuation with the inputs' as they were and the output's at out2_3 of them. The
    body also reads the output buffer once before storing; the value read is not used. -/
theorem sound_kernel2 (c : Dev nD) (E : Set ℕ) (i : grid2.Coords) (arg1 : Memref sig .tc .vmem S128x128 .f32) (harg1 : arg1.IsWhole) (arg2 : Memref sig .tc .vmem S128x128 .f32) (harg2 : arg2.IsWhole) (arg3 : Memref sig .tc .vmem S1024x128 .f32) (harg3 : arg3.IsWhole) (arg4 : Memref sig .tc .vmem S128x1024 .f32) (harg4 : arg4.IsWhole)
    (x0 : Vec F S128x128 .f32) (x1 : Vec F S128x128 .f32) (x2 : Vec F S1024x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__score_kernel i arg1 harg1 arg2 harg2 arg3 harg3 arg4 harg4) K := by
  simp only [cc2__score_kernel_eq_skeleton]; unfold cc2__score_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core c: the arrays as the region finds them; after the body at
    point t each input's buffer at its block and the output's at out2_3 of the three input blocks;
    the invariant is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, moved there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Fr

end
-- ==== Proof.FrameKernelIdeal.Run.lean ====
/-
  The whole program's run: the two host stretches (reshapes of the biases) and the three kernel regions in order, from the
  launch to the return.  Between two items every unscoped buffer of the core is held at a named valuation: the launch
  memory, then each host stretch's effect, then each region's arrays at what its write-backs leave.  The last valuation
  is read against the final state, so the run ends with EVERY unscoped buffer at it: the arguments walk back to the
  launch memory (no item writes one), the result is what the last region leaves in its output array.
-/
import proofs.«179632_j35485019800147_2_alg».proof.Proof.FrameKernelIdeal.Reg0
import proofs.«179632_j35485019800147_2_alg».proof.Proof.FrameKernelIdeal.Reg1
import proofs.«179632_j35485019800147_2_alg».proof.Proof.FrameKernelIdeal.Reg2

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev Wb0 : Dev nD → Valuation τ sig (Elt F) := fun c b => (s₀ m ρ).mem ((c : Dev nD), b)
/-- After the first host stretch (region 0's entry). -/
abbrev Wb1 : Dev nD → Valuation τ sig (Elt F) := fun c => StableHlo.after hostOps0 (Wb0 m ρ c)
abbrev Vb1 : (c : Dev nD) → (b : Ref sig .tc) → Buf (Elt F) ((c : Thread nD τ).loc b) := fun c b => Wb1 m ρ c b

/-- At region 0's exit: its arrays at what the pipeline leaves (the inputs as entered, each output's write-backs folded),
    every other buffer as entered. -/
def Wb2 (c : Dev nD) : Valuation τ sig (Elt F) :=
  Pipeline.withArrays spec0 c (Wb1 m ρ c) fun w => (dat0 (Vb1 m ρ) c).arrAt w cfg0.N
theorem Wb2_arr (c : Dev nD) (w : Fin cfg0.W) :
    Wb2 m ρ c (Proc.devRef .tc (Pipeline.arrRef spec0 w)) = (dat0 (Vb1 m ρ) c).arrAt w cfg0.N := by
  unfold Wb2; exact Pipeline.withArrays_arr spec0 launch0.win.arr_inj c _ _ w
theorem Wb2_of_ne (c : Dev nD) (b : Ref sig .tc) (hb : ∀ w, Pipeline.arrRef spec0 w ≠ b) :
    Wb2 m ρ c (Proc.devRef .tc b) = Wb1 m ρ c (Proc.devRef .tc b) := by
  unfold Wb2; exact Pipeline.withArrays_of_ne spec0 c _ _ b hb
abbrev Vb2 : (c : Dev nD) → (b : Ref sig .tc) → Buf (Elt F) ((c : Thread nD τ).loc b) := fun c b => Wb2 m ρ c b
theorem hF0 (c : Dev nD) (w : Fin cfg0.W) : (dat0 (Vb1 m ρ) c).arrAt w cfg0.N = Vb2 m ρ c (Pipeline.arrRef spec0 w) :=
  (Wb2_arr m ρ c w).symm
theorem hrest0 (c : Dev nD) : ∀ b, b ∉ Finset.univ.image (Pipeline.arrRef spec0) → Vb2 m ρ c b = Vb1 m ρ c b :=
  fun b hb => Wb2_of_ne m ρ c b fun w e => hb (Finset.mem_image.mpr ⟨w, Finset.mem_univ _, e⟩)

/-- After the second host stretch (region 1's entry). -/
abbrev Wb3 : Dev nD → Valuation τ sig (Elt F) := fun c => StableHlo.after hostOps1 (Wb2 m ρ c)
abbrev Vb3 : (c : Dev nD) → (b : Ref sig .tc) → Buf (Elt F) ((c : Thread nD τ).loc b) := fun c b => Wb3 m ρ c b

/-- At region 1's exit: its arrays at what the pipeline leaves (the inputs as entered, each output's write-backs folded),
    every other buffer as entered. -/
def Wb4 (c : Dev nD) : Valuation τ sig (Elt F) :=
  Pipeline.withArrays spec1 c (Wb3 m ρ c) fun w => (dat1 (Vb3 m ρ) c).arrAt w cfg1.N
theorem Wb4_arr (c : Dev nD) (w : Fin cfg1.W) :
    Wb4 m ρ c (Proc.devRef .tc (Pipeline.arrRef spec1 w)) = (dat1 (Vb3 m ρ) c).arrAt w cfg1.N := by
  unfold Wb4; exact Pipeline.withArrays_arr spec1 launch1.win.arr_inj c _ _ w
theorem Wb4_of_ne (c : Dev nD) (b : Ref sig .tc) (hb : ∀ w, Pipeline.arrRef spec1 w ≠ b) :
    Wb4 m ρ c (Proc.devRef .tc b) = Wb3 m ρ c (Proc.devRef .tc b) := by
  unfold Wb4; exact Pipeline.withArrays_of_ne spec1 c _ _ b hb
abbrev Vb4 : (c : Dev nD) → (b : Ref sig .tc) → Buf (Elt F) ((c : Thread nD τ).loc b) := fun c b => Wb4 m ρ c b
theorem hF1 (c : Dev nD) (w : Fin cfg1.W) : (dat1 (Vb3 m ρ) c).arrAt w cfg1.N = Vb4 m ρ c (Pipeline.arrRef spec1 w) :=
  (Wb4_arr m ρ c w).symm
theorem hrest1 (c : Dev nD) : ∀ b, b ∉ Finset.univ.image (Pipeline.arrRef spec1) → Vb4 m ρ c b = Vb3 m ρ c b :=
  fun b hb => Wb4_of_ne m ρ c b fun w e => hb (Finset.mem_image.mpr ⟨w, Finset.mem_univ _, e⟩)

/-- At region 2's exit: its arrays at what the pipeline leaves (the inputs as entered, each output's write-backs folded),
    every other buffer as entered. -/
def Wb5 (c : Dev nD) : Valuation τ sig (Elt F) :=
  Pipeline.withArrays spec2 c (Wb4 m ρ c) fun w => (dat2 (Vb4 m ρ) c).arrAt w cfg2.N
theorem Wb5_arr (c : Dev nD) (w : Fin cfg2.W) :
    Wb5 m ρ c (Proc.devRef .tc (Pipeline.arrRef spec2 w)) = (dat2 (Vb4 m ρ) c).arrAt w cfg2.N := by
  unfold Wb5; exact Pipeline.withArrays_arr spec2 launch2.win.arr_inj c _ _ w
theorem Wb5_of_ne (c : Dev nD) (b : Ref sig .tc) (hb : ∀ w, Pipeline.arrRef spec2 w ≠ b) :
    Wb5 m ρ c (Proc.devRef .tc b) = Wb4 m ρ c (Proc.devRef .tc b) := by
  unfold Wb5; exact Pipeline.withArrays_of_ne spec2 c _ _ b hb
abbrev Vb5 : (c : Dev nD) → (b : Ref sig .tc) → Buf (Elt F) ((c : Thread nD τ).loc b) := fun c b => Wb5 m ρ c b
theorem hF2 (c : Dev nD) (w : Fin cfg2.W) : (dat2 (Vb4 m ρ) c).arrAt w cfg2.N = Vb5 m ρ c (Pipeline.arrRef spec2 w) :=
  (Wb5_arr m ρ c w).symm
theorem hrest2 (c : Dev nD) : ∀ b, b ∉ Finset.univ.image (Pipeline.arrRef spec2) → Vb5 m ρ c b = Vb4 m ρ c b :=
  fun b hb => Wb5_of_ne m ρ c b fun w e => hb (Finset.mem_image.mpr ⟨w, Finset.mem_univ _, e⟩)

/-! ## The arguments end as launched -/

theorem Wb5_main_arg0 (c : Dev nD) : Wb5 m ρ c (Proc.devRef .tc main_arg0) = m ((c : Thread nD τ).loc main_arg0) :=
  calc Wb5 m ρ c (Proc.devRef .tc main_arg0)
    _ = Wb4 m ρ c (Proc.devRef .tc main_arg0) := Wb5_of_ne m ρ c main_arg0 (by decide)
    _ = Wb3 m ρ c (Proc.devRef .tc main_arg0) := Wb4_of_ne m ρ c main_arg0 (by decide)
    _ = Wb2 m ρ c (Proc.devRef .tc main_arg0) := StableHlo.after_of_forall_not_mem (b := Proc.devRef .tc main_arg0) _ _ (List.forall_iff_forall_mem.mp (by
          simp only [hostOps1, List.Forall, StableHlo.reshape_writes, Finset.mem_singleton]
          repeat' apply And.intro
          all_goals exact StableHlo.devRef_ne_of_ne (by decide)))
    _ = Wb1 m ρ c (Proc.devRef .tc main_arg0) := (Wb2_arr m ρ c 0).trans (((dat0 (Vb1 m ρ) c).arrAt_in 0 rfl _).trans (A_eq0 (Vb1 m ρ) c 0))
    _ = Wb0 m ρ c (Proc.devRef .tc main_arg0) := StableHlo.after_of_forall_not_mem (b := Proc.devRef .tc main_arg0) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg0) := rfl

theorem Wb5_main_arg1 (c : Dev nD) : Wb5 m ρ c (Proc.devRef .tc main_arg1) = m ((c : Thread nD τ).loc main_arg1) :=
  calc Wb5 m ρ c (Proc.devRef .tc main_arg1)
    _ = Wb4 m ρ c (Proc.devRef .tc main_arg1) := Wb5_of_ne m ρ c main_arg1 (by decide)
    _ = Wb3 m ρ c (Proc.devRef .tc main_arg1) := (Wb4_arr m ρ c 0).trans (((dat1 (Vb3 m ρ) c).arrAt_in 0 rfl _).trans (A_eq1 (Vb3 m ρ) c 0))
    _ = Wb2 m ρ c (Proc.devRef .tc main_arg1) := StableHlo.after_of_forall_not_mem (b := Proc.devRef .tc main_arg1) _ _ (List.forall_iff_forall_mem.mp (by
          simp only [hostOps1, List.Forall, StableHlo.reshape_writes, Finset.mem_singleton]
          repeat' apply And.intro
          all_goals exact StableHlo.devRef_ne_of_ne (by decide)))
    _ = Wb1 m ρ c (Proc.devRef .tc main_arg1) := Wb2_of_ne m ρ c main_arg1 (by decide)
    _ = Wb0 m ρ c (Proc.devRef .tc main_arg1) := StableHlo.after_of_forall_not_mem (b := Proc.devRef .tc main_arg1) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg1) := rfl

theorem Wb5_main_arg2 (c : Dev nD) : Wb5 m ρ c (Proc.devRef .tc main_arg2) = m ((c : Thread nD τ).loc main_arg2) :=
  calc Wb5 m ρ c (Proc.devRef .tc main_arg2)
    _ = Wb4 m ρ c (Proc.devRef .tc main_arg2) := Wb5_of_ne m ρ c main_arg2 (by decide)
    _ = Wb3 m ρ c (Proc.devRef .tc main_arg2) := (Wb4_arr m ρ c 1).trans (((dat1 (Vb3 m ρ) c).arrAt_in 1 rfl _).trans (A_eq1 (Vb3 m ρ) c 1))
    _ = Wb2 m ρ c (Proc.devRef .tc main_arg2) := StableHlo.after_of_forall_not_mem (b := Proc.devRef .tc main_arg2) _ _ (List.forall_iff_forall_mem.mp (by
          simp only [hostOps1, List.Forall, StableHlo.reshape_writes, Finset.mem_singleton]
          repeat' apply And.intro
          all_goals exact StableHlo.devRef_ne_of_ne (by decide)))
    _ = Wb1 m ρ c (Proc.devRef .tc main_arg2) := Wb2_of_ne m ρ c main_arg2 (by decide)
    _ = Wb0 m ρ c (Proc.devRef .tc main_arg2) := StableHlo.after_of_forall_not_mem (b := Proc.devRef .tc main_arg2) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg2) := rfl

theorem Wb5_main_arg3 (c : Dev nD) : Wb5 m ρ c (Proc.devRef .tc main_arg3) = m ((c : Thread nD τ).loc main_arg3) :=
  calc Wb5 m ρ c (Proc.devRef .tc main_arg3)
    _ = Wb4 m ρ c (Proc.devRef .tc main_arg3) := Wb5_of_ne m ρ c main_arg3 (by decide)
    _ = Wb3 m ρ c (Proc.devRef .tc main_arg3) := Wb4_of_ne m ρ c main_arg3 (by decide)
    _ = Wb2 m ρ c (Proc.devRef .tc main_arg3) := StableHlo.after_of_forall_not_mem (b := Proc.devRef .tc main_arg3) _ _ (List.forall_iff_forall_mem.mp (by
          simp only [hostOps1, List.Forall, StableHlo.reshape_writes, Finset.mem_singleton]
          repeat' apply And.intro
          all_goals exact StableHlo.devRef_ne_of_ne (by decide)))
    _ = Wb1 m ρ c (Proc.devRef .tc main_arg3) := (Wb2_arr m ρ c 1).trans (((dat0 (Vb1 m ρ) c).arrAt_in 1 rfl _).trans (A_eq0 (Vb1 m ρ) c 1))
    _ = Wb0 m ρ c (Proc.devRef .tc main_arg3) := StableHlo.after_of_forall_not_mem (b := Proc.devRef .tc main_arg3) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg3) := rfl

theorem Wb5_main_arg4 (c : Dev nD) : Wb5 m ρ c (Proc.devRef .tc main_arg4) = m ((c : Thread nD τ).loc main_arg4) :=
  calc Wb5 m ρ c (Proc.devRef .tc main_arg4)
    _ = Wb4 m ρ c (Proc.devRef .tc main_arg4) := Wb5_of_ne m ρ c main_arg4 (by decide)
    _ = Wb3 m ρ c (Proc.devRef .tc main_arg4) := Wb4_of_ne m ρ c main_arg4 (by decide)
    _ = Wb2 m ρ c (Proc.devRef .tc main_arg4) := StableHlo.after_of_forall_not_mem (b := Proc.devRef .tc main_arg4) _ _ (List.forall_iff_forall_mem.mp (by
          simp only [hostOps1, List.Forall, StableHlo.reshape_writes, Finset.mem_singleton]
          repeat' apply And.intro
          all_goals exact StableHlo.devRef_ne_of_ne (by decide)))
    _ = Wb1 m ρ c (Proc.devRef .tc main_arg4) := Wb2_of_ne m ρ c main_arg4 (by decide)
    _ = Wb0 m ρ c (Proc.devRef .tc main_arg4) := StableHlo.after_of_forall_not_mem (b := Proc.devRef .tc main_arg4) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg4) := rfl

theorem Wb5_main_arg5 (c : Dev nD) : Wb5 m ρ c (Proc.devRef .tc main_arg5) = m ((c : Thread nD τ).loc main_arg5) :=
  calc Wb5 m ρ c (Proc.devRef .tc main_arg5)
    _ = Wb4 m ρ c (Proc.devRef .tc main_arg5) := Wb5_of_ne m ρ c main_arg5 (by decide)
    _ = Wb3 m ρ c (Proc.devRef .tc main_arg5) := Wb4_of_ne m ρ c main_arg5 (by decide)
    _ = Wb2 m ρ c (Proc.devRef .tc main_arg5) := StableHlo.after_of_forall_not_mem (b := Proc.devRef .tc main_arg5) _ _ (List.forall_iff_forall_mem.mp (by
          simp only [hostOps1, List.Forall, StableHlo.reshape_writes, Finset.mem_singleton]
          repeat' apply And.intro
          all_goals exact StableHlo.devRef_ne_of_ne (by decide)))
    _ = Wb1 m ρ c (Proc.devRef .tc main_arg5) := (Wb2_arr m ρ c 3).trans (((dat0 (Vb1 m ρ) c).arrAt_in 3 rfl _).trans (A_eq0 (Vb1 m ρ) c 3))
    _ = Wb0 m ρ c (Proc.devRef .tc main_arg5) := StableHlo.after_of_forall_not_mem (b := Proc.devRef .tc main_arg5) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg5) := rfl

theorem Wb5_main_arg6 (c : Dev nD) : Wb5 m ρ c (Proc.devRef .tc main_arg6) = m ((c : Thread nD τ).loc main_arg6) :=
  calc Wb5 m ρ c (Proc.devRef .tc main_arg6)
    _ = Wb4 m ρ c (Proc.devRef .tc main_arg6) := Wb5_of_ne m ρ c main_arg6 (by decide)
    _ = Wb3 m ρ c (Proc.devRef .tc main_arg6) := Wb4_of_ne m ρ c main_arg6 (by decide)
    _ = Wb2 m ρ c (Proc.devRef .tc main_arg6) := StableHlo.after_of_forall_not_mem (b := Proc.devRef .tc main_arg6) _ _ (List.forall_iff_forall_mem.mp (by
          simp only [hostOps1, List.Forall, StableHlo.reshape_writes, Finset.mem_singleton]
          repeat' apply And.intro
          all_goals exact StableHlo.devRef_ne_of_ne (by decide)))
    _ = Wb1 m ρ c (Proc.devRef .tc main_arg6) := Wb2_of_ne m ρ c main_arg6 (by decide)
    _ = Wb0 m ρ c (Proc.devRef .tc main_arg6) := StableHlo.after_of_forall_not_mem (b := Proc.devRef .tc main_arg6) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg6) := rfl

theorem Wb5_main_arg7 (c : Dev nD) : Wb5 m ρ c (Proc.devRef .tc main_arg7) = m ((c : Thread nD τ).loc main_arg7) :=
  calc Wb5 m ρ c (Proc.devRef .tc main_arg7)
    _ = Wb4 m ρ c (Proc.devRef .tc main_arg7) := Wb5_of_ne m ρ c main_arg7 (by decide)
    _ = Wb3 m ρ c (Proc.devRef .tc main_arg7) := (Wb4_arr m ρ c 2).trans (((dat1 (Vb3 m ρ) c).arrAt_in 2 rfl _).trans (A_eq1 (Vb3 m ρ) c 2))
    _ = Wb2 m ρ c (Proc.devRef .tc main_arg7) := StableHlo.after_of_forall_not_mem (b := Proc.devRef .tc main_arg7) _ _ (List.forall_iff_forall_mem.mp (by
          simp only [hostOps1, List.Forall, StableHlo.reshape_writes, Finset.mem_singleton]
          repeat' apply And.intro
          all_goals exact StableHlo.devRef_ne_of_ne (by decide)))
    _ = Wb1 m ρ c (Proc.devRef .tc main_arg7) := Wb2_of_ne m ρ c main_arg7 (by decide)
    _ = Wb0 m ρ c (Proc.devRef .tc main_arg7) := StableHlo.after_of_forall_not_mem (b := Proc.devRef .tc main_arg7) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg7) := rfl

theorem Wb5_main_arg8 (c : Dev nD) : Wb5 m ρ c (Proc.devRef .tc main_arg8) = m ((c : Thread nD τ).loc main_arg8) :=
  calc Wb5 m ρ c (Proc.devRef .tc main_arg8)
    _ = Wb4 m ρ c (Proc.devRef .tc main_arg8) := Wb5_of_ne m ρ c main_arg8 (by decide)
    _ = Wb3 m ρ c (Proc.devRef .tc main_arg8) := Wb4_of_ne m ρ c main_arg8 (by decide)
    _ = Wb2 m ρ c (Proc.devRef .tc main_arg8) := StableHlo.after_of_forall_not_mem (b := Proc.devRef .tc main_arg8) _ _ (List.forall_iff_forall_mem.mp (by
          simp only [hostOps1, List.Forall, StableHlo.reshape_writes, Finset.mem_singleton]
          repeat' apply And.intro
          all_goals exact StableHlo.devRef_ne_of_ne (by decide)))
    _ = Wb1 m ρ c (Proc.devRef .tc main_arg8) := Wb2_of_ne m ρ c main_arg8 (by decide)
    _ = Wb0 m ρ c (Proc.devRef .tc main_arg8) := StableHlo.after_of_forall_not_mem (b := Proc.devRef .tc main_arg8) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg8) := rfl

theorem Wb5_main_arg9 (c : Dev nD) : Wb5 m ρ c (Proc.devRef .tc main_arg9) = m ((c : Thread nD τ).loc main_arg9) :=
  calc Wb5 m ρ c (Proc.devRef .tc main_arg9)
    _ = Wb4 m ρ c (Proc.devRef .tc main_arg9) := Wb5_of_ne m ρ c main_arg9 (by decide)
    _ = Wb3 m ρ c (Proc.devRef .tc main_arg9) := (Wb4_arr m ρ c 4).trans (((dat1 (Vb3 m ρ) c).arrAt_in 4 rfl _).trans (A_eq1 (Vb3 m ρ) c 4))
    _ = Wb2 m ρ c (Proc.devRef .tc main_arg9) := StableHlo.after_of_forall_not_mem (b := Proc.devRef .tc main_arg9) _ _ (List.forall_iff_forall_mem.mp (by
          simp only [hostOps1, List.Forall, StableHlo.reshape_writes, Finset.mem_singleton]
          repeat' apply And.intro
          all_goals exact StableHlo.devRef_ne_of_ne (by decide)))
    _ = Wb1 m ρ c (Proc.devRef .tc main_arg9) := Wb2_of_ne m ρ c main_arg9 (by decide)
    _ = Wb0 m ρ c (Proc.devRef .tc main_arg9) := StableHlo.after_of_forall_not_mem (b := Proc.devRef .tc main_arg9) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg9) := rfl

theorem Wb5_main_arg10 (c : Dev nD) : Wb5 m ρ c (Proc.devRef .tc main_arg10) = m ((c : Thread nD τ).loc main_arg10) :=
  calc Wb5 m ρ c (Proc.devRef .tc main_arg10)
    _ = Wb4 m ρ c (Proc.devRef .tc main_arg10) := Wb5_of_ne m ρ c main_arg10 (by decide)
    _ = Wb3 m ρ c (Proc.devRef .tc main_arg10) := Wb4_of_ne m ρ c main_arg10 (by decide)
    _ = Wb2 m ρ c (Proc.devRef .tc main_arg10) := StableHlo.after_of_forall_not_mem (b := Proc.devRef .tc main_arg10) _ _ (List.forall_iff_forall_mem.mp (by
          simp only [hostOps1, List.Forall, StableHlo.reshape_writes, Finset.mem_singleton]
          repeat' apply And.intro
          all_goals exact StableHlo.devRef_ne_of_ne (by decide)))
    _ = Wb1 m ρ c (Proc.devRef .tc main_arg10) := Wb2_of_ne m ρ c main_arg10 (by decide)
    _ = Wb0 m ρ c (Proc.devRef .tc main_arg10) := StableHlo.after_of_forall_not_mem (b := Proc.devRef .tc main_arg10) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg10) := rfl

theorem Wb5_main_arg11 (c : Dev nD) : Wb5 m ρ c (Proc.devRef .tc main_arg11) = m ((c : Thread nD τ).loc main_arg11) :=
  calc Wb5 m ρ c (Proc.devRef .tc main_arg11)
    _ = Wb4 m ρ c (Proc.devRef .tc main_arg11) := (Wb5_arr m ρ c 1).trans (((dat2 (Vb4 m ρ) c).arrAt_in 1 rfl _).trans (A_eq2 (Vb4 m ρ) c 1))
    _ = Wb3 m ρ c (Proc.devRef .tc main_arg11) := Wb4_of_ne m ρ c main_arg11 (by decide)
    _ = Wb2 m ρ c (Proc.devRef .tc main_arg11) := StableHlo.after_of_forall_not_mem (b := Proc.devRef .tc main_arg11) _ _ (List.forall_iff_forall_mem.mp (by
          simp only [hostOps1, List.Forall, StableHlo.reshape_writes, Finset.mem_singleton]
          repeat' apply And.intro
          all_goals exact StableHlo.devRef_ne_of_ne (by decide)))
    _ = Wb1 m ρ c (Proc.devRef .tc main_arg11) := Wb2_of_ne m ρ c main_arg11 (by decide)
    _ = Wb0 m ρ c (Proc.devRef .tc main_arg11) := StableHlo.after_of_forall_not_mem (b := Proc.devRef .tc main_arg11) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg11) := rfl

/-- The result array ends at what the last region's write-backs leave. -/
theorem Wb5_result (c : Dev nD) : Wb5 m ρ c (Proc.devRef .tc main_v6) = (dat2 (Vb4 m ρ) c).arrAt 3 cfg2.N :=
  Wb5_arr m ρ c 3

/-! ## The proof data family and the thread state -/

abbrev admF : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) admF p) c
  | ⟨0, _⟩ => fun c => dat0 (Vb1 m ρ) c
  | ⟨1, _⟩ => fun c => dat1 (Vb3 m ρ) c
  | ⟨2, _⟩ => fun c => dat2 (Vb4 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tₙ (c : Dev nD) : sProp 𝕄 := iprop(StableHlo.held (c : Thread nD τ) (Pipeline.ucRefs τ sig) (Wb5 m ρ c) ∗ ∃ r, prngReg c r)

/-- After any point but the first, region 1's invariant gives back the generator register and the scoped buffers it was
    handed, the accumulators' named contents forgotten. -/
theorem Phi1_out (c : Dev nD) (t : Fin (cfg1.N + 1)) (ht : t.val ≠ 0) :
    (pdats m ρ 1 c).Φ t ⊢ (iprop((∃ r, prngReg c r) ∗ Pipeline.scopedRest (Ix := Unit) (Name := ℕ) (U := UR sig nD τ) (Lvl := ℕ) (Val := Elt F) spec1 c) : sProp 𝕄) := by
  rw [show (pdats m ρ 1 c).Φ t = PhiS1 (Vb3 m ρ) c t.val (Nat.le_of_lt_succ t.isLt) from rfl]
  exact hout1 (Vb3 m ρ) c _ _ ht

/-! ## The regions as segments -/

set_option backward.isDefEq.respectTransparency.types false in
/-- Region 0 over the thread state: entered from every unscoped buffer at `Wb1`, left at `Wb2`.  Its arrays are split out of
    the unscoped buffers and put back at the exit contents; the generator register goes into the region's invariant and comes
    back; nothing is owed; the kernel has no semaphore of its own. -/
def reg0 : Pipeline.RegionSeg (pcfgs (F := F)) admF (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vb1 m ρ) c).loose
  hwaits := Pipeline.hwaits_of_owed_zero _ _ _ _ L lv 0 fun _ _ => rfl
  pre c := iprop(StableHlo.held (c : Thread nD τ) (Pipeline.ucRefs τ sig) (Wb1 m ρ c) ∗ R c)
  post c := iprop(StableHlo.held (c : Thread nD τ) (Pipeline.ucRefs τ sig) (Wb2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vb1 m ρ c)
  hentry c := by
    rw [Pipeline.ownSems0_none]
    have hsplit := Pipeline.arrays_of_unscopedBufs (p := 0) (pcfgs (F := F)) admF (pdats m ρ) launch0.win launch0.arr_whole c
      ((pdats m ρ 0 c).share_full fun _ => rfl) (Vb1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdats m ρ) ((pdats m ρ 0 c).share_full fun _ => rfl)
      (Vb1 m ρ c) (Vb2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `Wb3`, left at `Wb4`.  Its arrays are split out of
    the unscoped buffers and put back at the exit contents; the generator register goes into the region's invariant and comes
    back; nothing is owed; the kernel has no semaphore of its own. -/
def reg1 : Pipeline.RegionSeg (pcfgs (F := F)) admF (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb3 m ρ) c).loose
  hwaits := Pipeline.hwaits_of_owed_zero _ _ _ _ L lv 1 fun _ _ => rfl
  pre c := iprop(StableHlo.held (c : Thread nD τ) (Pipeline.ucRefs τ sig) (Wb3 m ρ c) ∗ R c)
  post c := iprop(StableHlo.held (c : Thread nD τ) (Pipeline.ucRefs τ sig) (Wb4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vb3 m ρ c)
  hentry c := by
    rw [Pipeline.ownSems0_none]
    have hsplit := Pipeline.arrays_of_unscopedBufs (p := 1) (pcfgs (F := F)) admF (pdats m ρ) launch1.win launch1.arr_whole c
      ((pdats m ρ 1 c).share_full fun _ => rfl) (Vb3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = PhiS1 (Vb3 m ρ) c 0 (Nat.zero_le _) from rfl]
    iintro ⟨Hp, -, Hr⟩
    iapply (hin1 (Vb3 m ρ) c)
    isplitl [Hp]; · iexact Hp
    iexact Hr
  hout c := by
    rw [Pipeline.ownSems0_none]
    have h := Phi1_out m ρ c (Fin.last _) (by rw [Fin.val_last]; have : cfg1.N = 120 := N_1; omega)
    iintro H
    ihave H' := h $$ H
    icases H' with ⟨Hp, Hr⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdats m ρ) ((pdats m ρ 1 c).share_full fun _ => rfl)
      (Vb3 m ρ c) (Vb4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `Wb4`, left at `Wb5`.  Its arrays are split out of
    the unscoped buffers and put back at the exit contents; the generator register goes into the region's invariant and comes
    back; nothing is owed; the kernel has no semaphore of its own. -/
def reg2 : Pipeline.RegionSeg (pcfgs (F := F)) admF (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vb4 m ρ) c).loose
  hwaits := Pipeline.hwaits_of_owed_zero _ _ _ _ L lv 2 fun _ _ => rfl
  pre c := iprop(StableHlo.held (c : Thread nD τ) (Pipeline.ucRefs τ sig) (Wb4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vb4 m ρ c)
  hentry c := by
    rw [Pipeline.ownSems0_none]
    have hsplit := Pipeline.arrays_of_unscopedBufs (p := 2) (pcfgs (F := F)) admF (pdats m ρ) launch2.win launch2.arr_whole c
      ((pdats m ρ 2 c).share_full fun _ => rfl) (Vb4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admF (Ix := Unit) (Name := ℕ) (U := UR sig nD τ) (Lvl := ℕ)
      launch2.win launch2.arr_whole c (pdats m ρ) ((pdats m ρ 2 c).share_full fun _ => rfl)
      (Vb4 m ρ c) (Vb5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) admF (pdats m ρ) () defs₀ 𝒱₀ L lv) :=
  [ .host (hseg hostOps0 hostOps0_sub ops0_fresh (Wb0 m ρ)),
    .region (reg0 m ρ),
    .host (hseg hostOps1 hostOps1_sub ops1_fresh (Wb2 m ρ)),
    .region (reg1 m ρ),
    .region (reg2 m ρ) ]

theorem main_run (c : Dev nD) : main (F := F) c = Pipeline.Seg.run (segs m ρ) := (main_chain c).trans (by chain_rfl)

set_option backward.isDefEq.respectTransparency.types false in
/-- THE RUN, at any float instance: from any memory with zero counters every weakly fair execution of the program
    terminates, nothing faulting, and the final memory holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wb5 m ρ c b) :=
  Pipeline.θ_run_regions_kit (pcfgs (F := F)) admF (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wb0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wb0 m ρ c)
        from Pipeline.unscopedBufs_held c (Wb0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb5 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wb5 m ρ c) s')
      isplitl [Hh] <;> iassumption)
    (hQ := fun s h c => h c)

/-- The frame at any float instance: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (Wb5_main_arg0 m ρ c),
     (h c _ (mem_uc main_arg1 (by decide))).trans (Wb5_main_arg1 m ρ c),
     (h c _ (mem_uc main_arg2 (by decide))).trans (Wb5_main_arg2 m ρ c),
     (h c _ (mem_uc main_arg3 (by decide))).trans (Wb5_main_arg3 m ρ c),
     (h c _ (mem_uc main_arg4 (by decide))).trans (Wb5_main_arg4 m ρ c),
     (h c _ (mem_uc main_arg5 (by decide))).trans (Wb5_main_arg5 m ρ c),
     (h c _ (mem_uc main_arg6 (by decide))).trans (Wb5_main_arg6 m ρ c),
     (h c _ (mem_uc main_arg7 (by decide))).trans (Wb5_main_arg7 m ρ c),
     (h c _ (mem_uc main_arg8 (by decide))).trans (Wb5_main_arg8 m ρ c),
     (h c _ (mem_uc main_arg9 (by decide))).trans (Wb5_main_arg9 m ρ c),
     (h c _ (mem_uc main_arg10 (by decide))).trans (Wb5_main_arg10 m ρ c),
     (h c _ (mem_uc main_arg11 (by decide))).trans (Wb5_main_arg11 m ρ c)⟩) (run_all m ρ)

end Cert.KernelIdeal.Fr

end
-- ==== Proof.Value.Spec.lean ====
/-
  The mathematics both programs compute, stated once over plain coordinate functions on the extended reals.

  A node's spatial embedding is a two-layer perceptron with a rectifier after each layer, applied to its row of
  `space`; its temporal embedding the same of its row of `time` (a row of 61440 features); the node embedding is their
  sum.  The edge logits are the bilinear form `(U1 · B) · U2ᵀ`; a logit below the threshold is replaced by zero, and each
  row is normalised by the softmax: the exponential of the entry less the row's maximum, over the row's sum of those
  exponentials.
-/
import Idealize.ShloMosaic.PureOps.Ideal
import Mathlib.Algebra.BigOperators.Fin

noncomputable section

namespace Cert.Spec

open Idealize.ShloMosaic

/-- The spatial hidden layer: `max (∑ₗ space i l · Ws1 l k + bs1 k) 0`. -/
def hidS (space : Fin 1024 → Fin 1024 → EReal) (Ws1 : Fin 1024 → Fin 256 → EReal) (bs1 : Fin 256 → EReal)
    (i : Fin 1024) (k : Fin 256) : EReal :=
  max ((∑ l : Fin 1024, space i l * Ws1 l k) + bs1 k) 0

/-- The spatial embedding: the second layer over the hidden one. -/
def sp (space : Fin 1024 → Fin 1024 → EReal) (Ws1 : Fin 1024 → Fin 256 → EReal) (bs1 : Fin 256 → EReal)
    (Ws2 : Fin 256 → Fin 128 → EReal) (bs2 : Fin 128 → EReal) (i : Fin 1024) (j : Fin 128) : EReal :=
  max ((∑ k : Fin 256, hidS space Ws1 bs1 i k * Ws2 k j) + bs2 j) 0

/-- The temporal hidden layer: the contraction runs over all 61440 temporal features at once. -/
def hidT (time : Fin 1024 → Fin 61440 → EReal) (Wt1 : Fin 61440 → Fin 256 → EReal) (bt1 : Fin 256 → EReal)
    (i : Fin 1024) (k : Fin 256) : EReal :=
  max ((∑ l : Fin 61440, time i l * Wt1 l k) + bt1 k) 0

/-- The temporal embedding. -/
def tp (time : Fin 1024 → Fin 61440 → EReal) (Wt1 : Fin 61440 → Fin 256 → EReal) (bt1 : Fin 256 → EReal)
    (Wt2 : Fin 256 → Fin 128 → EReal) (bt2 : Fin 128 → EReal) (i : Fin 1024) (j : Fin 128) : EReal :=
  max ((∑ k : Fin 256, hidT time Wt1 bt1 i k * Wt2 k j) + bt2 j) 0

/-- The node embedding: temporal plus spatial. -/
def emb (spv tpv : Fin 1024 → Fin 128 → EReal) (i : Fin 1024) (j : Fin 128) : EReal := tpv i j + spv i j

/-- The edge logit `((U1 · B) · U2ᵀ) i j`. -/
def logit (U1 U2 : Fin 1024 → Fin 128 → EReal) (B : Fin 128 → Fin 128 → EReal) (i j : Fin 1024) : EReal :=
  ∑ b : Fin 128, (∑ a : Fin 128, U1 i a * B a b) * U2 j b

/-- The threshold: a logit not at least the constant (the single-precision word nearest one twentieth) becomes zero. -/
def thr (v : EReal) : EReal := Scalar.select (Ideal.cmp .oge v (Ideal.ofBits .f32 0x3D4CCCCD#32)) v 0

/-- A row's maximum, folded from the bottom element. -/
def rowmax (x : Fin 1024 → Fin 1024 → EReal) (i : Fin 1024) : EReal :=
  (Finset.univ : Finset (Fin 1024)).fold max ⊥ (fun j => x i j)

/-- The row softmax. -/
def softmax (x : Fin 1024 → Fin 1024 → EReal) (i j : Fin 1024) : EReal :=
  Ideal.div (Ideal.exp (x i j - rowmax x i)) (∑ j' : Fin 1024, Ideal.exp (x i j' - rowmax x i))

/-- The adjacency scores from the two embeddings and the bilinear weight. -/
def score (U1 U2 : Fin 1024 → Fin 128 → EReal) (B : Fin 128 → Fin 128 → EReal) (i j : Fin 1024) : EReal :=
  softmax (fun a b => thr (logit U1 U2 B a b)) i j

/-- The whole computation from the twelve inputs. -/
def result (space : Fin 1024 → Fin 1024 → EReal) (time1 time2 : Fin 1024 → Fin 61440 → EReal)
    (Ws1 : Fin 1024 → Fin 256 → EReal) (bs1 : Fin 256 → EReal) (Ws2 : Fin 256 → Fin 128 → EReal) (bs2 : Fin 128 → EReal)
    (Wt1 : Fin 61440 → Fin 256 → EReal) (bt1 : Fin 256 → EReal) (Wt2 : Fin 256 → Fin 128 → EReal) (bt2 : Fin 128 → EReal)
    (B : Fin 128 → Fin 128 → EReal) (i j : Fin 1024) : EReal :=
  score (emb (sp space Ws1 bs1 Ws2 bs2) (tp time1 Wt1 bt1 Wt2 bt2)) (emb (sp space Ws1 bs1 Ws2 bs2) (tp time2 Wt1 bt1 Wt2 bt2)) B i j

end Cert.Spec

end
-- ==== Proof.Value.RefIsSpec.lean ====
/-
  The reference program's result, read as the specification's `result` of the twelve inputs.

  The reference computes, with whole-array operations, the same chain the specification states entry by entry: two
  perceptrons (a contraction, a bias added along the rows, a rectifier; twice) for the spatial and for each of the two
  temporal inputs, their sum as the node embedding, the bilinear logits `(U1 · B) · U2ᵀ` through a transposition of the
  second embedding, the threshold as a comparison against a broadcast constant followed by a selection, and the row
  softmax as a maximum folded from the bottom element, a subtraction, an exponential, a row sum from zero and a
  division.  Each stage is read here at an index written by its coordinates, and identified with the specification's
  function of the same name; the only algebraic law used is the commutativity of addition (the reference adds the
  spatial embedding to the temporal one, the specification the other way round), together with `max ⊥ x = x` and
  `0 + x = x`.  No stage is unfolded against another: every lemma speaks about one stage by its name.
-/
import proofs.«179632_j35485019800147_2_alg».proof.Proof.Gen.ReferenceIdeal.Read
import proofs.«179632_j35485019800147_2_alg».proof.Proof.Value.Spec

noncomputable section

namespace Cert.Val.Ref

open Cert.ReferenceIdeal Cert.ReferenceIdeal.Gen Cert.ReferenceIdeal.Read Idealize.ShloMosaic Idealize.ShloMosaic.ValueIdx

/-! An index of a rank-two array is written by its two coordinates, `ix2 i j`; inside each lemma the composed index
functions of the stages are identified, at such an index, with the coordinates they stand for. -/

section Stages

variable (a0 : (⟨S1024x1024, .f32⟩ : BufTy).Contents (Elt Ideal)) (a1 a2 : (⟨S1024x61440, .f32⟩ : BufTy).Contents (Elt Ideal))
  (a3 : (⟨S1024x256, .f32⟩ : BufTy).Contents (Elt Ideal)) (a4 : (⟨S256, .f32⟩ : BufTy).Contents (Elt Ideal))
  (a5 : (⟨S256x128, .f32⟩ : BufTy).Contents (Elt Ideal)) (a6 : (⟨S128, .f32⟩ : BufTy).Contents (Elt Ideal))
  (a7 : (⟨S61440x256, .f32⟩ : BufTy).Contents (Elt Ideal)) (a8 : (⟨S256, .f32⟩ : BufTy).Contents (Elt Ideal))
  (a9 : (⟨S256x128, .f32⟩ : BufTy).Contents (Elt Ideal)) (a10 : (⟨S128, .f32⟩ : BufTy).Contents (Elt Ideal))
  (a11 : (⟨S128x128, .f32⟩ : BufTy).Contents (Elt Ideal))

/-! ### The spatial perceptron -/

/-- The first spatial layer at row `i`, unit `k`: the contraction of row `i` of `space` with column `k` of the first
    weight, plus the bias, rectified. -/
theorem hidS_v4 (i : Fin 1024) (k : Fin 256) :
    val_main_v4 (F := Ideal) a0 a3 a4 (ix2 i k)
      = Cert.Spec.hidS (fun a b => a0 (ix2 a b)) (fun a b => a3 (ix2 a b)) (fun a => a4 (ix1 a)) i k := by
  rw [val_main_v4_apply, val_main_v3_apply, val_main_v0_apply, val_main_v2_apply, val_main_v1_apply,
    val_main_call0_v0_apply, val_main_call0_cst_apply]
  have el : ∀ l : Fin 1024, lidx_main_v0 (ix2 i k) l = ix2 i l := fun l => funext fun a => Fin.ext (by
    match a with | ⟨0, _⟩ => rfl | ⟨1, _⟩ => rfl)
  have er : ∀ l : Fin 1024, ridx_main_v0 (ix2 i k) l = ix2 l k := fun l => funext fun a => Fin.ext (by
    match a with | ⟨0, _⟩ => rfl | ⟨1, _⟩ => rfl)
  have eb : idx_main_v1 (idx_main_v2 (ix2 i k)) = ix1 k := funext fun a => Fin.ext (by
    match a with | ⟨0, _⟩ => rfl)
  simp only [el, er, eb, Ideal.maximumf_def, Ideal.addf_def, Ideal.ofBits_def, Ideal.ofBits_zero_f32, Cert.Spec.hidS]

/-- The spatial embedding at node `i`, feature `j`: the second layer over the hidden one. -/
theorem sp_v9 (i : Fin 1024) (j : Fin 128) :
    val_main_v9 (F := Ideal) a0 a3 a4 a5 a6 (ix2 i j)
      = Cert.Spec.sp (fun a b => a0 (ix2 a b)) (fun a b => a3 (ix2 a b)) (fun a => a4 (ix1 a)) (fun a b => a5 (ix2 a b))
          (fun a => a6 (ix1 a)) i j := by
  rw [val_main_v9_apply, val_main_v8_apply, val_main_v5_apply, val_main_v7_apply, val_main_v6_apply,
    val_main_call1_v0_apply, val_main_call1_cst_apply]
  have el : ∀ l : Fin 256, lidx_main_v5 (ix2 i j) l = ix2 i l := fun l => funext fun a => Fin.ext (by
    match a with | ⟨0, _⟩ => rfl | ⟨1, _⟩ => rfl)
  have er : ∀ l : Fin 256, ridx_main_v5 (ix2 i j) l = ix2 l j := fun l => funext fun a => Fin.ext (by
    match a with | ⟨0, _⟩ => rfl | ⟨1, _⟩ => rfl)
  have eb : idx_main_v6 (idx_main_v7 (ix2 i j)) = ix1 j := funext fun a => Fin.ext (by
    match a with | ⟨0, _⟩ => rfl)
  simp only [el, er, eb, hidS_v4, Ideal.maximumf_def, Ideal.addf_def, Ideal.ofBits_def, Ideal.ofBits_zero_f32, Cert.Spec.sp]

/-- The program computes the spatial embedding a second time, for the second node embedding: the same function. -/
theorem v30_eq_v9 : val_main_v30 (F := Ideal) a0 a3 a4 a5 a6 = val_main_v9 (F := Ideal) a0 a3 a4 a5 a6 := rfl

/-! ### The temporal perceptron -/

/-- The first temporal layer at row `i`, unit `k`: one contraction over all 61440 temporal features. -/
theorem hidT_v14 (i : Fin 1024) (k : Fin 256) :
    val_main_v14 (F := Ideal) a1 a7 a8 (ix2 i k)
      = Cert.Spec.hidT (fun a b => a1 (ix2 a b)) (fun a b => a7 (ix2 a b)) (fun a => a8 (ix1 a)) i k := by
  rw [val_main_v14_apply, val_main_v13_apply, val_main_v10_apply, val_main_v12_apply, val_main_v11_apply,
    val_main_call2_v0_apply, val_main_call2_cst_apply]
  have el : ∀ l : Fin 61440, lidx_main_v10 (ix2 i k) l = ix2 i l := fun l => funext fun a => Fin.ext (by
    match a with | ⟨0, _⟩ => rfl | ⟨1, _⟩ => rfl)
  have er : ∀ l : Fin 61440, ridx_main_v10 (ix2 i k) l = ix2 l k := fun l => funext fun a => Fin.ext (by
    match a with | ⟨0, _⟩ => rfl | ⟨1, _⟩ => rfl)
  have eb : idx_main_v11 (idx_main_v12 (ix2 i k)) = ix1 k := funext fun a => Fin.ext (by
    match a with | ⟨0, _⟩ => rfl)
  simp only [el, er, eb, Ideal.maximumf_def, Ideal.addf_def, Ideal.ofBits_def, Ideal.ofBits_zero_f32, Cert.Spec.hidT]

/-- The temporal embedding at node `i`, feature `j`. -/
theorem tp_v19 (i : Fin 1024) (j : Fin 128) :
    val_main_v19 (F := Ideal) a1 a7 a8 a9 a10 (ix2 i j)
      = Cert.Spec.tp (fun a b => a1 (ix2 a b)) (fun a b => a7 (ix2 a b)) (fun a => a8 (ix1 a)) (fun a b => a9 (ix2 a b))
          (fun a => a10 (ix1 a)) i j := by
  rw [val_main_v19_apply, val_main_v18_apply, val_main_v15_apply, val_main_v17_apply, val_main_v16_apply,
    val_main_call3_v0_apply, val_main_call3_cst_apply]
  have el : ∀ l : Fin 256, lidx_main_v15 (ix2 i j) l = ix2 i l := fun l => funext fun a => Fin.ext (by
    match a with | ⟨0, _⟩ => rfl | ⟨1, _⟩ => rfl)
  have er : ∀ l : Fin 256, ridx_main_v15 (ix2 i j) l = ix2 l j := fun l => funext fun a => Fin.ext (by
    match a with | ⟨0, _⟩ => rfl | ⟨1, _⟩ => rfl)
  have eb : idx_main_v16 (idx_main_v17 (ix2 i j)) = ix1 j := funext fun a => Fin.ext (by
    match a with | ⟨0, _⟩ => rfl)
  simp only [el, er, eb, hidT_v14, Ideal.maximumf_def, Ideal.addf_def, Ideal.ofBits_def, Ideal.ofBits_zero_f32, Cert.Spec.tp]

/-- The second temporal embedding is the same function, of the second array of temporal features. -/
theorem v40_eq_v19 : val_main_v40 (F := Ideal) a2 a7 a8 a9 a10 = val_main_v19 (F := Ideal) a2 a7 a8 a9 a10 := rfl

/-! ### The node embeddings and the logits -/

/-- The first node embedding: the program adds spatial to temporal, the specification temporal to spatial; addition on
    the extended reals is commutative. -/
theorem emb_v20 (i : Fin 1024) (j : Fin 128) :
    val_main_v20 (F := Ideal) a0 a1 a3 a4 a5 a6 a7 a8 a9 a10 (ix2 i j)
      = Cert.Spec.emb
          (Cert.Spec.sp (fun a b => a0 (ix2 a b)) (fun a b => a3 (ix2 a b)) (fun a => a4 (ix1 a)) (fun a b => a5 (ix2 a b))
            (fun a => a6 (ix1 a)))
          (Cert.Spec.tp (fun a b => a1 (ix2 a b)) (fun a b => a7 (ix2 a b)) (fun a => a8 (ix1 a)) (fun a b => a9 (ix2 a b))
            (fun a => a10 (ix1 a))) i j := by
  rw [val_main_v20_apply, sp_v9, tp_v19, Ideal.addf_def]
  exact add_comm _ _

/-- The second node embedding, of the second array of temporal features. -/
theorem emb_v41 (i : Fin 1024) (j : Fin 128) :
    val_main_v41 (F := Ideal) a0 a2 a3 a4 a5 a6 a7 a8 a9 a10 (ix2 i j)
      = Cert.Spec.emb
          (Cert.Spec.sp (fun a b => a0 (ix2 a b)) (fun a b => a3 (ix2 a b)) (fun a => a4 (ix1 a)) (fun a b => a5 (ix2 a b))
            (fun a => a6 (ix1 a)))
          (Cert.Spec.tp (fun a b => a2 (ix2 a b)) (fun a b => a7 (ix2 a b)) (fun a => a8 (ix1 a)) (fun a b => a9 (ix2 a b))
            (fun a => a10 (ix1 a))) i j := by
  rw [val_main_v41_apply, v30_eq_v9, v40_eq_v19, sp_v9, tp_v19, Ideal.addf_def]
  exact add_comm _ _

/-- The logit of the edge from `i` to `j`: the first embedding's row `i` through the bilinear weight, against the second
    embedding's row `j` (the program transposes the second embedding and contracts with its column `j`). -/
theorem logit_v44 (i j : Fin 1024) :
    val_main_v44 (F := Ideal) a0 a1 a2 a3 a4 a5 a6 a7 a8 a9 a10 a11 (ix2 i j)
      = Cert.Spec.logit (fun a b => val_main_v20 (F := Ideal) a0 a1 a3 a4 a5 a6 a7 a8 a9 a10 (ix2 a b))
          (fun a b => val_main_v41 (F := Ideal) a0 a2 a3 a4 a5 a6 a7 a8 a9 a10 (ix2 a b)) (fun a b => a11 (ix2 a b)) i j := by
  rw [val_main_v44_apply]
  have el : ∀ l : Fin 128, lidx_main_v44 (ix2 i j) l = ix2 i l := fun l => funext fun a => Fin.ext (by
    match a with | ⟨0, _⟩ => rfl | ⟨1, _⟩ => rfl)
  have er : ∀ l : Fin 128, ridx_main_v44 (ix2 i j) l = ix2 l j := fun l => funext fun a => Fin.ext (by
    match a with | ⟨0, _⟩ => rfl | ⟨1, _⟩ => rfl)
  have et : ∀ l : Fin 128, idx_main_v43 (ix2 l j) = ix2 j l := fun l => funext fun a => Fin.ext (by
    match a with | ⟨0, _⟩ => rfl | ⟨1, _⟩ => rfl)
  have el' : ∀ b l : Fin 128, lidx_main_v42 (ix2 i b) l = ix2 i l := fun b l => funext fun a => Fin.ext (by
    match a with | ⟨0, _⟩ => rfl | ⟨1, _⟩ => rfl)
  have er' : ∀ b l : Fin 128, ridx_main_v42 (ix2 i b) l = ix2 l b := fun b l => funext fun a => Fin.ext (by
    match a with | ⟨0, _⟩ => rfl | ⟨1, _⟩ => rfl)
  simp only [el, er, val_main_v42_apply, val_main_v43_apply, et, el', er', Cert.Spec.logit]

/-! ### The threshold and the softmax -/

/-- The thresholded logit: the program compares with a broadcast constant and selects between the logit and a broadcast zero. -/
theorem thr_v47 (i j : Fin 1024) :
    val_main_v47 (F := Ideal) a0 a1 a2 a3 a4 a5 a6 a7 a8 a9 a10 a11 (ix2 i j)
      = Cert.Spec.thr (val_main_v44 (F := Ideal) a0 a1 a2 a3 a4 a5 a6 a7 a8 a9 a10 a11 (ix2 i j)) := by
  rw [val_main_v47_apply, val_main_v46_apply, val_main_v45_apply, val_main_cst_apply, val_main_call8_v0_apply,
    val_main_cst_0_apply]
  simp only [Ideal.ofBits_def, Ideal.ofBits_zero_f32, Cert.Spec.thr]
  rfl

/-- The source index over the row index `i` with column `k` put back on the reduced axis is (i, k). -/
theorem lift_row (h : S1024x1024.Reduces [1] S1024) (i : Fin 1024) (k : Fin (S1024x1024.size 1)) :
    h.lift (ix1 i) k = ix2 i (⟨k.val, k.isLt⟩ : Fin 1024) := by
  funext c; apply Fin.ext
  fin_cases c <;> rfl

/-- The word the reference folds a row's maximum from is the bottom element. -/
theorem ofBits_neg_inf : Ideal.ofBits .f32 0xFF800000#32 = (⊥ : EReal) := by simp [Ideal.ofBits, Ideal.ieee]

/-- A row's maximum: the reference reduces the row with a maximum from the bottom element, then takes the maximum with
    the bottom element once more, which changes nothing. -/
theorem rowmax_v50 (i : Fin 1024) :
    val_main_v50 (F := Ideal) a0 a1 a2 a3 a4 a5 a6 a7 a8 a9 a10 a11 (ix1 i)
      = Cert.Spec.rowmax (fun a b => val_main_v47 (F := Ideal) a0 a1 a2 a3 a4 a5 a6 a7 a8 a9 a10 a11 (ix2 a b)) i := by
  rw [val_main_v50_apply, val_main_v49_apply, val_main_cst_2_apply]
  unfold val_main_v48
  generalize val_main_v47 (F := Ideal) a0 a1 a2 a3 a4 a5 a6 a7 a8 a9 a10 a11 = y
  have h : S1024x1024.Reduces [1] S1024 := by decide
  have hr := Host.reduce_eq_fold_single (α := Ideal .f32) (s := S1024x1024) (a := 1) (t := S1024) (u := S_)
    (FloatOps.maximumf (F := Ideal) (φ := .f32)) y (val_main_cst_1 (F := Ideal)) reducesTo_S1024x1024_S1024_d1 h h_S_ (ix1 i)
  have hf : (y ∘ h.lift (ix1 i)) = fun k : Fin 1024 => y (ix2 i k) := funext fun k => congrArg y (lift_row h i k)
  have e : (Finset.univ : Finset (Fin (S1024x1024.size 1))).fold (FloatOps.maximumf (F := Ideal) (φ := .f32))
        (val_main_cst_1 (F := Ideal) (Shape.Idx.first h_S_)) (y ∘ h.lift (ix1 i))
      = (Finset.univ : Finset (Fin 1024)).fold max (⊥ : EReal) (fun k : Fin 1024 => y (ix2 i k)) := by
    rw [val_main_cst_1_apply, Ideal.ofBits_def, ofBits_neg_inf]
    exact congrArg (fun f => Finset.fold max (⊥ : EReal) f (Finset.univ : Finset (Fin 1024))) hf
  refine (congrArg (FloatOps.maximumf (F := Ideal) (φ := .f32) (FloatOps.ofBits .f32 0xFF800000#32)) (hr.trans e)).trans ?_
  rw [Ideal.ofBits_def, ofBits_neg_inf, Ideal.maximumf_def]
  exact max_bot_left _

/-- The exponential of an entry less its row's maximum. -/
theorem exp_v54 (i j : Fin 1024) :
    val_main_v54 (F := Ideal) a0 a1 a2 a3 a4 a5 a6 a7 a8 a9 a10 a11 (ix2 i j)
      = Ideal.exp (val_main_v47 (F := Ideal) a0 a1 a2 a3 a4 a5 a6 a7 a8 a9 a10 a11 (ix2 i j)
          - Cert.Spec.rowmax (fun a b => val_main_v47 (F := Ideal) a0 a1 a2 a3 a4 a5 a6 a7 a8 a9 a10 a11 (ix2 a b)) i) := by
  rw [val_main_v54_apply, val_main_v53_apply, val_main_v52_apply, val_main_v51_apply]
  have eb : idx_main_v51 (idx_main_v52 (ix2 i j)) = ix1 i := funext fun a => Fin.ext (by
    match a with | ⟨0, _⟩ => rfl)
  rw [eb, rowmax_v50]
  rfl

/-- The softmax of the thresholded logits: each exponential over the sum of its row's exponentials (the reference's sum
    starts from a zero word). -/
theorem softmax_v58 (i j : Fin 1024) :
    val_main_v58 (F := Ideal) a0 a1 a2 a3 a4 a5 a6 a7 a8 a9 a10 a11 (ix2 i j)
      = Cert.Spec.softmax (fun a b => val_main_v47 (F := Ideal) a0 a1 a2 a3 a4 a5 a6 a7 a8 a9 a10 a11 (ix2 a b)) i j := by
  rw [val_main_v58_apply, val_main_v57_apply, val_main_v56_apply, val_main_v55_apply, val_main_cst_3_apply]
  have es : ∀ k : Fin 1024, idx_main_v55 (idx_main_v56 (idx_main_v57 (ix2 i j))) k = ix2 i k := fun k => funext fun a =>
    Fin.ext (by match a with | ⟨0, _⟩ => rfl | ⟨1, _⟩ => rfl)
  simp only [es, exp_v54, Ideal.hostDivf_def, Ideal.ofBits_def, Ideal.ofBits_zero_f32, zero_add, Cert.Spec.softmax]

end Stages

/-- The reference's result is the specification's function of the twelve inputs, entry by entry. -/
theorem ref_eq (a0 : (⟨S1024x1024, .f32⟩ : BufTy).Contents (Elt Ideal)) (a1 a2 : (⟨S1024x61440, .f32⟩ : BufTy).Contents (Elt Ideal))
    (a3 : (⟨S1024x256, .f32⟩ : BufTy).Contents (Elt Ideal)) (a4 : (⟨S256, .f32⟩ : BufTy).Contents (Elt Ideal))
    (a5 : (⟨S256x128, .f32⟩ : BufTy).Contents (Elt Ideal)) (a6 : (⟨S128, .f32⟩ : BufTy).Contents (Elt Ideal))
    (a7 : (⟨S61440x256, .f32⟩ : BufTy).Contents (Elt Ideal)) (a8 : (⟨S256, .f32⟩ : BufTy).Contents (Elt Ideal))
    (a9 : (⟨S256x128, .f32⟩ : BufTy).Contents (Elt Ideal)) (a10 : (⟨S128, .f32⟩ : BufTy).Contents (Elt Ideal))
    (a11 : (⟨S128x128, .f32⟩ : BufTy).Contents (Elt Ideal)) :
    val_main_v58 (F := Ideal) a0 a1 a2 a3 a4 a5 a6 a7 a8 a9 a10 a11
      = fun i => Cert.Spec.result (fun a b => a0 (ix2 a b)) (fun a b => a1 (ix2 a b)) (fun a b => a2 (ix2 a b))
          (fun a b => a3 (ix2 a b)) (fun a => a4 (ix1 a)) (fun a b => a5 (ix2 a b)) (fun a => a6 (ix1 a))
          (fun a b => a7 (ix2 a b)) (fun a => a8 (ix1 a)) (fun a b => a9 (ix2 a b)) (fun a => a10 (ix1 a))
          (fun a b => a11 (ix2 a b)) (i 0) (i 1) := by
  funext i
  obtain ⟨p, q, rfl⟩ : ∃ (p q : Fin 1024), i = ix2 p q := ⟨i 0, i 1, eq_ix2 i⟩
  show val_main_v58 (F := Ideal) a0 a1 a2 a3 a4 a5 a6 a7 a8 a9 a10 a11 (ix2 p q)
    = Cert.Spec.result (fun a b => a0 (ix2 a b)) (fun a b => a1 (ix2 a b)) (fun a b => a2 (ix2 a b))
          (fun a b => a3 (ix2 a b)) (fun a => a4 (ix1 a)) (fun a b => a5 (ix2 a b)) (fun a => a6 (ix1 a))
          (fun a b => a7 (ix2 a b)) (fun a => a8 (ix1 a)) (fun a b => a9 (ix2 a b)) (fun a => a10 (ix1 a))
          (fun a b => a11 (ix2 a b)) p q
  rw [softmax_v58]
  have hx : (fun a b : Fin 1024 => val_main_v47 (F := Ideal) a0 a1 a2 a3 a4 a5 a6 a7 a8 a9 a10 a11 (ix2 a b))
      = fun a b => Cert.Spec.thr (Cert.Spec.logit
          (Cert.Spec.emb
            (Cert.Spec.sp (fun a b => a0 (ix2 a b)) (fun a b => a3 (ix2 a b)) (fun a => a4 (ix1 a)) (fun a b => a5 (ix2 a b))
              (fun a => a6 (ix1 a)))
            (Cert.Spec.tp (fun a b => a1 (ix2 a b)) (fun a b => a7 (ix2 a b)) (fun a => a8 (ix1 a)) (fun a b => a9 (ix2 a b))
              (fun a => a10 (ix1 a))))
          (Cert.Spec.emb
            (Cert.Spec.sp (fun a b => a0 (ix2 a b)) (fun a b => a3 (ix2 a b)) (fun a => a4 (ix1 a)) (fun a b => a5 (ix2 a b))
              (fun a => a6 (ix1 a)))
            (Cert.Spec.tp (fun a b => a2 (ix2 a b)) (fun a b => a7 (ix2 a b)) (fun a => a8 (ix1 a)) (fun a b => a9 (ix2 a b))
              (fun a => a10 (ix1 a))))
          (fun a b => a11 (ix2 a b)) a b) := by
    funext a b
    simp only [thr_v47, logit_v44, emb_v20, emb_v41]
  rw [hx]
  rfl

end Cert.Val.Ref

end
-- ==== Proof.Value.Val0.lean ====
/-
  The value of the spatial call at the extended reals: after its two grid points the result array holds, at row i and
  column j, the two-layer rectified perceptron of row i of the node matrix,
      max (∑ₖ max (∑ₗ space i l · Ws1 l k + bs1 k) 0 · Ws2 k j + bs2 j) 0,
  whatever the buffers hold when the call is entered.

  Three steps. The body's stored value read at an entry of its block: each matrix product into the zero matrix is the
  sum over the contracted coordinate, the bias row is laid along every row, the rectifier is a maximum with zero, and the
  changes of number format are the identity. Then the blocks: the node-matrix block of point t is rows 512 t .. 512 t + 511
  and the four parameter blocks are the whole arrays, so what point t writes back is rows 512 t .. 512 t + 511 of the
  perceptron. Last the cover: row r is written by point r / 512, so the two write-backs fill the array.
-/
import proofs.«179632_j35485019800147_2_alg».proof.Proof.FrameKernelIdeal.Reg0
import proofs.«179632_j35485019800147_2_alg».proof.Proof.Value.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember

noncomputable section

namespace Cert.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

/-! ## The stored value at an entry -/

/-- A plain product of an m×k by a k×n matrix accumulated into the zero matrix, read at an entry: the sum over the
    contracted coordinate of the products of the entries. -/
theorem matmul_plain_zero_apply {m k n : Nat} {φ₁ φ₂ : FTy} (D : DotDims ⟨2, ![m, k]⟩ ⟨2, ![k, n]⟩ ⟨2, ![m, n]⟩)
    (hD : D = DotDims.plain m k n) (prec : Option ContractPrecision)
    (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  subst hD
  exact (congrFun (matmul_zero_eq_dotGeneral _ prec A B) (ix2 a b)).trans (StackMember.dotGeneral_plain_apply prec A B a b)

/-- The two products of the body contract the left operand's columns with the right operand's rows. -/
theorem dot1_plain : dot_S512x1024_S1024x256_S512x256_1_0_0_1_n_n = DotDims.plain 512 1024 256 := rfl
theorem dot2_plain : dot_S512x256_S256x128_S512x128_1_0_0_1_n_n = DotDims.plain 512 256 128 := rfl

/-- The hidden layer at an entry: the rectified sum over the 1024 input features, plus the bias. -/
theorem hid_apply (x0 : Vec Ideal S512x1024 .f32) (x1 : Vec Ideal S1024x256 .f32) (x2 : Vec Ideal S1x256 .f32)
    (p : Fin 512) (k : Fin 256) :
    (maximumf (addf (matmul dot_S512x1024_S1024x256_S512x256_1_0_0_1_n_n none (truncf .bf16 x0 bitsLt_bf16_f32) (truncf .bf16 x1 bitsLt_bf16_f32)
        (constant (F := Ideal) S512x256 .f32 0x00000000#32))
      (broadcastTo S512x256 (shapeCast S1x256 x2 shapeCasts_S1x256_S1x256) broadcasts_S1x256_S512x256))
      (broadcast S512x256 (Scalar.ofBits (F := Ideal) .f32 0x00000000#32)) : FVec Ideal S512x256 .f32) (ix2 p k)
      = max ((∑ l : Fin 1024, x0 (ix2 p l) * x1 (ix2 l k)) + x2 (ix2 (0 : Fin 1) k)) 0 := by
  show max (matmul _ none _ _ _ (ix2 p k) + broadcastTo S512x256 _ _ (ix2 p k)) (Ideal.ofBits .f32 0x00000000#32) = _
  rw [matmul_plain_zero_apply _ dot1_plain, shapeCast_self, broadcastTo_1b_ab_apply, Ideal.ofBits_zero_f32]
  rfl

/-- The whole payload at an entry: the second layer over the hidden one. -/
theorem pay0_apply (x0 : Vec Ideal S512x1024 .f32) (x1 : Vec Ideal S1024x256 .f32) (x2 : Vec Ideal S1x256 .f32)
    (x3 : Vec Ideal S256x128 .f32) (x4 : Vec Ideal S1x128 .f32) (p : Fin 512) (q : Fin 128) :
    k0_pay1 (F := Ideal) x0 x1 x2 x3 x4 (ix2 p q)
      = max ((∑ k : Fin 256, max ((∑ l : Fin 1024, x0 (ix2 p l) * x1 (ix2 l k)) + x2 (ix2 (0 : Fin 1) k)) 0 * x3 (ix2 k q))
          + x4 (ix2 (0 : Fin 1) q)) 0 := by
  unfold k0_pay1
  show max (matmul _ none _ _ _ (ix2 p q) + broadcastTo S512x128 _ _ (ix2 p q)) (Ideal.ofBits .f32 0x00000000#32) = _
  rw [matmul_plain_zero_apply _ dot2_plain, broadcastTo_1b_ab_apply, shapeCast_self x4, Ideal.ofBits_zero_f32]
  refine congrArg (fun s => max (s + x4 (ix2 (0 : Fin 1) q)) 0) (Finset.sum_congr rfl fun k _ => ?_)
  exact congrArg (· * x3 (ix2 k q)) (hid_apply x0 x1 x2 p k)

/-! ## From the blocks to the array -/

/-- The offsets of a whole-buffer rectangle are zero. -/
theorem hz : (![0, 0] : Fin 2 → Nat) = fun _ => 0 := funext fun a => by fin_cases a <;> rfl

section Arrays
variable (V : (c : Dev nD) → (b : Ref sig .tc) → Buf (Elt Ideal) ((c : Thread nD τ).loc b))

/-- The result array of the spatial call as one function of the call's five arrays: the two-layer perceptron of the
    row of the node matrix. -/
def spArr (c : Dev nD) : S1024x128.Idx → EReal := fun i =>
  Cert.Spec.sp (fun a b => (V c main_arg0 : S1024x1024.Idx → EReal) (ix2 a b)) (fun a b => (V c main_arg3 : S1024x256.Idx → EReal) (ix2 a b))
    (fun b => (V c main_v0 : S1x256.Idx → EReal) (ix2 (0 : Fin 1) b)) (fun a b => (V c main_arg5 : S256x128.Idx → EReal) (ix2 a b))
    (fun b => (V c main_v1 : S1x128.Idx → EReal) (ix2 (0 : Fin 1) b)) (i 0) (i 1)

/-- The block indices of the windows, decided over the two grid points: the node matrix and the result move by one row
    block per point; the weights and biases stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The node-matrix block of point t is rows 512 t .. 512 t + 511. -/
theorem iblk0_0_apply (c : Dev nD) (t : Fin cfg0.N) (p : Fin 512) (l : Fin 1024) (r : Fin 1024) (hr : r.val = 512 * t.val + p.val) :
    (iblk0 V c 0 t : Vec Ideal S512x1024 .f32) (ix2 p l) = (V c main_arg0 : S1024x1024.Idx → EReal) (ix2 r l) := by
  obtain ⟨e0, e1, -⟩ := idx_facts0 t
  unfold iblk0
  rw [View.read_apply]
  show V c main_arg0 _ = V c main_arg0 _
  congr 1
  funext a; apply Fin.ext
  match a with
  | ⟨0, _⟩ => show win0_0.index t (0 : Fin 2) * 512 + 1 * p.val = r.val; rw [e0, hr]; omega
  | ⟨1, _⟩ => show win0_0.index t (1 : Fin 2) * 1024 + 1 * l.val = l.val; rw [e1]; omega

/-- The first weight matrix's block is the whole matrix, at either point. -/
theorem iblk0_1_eq (c : Dev nD) (t : Fin cfg0.N) : (iblk0 V c 1 t : Vec Ideal S1024x256 .f32) = (V c main_arg3 : S1024x256.Idx → EReal) := by
  obtain ⟨-, -, e0, e1, -⟩ := idx_facts0 t
  funext j
  unfold iblk0
  rw [View.read_apply]
  show V c main_arg3 _ = V c main_arg3 _
  congr 1
  funext a; apply Fin.ext
  match a with
  | ⟨0, _⟩ => show win0_1.index t (0 : Fin 2) * 1024 + 1 * (j 0).val = (j 0).val; rw [e0]; omega
  | ⟨1, _⟩ => show win0_1.index t (1 : Fin 2) * 256 + 1 * (j 1).val = (j 1).val; rw [e1]; omega

/-- The first bias row's block is the whole row. -/
theorem iblk0_2_eq (c : Dev nD) (t : Fin cfg0.N) : (iblk0 V c 2 t : Vec Ideal S1x256 .f32) = (V c main_v0 : S1x256.Idx → EReal) := by
  obtain ⟨-, -, -, -, e0, e1, -⟩ := idx_facts0 t
  funext j
  unfold iblk0
  rw [View.read_apply]
  show V c main_v0 _ = V c main_v0 _
  congr 1
  funext a; apply Fin.ext
  match a with
  | ⟨0, _⟩ => show win0_2.index t (0 : Fin 2) * 1 + 1 * (j 0).val = (j 0).val; rw [e0]; omega
  | ⟨1, _⟩ => show win0_2.index t (1 : Fin 2) * 256 + 1 * (j 1).val = (j 1).val; rw [e1]; omega

/-- The second weight matrix's block is the whole matrix. -/
theorem iblk0_3_eq (c : Dev nD) (t : Fin cfg0.N) : (iblk0 V c 3 t : Vec Ideal S256x128 .f32) = (V c main_arg5 : S256x128.Idx → EReal) := by
  obtain ⟨-, -, -, -, -, -, e0, e1, -⟩ := idx_facts0 t
  funext j
  unfold iblk0
  rw [View.read_apply]
  show V c main_arg5 _ = V c main_arg5 _
  congr 1
  funext a; apply Fin.ext
  match a with
  | ⟨0, _⟩ => show win0_3.index t (0 : Fin 2) * 256 + 1 * (j 0).val = (j 0).val; rw [e0]; omega
  | ⟨1, _⟩ => show win0_3.index t (1 : Fin 2) * 128 + 1 * (j 1).val = (j 1).val; rw [e1]; omega

/-- The second bias row's block is the whole row. -/
theorem iblk0_4_eq (c : Dev nD) (t : Fin cfg0.N) : (iblk0 V c 4 t : Vec Ideal S1x128 .f32) = (V c main_v1 : S1x128.Idx → EReal) := by
  obtain ⟨-, -, -, -, -, -, -, -, e0, e1, -⟩ := idx_facts0 t
  funext j
  unfold iblk0
  rw [View.read_apply]
  show V c main_v1 _ = V c main_v1 _
  congr 1
  funext a; apply Fin.ext
  match a with
  | ⟨0, _⟩ => show win0_4.index t (0 : Fin 2) * 1 + 1 * (j 0).val = (j 0).val; rw [e0]; omega
  | ⟨1, _⟩ => show win0_4.index t (1 : Fin 2) * 128 + 1 * (j 1).val = (j 1).val; rw [e1]; omega

/-- What point t writes back is the row block t of spArr. -/
theorem flushed0_eq (c : Dev nD) (t : Fin cfg0.N) :
    (dat0 V c).flushed 5 t = ((cfg0.win 5).blk t).view.read (Elt Ideal) (spArr V c) := by
  show (cfg0.win 5).cut (grid0.coords t) ((dat0 V c).after 5 t) = _
  rw [after0_5]
  unfold out0_5
  rw [View.canon_unit_zero hz]
  simp only [View.ld_unit_zero (S := S512x1024) hz, View.ld_unit_zero (S := S1024x256) hz, View.ld_unit_zero (S := S1x256) hz,
    View.ld_unit_zero (S := S256x128) hz, View.ld_unit_zero (S := S1x128) hz]
  rw [iblk0_1_eq V c t, iblk0_2_eq V c t, iblk0_3_eq V c t, iblk0_4_eq V c t]
  funext (j : S512x128.Idx)
  obtain ⟨p, q, rfl⟩ : ∃ (p : Fin 512) (q : Fin 128), j = ix2 p q := ⟨j 0, j 1, eq_ix2 j⟩
  refine (pay0_apply (iblk0 V c 0 t) _ _ _ _ p q).trans ?_
  obtain ⟨-, -, -, -, -, -, -, -, -, -, e0, e1⟩ := idx_facts0 t
  have hN : cfg0.N = 2 := N_0
  have ht : t.val < 2 := hN ▸ t.isLt
  have he : ((cfg0.win 5).blk t).view.emb (ix2 p q) = (ix2 (⟨512 * t.val + p.val, by omega⟩ : Fin 1024) q : S1024x128.Idx) := by
    funext a; apply Fin.ext
    match a with
    | ⟨0, _⟩ => show win0_5.index t (0 : Fin 2) * 512 + 1 * p.val = 512 * t.val + p.val; rw [e0]; omega
    | ⟨1, _⟩ => show win0_5.index t (1 : Fin 2) * 128 + 1 * q.val = q.val; rw [e1]; omega
  rw [View.read_apply, he]
  unfold spArr Cert.Spec.sp Cert.Spec.hidS
  simp only [iblk0_0_apply V c t p _ ⟨512 * t.val + p.val, by omega⟩ rfl]
  rfl

/-- An index of the result array lies in point t's block exactly when its row is among the block's 512 rows. -/
theorem mem_blk5 (t : Fin cfg0.N) (i : S1024x128.Idx) :
    i ∈ ((cfg0.win 5).blk t).view.set ↔ ∀ a : Fin 2, win0_5.index t a * S512x128.size a ≤ (i a).val ∧ (i a).val < win0_5.index t a * S512x128.size a + S512x128.size a := by
  show i ∈ ((View.whole main_v2).slice (win0_5.rect t)).set ↔ _
  rw [View.set_slice_whole, Rect.mem_set_unit]
  exact Iff.rfl

/-- Row r of the result is written back by point r / 512. -/
theorem cover5 (i : S1024x128.Idx) : ∃ t : Fin cfg0.N, (cfg0.win 5).flush t = true ∧ i ∈ ((cfg0.win 5).blk t).view.set := by
  have hi0 : (i 0).val < 1024 := (i 0).isLt
  have hi1 : (i 1).val < 128 := (i 1).isLt
  have hN : cfg0.N = 2 := N_0
  refine ⟨⟨(i 0).val / 512, by rw [hN]; omega⟩, flush0_5 _, ?_⟩
  rw [mem_blk5]
  obtain ⟨-, -, -, -, -, -, -, -, -, -, e0, e1⟩ := idx_facts0 ⟨(i 0).val / 512, by rw [hN]; omega⟩
  intro a
  match a with
  | ⟨0, _⟩ =>
    show win0_5.index _ (0 : Fin 2) * 512 ≤ (i 0).val ∧ (i 0).val < win0_5.index _ (0 : Fin 2) * 512 + 512
    rw [e0]; show (i 0).val / 512 * 512 ≤ (i 0).val ∧ (i 0).val < (i 0).val / 512 * 512 + 512; omega
  | ⟨1, _⟩ =>
    show win0_5.index _ (1 : Fin 2) * 128 ≤ (i 1).val ∧ (i 1).val < win0_5.index _ (1 : Fin 2) * 128 + 128
    rw [e1]; omega

/-- The result array after the call: the perceptron of every row. -/
theorem final0 (c : Dev nD) : (dat0 V c).arrAt 5 cfg0.N = spArr V c :=
  (dat0 V c).arrAt_eq_of_cover 5 (spArr V c) (fun t _ => flushed0_eq V c t) (cover5)

end Arrays

end Cert.Val

end
-- ==== Proof.Value.Walk.lean ====
/-
  Where each call's operands come from. Between the launch and each call every buffer of a core is at a named valuation;
  this module reads those valuations at the buffers the three calls take as operands.

  No item of the program writes an argument, so an argument operand holds the launch memory's array. A bias enters a call
  as a one-row matrix that a host reshape made from the bias vector: its entry (0, b) is entry b of the vector. The
  spatial embedding that the second call adds, and the two node embeddings the third call multiplies, are what the call
  before left in its result arrays. Put together with the first call's value, the spatial embedding is the two-layer
  perceptron of the launch memory's own arrays.
-/
import proofs.«179632_j35485019800147_2_alg».proof.Proof.FrameKernelIdeal.Run
import proofs.«179632_j35485019800147_2_alg».proof.Proof.Value.Val0
import Idealize.ShloMosaic.Lib.Pipeline.Value
import Idealize.ShloMosaic.Lib.ValueIdx
import Idealize.ShloMosaic.Lib.ValueLayout

noncomputable section

namespace Cert.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

section AnyFloat
variable {F : FTy → Type} [FloatOps F]

/-! ## The two host stretches: each is two reshapes of a bias vector into a one-row matrix -/

/-- The first stretch writes only the two one-row matrices it produces: every other buffer is as before. -/
theorem ops0_keep (W : Valuation τ sig (Elt F)) (b : Ref sig .tc) (h0 : b ≠ main_v0) (h1 : b ≠ main_v1) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- The second stretch likewise. -/
theorem ops1_keep (W : Valuation τ sig (Elt F)) (b : Ref sig .tc) (h0 : b ≠ main_v3) (h1 : b ≠ main_v4) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h0, StableHlo.devRef_ne_of_ne h1⟩))

/-- The first spatial bias as a one-row matrix: entry (0, b) is entry b of the vector. -/
theorem ops0_v0 (W : Valuation τ sig (Elt F)) (b : Fin 256) :
    (StableHlo.after hostOps0 W (Proc.devRef .tc main_v0) : S1x256.Idx → Elt F .f32) (ix2 (0 : Fin 1) b)
      = (W (Proc.devRef .tc main_arg4) : S256.Idx → Elt F .f32) (ix1 b) := by
  have e : (StableHlo.after hostOps0 W (Proc.devRef .tc main_v0) : S1x256.Idx → Elt F .f32)
      = shapeCast S1x256 (W (Proc.devRef .tc main_arg4) : S256.Idx → Elt F .f32) shapeCasts_S256_S1x256 := by
    after_results; rfl
  rw [e]; exact shapeCast_a_1a_apply _ _ 0 b

/-- The second spatial bias. -/
theorem ops0_v1 (W : Valuation τ sig (Elt F)) (b : Fin 128) :
    (StableHlo.after hostOps0 W (Proc.devRef .tc main_v1) : S1x128.Idx → Elt F .f32) (ix2 (0 : Fin 1) b)
      = (W (Proc.devRef .tc main_arg6) : S128.Idx → Elt F .f32) (ix1 b) := by
  have e : (StableHlo.after hostOps0 W (Proc.devRef .tc main_v1) : S1x128.Idx → Elt F .f32)
      = shapeCast S1x128 (W (Proc.devRef .tc main_arg6) : S128.Idx → Elt F .f32) shapeCasts_S128_S1x128 := by
    after_results; rfl
  rw [e]; exact shapeCast_a_1a_apply _ _ 0 b

/-- The first temporal bias. -/
theorem ops1_v3 (W : Valuation τ sig (Elt F)) (b : Fin 256) :
    (StableHlo.after hostOps1 W (Proc.devRef .tc main_v3) : S1x256.Idx → Elt F .f32) (ix2 (0 : Fin 1) b)
      = (W (Proc.devRef .tc main_arg8) : S256.Idx → Elt F .f32) (ix1 b) := by
  have e : (StableHlo.after hostOps1 W (Proc.devRef .tc main_v3) : S1x256.Idx → Elt F .f32)
      = shapeCast S1x256 (W (Proc.devRef .tc main_arg8) : S256.Idx → Elt F .f32) shapeCasts_S256_S1x256 := by
    after_results; rfl
  rw [e]; exact shapeCast_a_1a_apply _ _ 0 b

/-- The second temporal bias. -/
theorem ops1_v4 (W : Valuation τ sig (Elt F)) (b : Fin 128) :
    (StableHlo.after hostOps1 W (Proc.devRef .tc main_v4) : S1x128.Idx → Elt F .f32) (ix2 (0 : Fin 1) b)
      = (W (Proc.devRef .tc main_arg10) : S128.Idx → Elt F .f32) (ix1 b) := by
  have e : (StableHlo.after hostOps1 W (Proc.devRef .tc main_v4) : S1x128.Idx → Elt F .f32)
      = shapeCast S1x128 (W (Proc.devRef .tc main_arg10) : S128.Idx → Elt F .f32) shapeCasts_S128_S1x128 := by
    after_results; rfl
  rw [e]; exact shapeCast_a_1a_apply _ _ 0 b

/-! ## The operands of each call, walked back to the launch memory -/

variable (m : (ℓ : Loc nD τ sig) → Buf (Elt F) ℓ) (ρ : Dev nD → PrngReg)

/-- A buffer that neither host stretch writes and that is no array of the first call holds, when the second call is
    entered, what it held at launch. -/
theorem walk3_of_ne (c : Dev nD) (b : Ref sig .tc) (h3 : b ≠ main_v3) (h4 : b ≠ main_v4)
    (hb : ∀ w, Pipeline.arrRef spec0 w ≠ b) (h0 : b ≠ main_v0) (h1 : b ≠ main_v1) :
    Wb3 m ρ c (Proc.devRef .tc b) = Wb0 m ρ c (Proc.devRef .tc b) :=
  calc Wb3 m ρ c (Proc.devRef .tc b)
    _ = Wb2 m ρ c (Proc.devRef .tc b) := ops1_keep (Wb2 m ρ c) b h3 h4
    _ = Wb1 m ρ c (Proc.devRef .tc b) := Wb2_of_ne m ρ c b hb
    _ = Wb0 m ρ c (Proc.devRef .tc b) := ops0_keep (Wb0 m ρ c) b h0 h1

/-! ### The first call: the node matrix, the two weight matrices, the two bias rows -/

theorem walk1_arg0 (c : Dev nD) : Vb1 m ρ c main_arg0 = m ((c : Thread nD τ).loc main_arg0) :=
  (ops0_keep (Wb0 m ρ c) main_arg0 (by decide) (by decide)).trans rfl
theorem walk1_arg3 (c : Dev nD) : Vb1 m ρ c main_arg3 = m ((c : Thread nD τ).loc main_arg3) :=
  (ops0_keep (Wb0 m ρ c) main_arg3 (by decide) (by decide)).trans rfl
theorem walk1_arg5 (c : Dev nD) : Vb1 m ρ c main_arg5 = m ((c : Thread nD τ).loc main_arg5) :=
  (ops0_keep (Wb0 m ρ c) main_arg5 (by decide) (by decide)).trans rfl
theorem walk1_v0 (c : Dev nD) (b : Fin 256) :
    (Vb1 m ρ c main_v0 : S1x256.Idx → Elt F .f32) (ix2 (0 : Fin 1) b) = (m ((c : Thread nD τ).loc main_arg4) : S256.Idx → Elt F .f32) (ix1 b) :=
  (ops0_v0 (Wb0 m ρ c) b).trans rfl
theorem walk1_v1 (c : Dev nD) (b : Fin 128) :
    (Vb1 m ρ c main_v1 : S1x128.Idx → Elt F .f32) (ix2 (0 : Fin 1) b) = (m ((c : Thread nD τ).loc main_arg6) : S128.Idx → Elt F .f32) (ix1 b) :=
  (ops0_v1 (Wb0 m ρ c) b).trans rfl

/-! ### The second call: the two time matrices, the two weight matrices, the two bias rows, the first call's result -/

theorem walk3_arg1 (c : Dev nD) : Vb3 m ρ c main_arg1 = m ((c : Thread nD τ).loc main_arg1) :=
  (walk3_of_ne m ρ c main_arg1 (by decide) (by decide) (by decide) (by decide) (by decide)).trans rfl
theorem walk3_arg2 (c : Dev nD) : Vb3 m ρ c main_arg2 = m ((c : Thread nD τ).loc main_arg2) :=
  (walk3_of_ne m ρ c main_arg2 (by decide) (by decide) (by decide) (by decide) (by decide)).trans rfl
theorem walk3_arg7 (c : Dev nD) : Vb3 m ρ c main_arg7 = m ((c : Thread nD τ).loc main_arg7) :=
  (walk3_of_ne m ρ c main_arg7 (by decide) (by decide) (by decide) (by decide) (by decide)).trans rfl
theorem walk3_arg9 (c : Dev nD) : Vb3 m ρ c main_arg9 = m ((c : Thread nD τ).loc main_arg9) :=
  (walk3_of_ne m ρ c main_arg9 (by decide) (by decide) (by decide) (by decide) (by decide)).trans rfl

/-- The two bias vectors of the temporal layers are as launched when the second stretch reshapes them. -/
theorem walk2_arg8 (c : Dev nD) : Wb2 m ρ c (Proc.devRef .tc main_arg8) = m ((c : Thread nD τ).loc main_arg8) :=
  (Wb2_of_ne m ρ c main_arg8 (by decide)).trans ((ops0_keep (Wb0 m ρ c) main_arg8 (by decide) (by decide)).trans rfl)
theorem walk2_arg10 (c : Dev nD) : Wb2 m ρ c (Proc.devRef .tc main_arg10) = m ((c : Thread nD τ).loc main_arg10) :=
  (Wb2_of_ne m ρ c main_arg10 (by decide)).trans ((ops0_keep (Wb0 m ρ c) main_arg10 (by decide) (by decide)).trans rfl)

theorem walk3_v3 (c : Dev nD) (b : Fin 256) :
    (Vb3 m ρ c main_v3 : S1x256.Idx → Elt F .f32) (ix2 (0 : Fin 1) b) = (m ((c : Thread nD τ).loc main_arg8) : S256.Idx → Elt F .f32) (ix1 b) :=
  (ops1_v3 (Wb2 m ρ c) b).trans (congrArg (fun f : S256.Idx → Elt F .f32 => f (ix1 b)) (walk2_arg8 m ρ c))
theorem walk3_v4 (c : Dev nD) (b : Fin 128) :
    (Vb3 m ρ c main_v4 : S1x128.Idx → Elt F .f32) (ix2 (0 : Fin 1) b) = (m ((c : Thread nD τ).loc main_arg10) : S128.Idx → Elt F .f32) (ix1 b) :=
  (ops1_v4 (Wb2 m ρ c) b).trans (congrArg (fun f : S128.Idx → Elt F .f32 => f (ix1 b)) (walk2_arg10 m ρ c))

/-- The spatial embedding the second call adds is what the first call's write-backs left. -/
theorem walk3_v2 (c : Dev nD) : Vb3 m ρ c main_v2 = (dat0 (Vb1 m ρ) c).arrAt 5 cfg0.N :=
  (ops1_keep (Wb2 m ρ c) main_v2 (by decide) (by decide)).trans (Wb2_arr m ρ c 5)

/-! ### The third call: the bilinear weight and the two embeddings -/

theorem walk4_arg11 (c : Dev nD) : Vb4 m ρ c main_arg11 = m ((c : Thread nD τ).loc main_arg11) :=
  (Wb4_of_ne m ρ c main_arg11 (by decide)).trans
    ((walk3_of_ne m ρ c main_arg11 (by decide) (by decide) (by decide) (by decide) (by decide)).trans rfl)
theorem walk4_v5_0 (c : Dev nD) : Vb4 m ρ c main_v5_0 = (dat1 (Vb3 m ρ) c).arrAt 7 cfg1.N := Wb4_arr m ρ c 7
theorem walk4_v5_1 (c : Dev nD) : Vb4 m ρ c main_v5_1 = (dat1 (Vb3 m ρ) c).arrAt 8 cfg1.N := Wb4_arr m ρ c 8

end AnyFloat

/-! ## The spatial embedding from the launch memory, at the extended reals -/

section AtReals
variable (m : (ℓ : Loc nD τ sig) → Buf (Elt Ideal) ℓ) (ρ : Dev nD → PrngReg)

/-- When the second call is entered, the first call's result array holds the two-layer perceptron of the launch
    memory's node matrix, weights and bias vectors. -/
theorem sp_walk (c : Dev nD) : (Vb3 m ρ c main_v2 : S1024x128.Idx → EReal) = fun i =>
    Cert.Spec.sp (fun a b => (m ((c : Thread nD τ).loc main_arg0) : S1024x1024.Idx → EReal) (ix2 a b))
      (fun a b => (m ((c : Thread nD τ).loc main_arg3) : S1024x256.Idx → EReal) (ix2 a b))
      (fun b => (m ((c : Thread nD τ).loc main_arg4) : S256.Idx → EReal) (ix1 b))
      (fun a b => (m ((c : Thread nD τ).loc main_arg5) : S256x128.Idx → EReal) (ix2 a b))
      (fun b => (m ((c : Thread nD τ).loc main_arg6) : S128.Idx → EReal) (ix1 b)) (i 0) (i 1) := by
  refine (walk3_v2 m ρ c).trans ((final0 (Vb1 m ρ) c).trans ?_)
  unfold spArr
  have ev0 : (fun b : Fin 256 => (Vb1 m ρ c main_v0 : S1x256.Idx → EReal) (ix2 (0 : Fin 1) b))
      = fun b => (m ((c : Thread nD τ).loc main_arg4) : S256.Idx → EReal) (ix1 b) := funext fun b => walk1_v0 m ρ c b
  have ev1 : (fun b : Fin 128 => (Vb1 m ρ c main_v1 : S1x128.Idx → EReal) (ix2 (0 : Fin 1) b))
      = fun b => (m ((c : Thread nD τ).loc main_arg6) : S128.Idx → EReal) (ix1 b) := funext fun b => walk1_v1 m ρ c b
  rw [walk1_arg0 m ρ c, walk1_arg3 m ρ c, walk1_arg5 m ρ c, ev0, ev1]
  rfl

end AtReals

end Cert.Val

end
-- ==== Proof.Value.Pay1.lean ====
/-
  The values stored by the fused temporal call, read at an entry, over the extended reals.

  The accumulators are cleared by storing the zero matrix. Each step adds to an accumulator the product of the step's
  block of the feature matrix with the step's block of the first weight matrix: at row p and column q the sum over the
  block's 1024 columns. The last step lays the first bias along the rows, rectifies, multiplies by the second weight
  matrix, adds the second bias, rectifies again and adds the spatial embedding. The changes of number format are the
  identity on the extended reals, a product accumulated into the zero matrix is the plain sum of products, and the
  rectifier is the maximum with zero.
-/
import proofs.«179632_j35485019800147_2_alg».proof.Proof.Gen.KernelIdeal.Skeleton
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember

noncomputable section

namespace Cert.Val

open Cert.KernelIdeal Cert.KernelIdeal.Gen
open Idealize.ShloMosaic Idealize.ShloMosaic.TcCoe Idealize.SL.Sem Idealize.ShloMosaic.ValueIdx

/-- A product of an m×k by a k×n matrix accumulated into the zero matrix, read at an entry: the sum over the contracted
    coordinate of the products of the entries. -/
theorem matmul_into_zero_at {m k n : Nat} {φ₁ φ₂ : FTy} (D : DotDims ⟨2, ![m, k]⟩ ⟨2, ![k, n]⟩ ⟨2, ![m, n]⟩)
    (hD : D = DotDims.plain m k n) (prec : Option ContractPrecision)
    (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  subst hD
  exact (congrFun (matmul_zero_eq_dotGeneral _ prec A B) (ix2 a b)).trans (StackMember.dotGeneral_plain_apply prec A B a b)

/-- Both products of the call contract the left operand's columns with the right operand's rows. -/
theorem dotT1_plain : dot_S512x1024_S1024x256_S512x256_1_0_0_1_n_n = DotDims.plain 512 1024 256 := rfl
theorem dotT2_plain : dot_S512x256_S256x128_S512x128_1_0_0_1_n_n = DotDims.plain 512 256 128 := rfl

/-- The value that clears the first accumulator is zero at every entry. -/
theorem pay1_1_apply (p : Fin 512) (q : Fin 256) : k1_pay1 (F := Ideal) (ix2 p q) = 0 := by
  unfold k1_pay1
  rw [shapeCast_self]
  show Ideal.ofBits .f32 0x00000000#32 = 0
  exact Ideal.ofBits_zero_f32

/-- The value that clears the second accumulator is zero at every entry. -/
theorem pay1_2_apply (p : Fin 512) (q : Fin 256) : k1_pay2 (F := Ideal) (ix2 p q) = 0 := by
  unfold k1_pay2
  rw [shapeCast_self]
  show Ideal.ofBits .f32 0x00000000#32 = 0
  exact Ideal.ofBits_zero_f32

/-- One step of the first accumulator: what it held plus the block product. -/
theorem pay1_4_apply (v3 : Vec Ideal S1024x256 .f32) (v5 : Vec Ideal S512x1024 .f32) (v9 : Vec Ideal S512x256 .f32)
    (p : Fin 512) (q : Fin 256) :
    k1_pay4 (F := Ideal) v3 v5 v9 (ix2 p q) = v9 (ix2 p q) + ∑ l : Fin 1024, v5 (ix2 p l) * v3 (ix2 l q) := by
  unfold k1_pay4 k1_pay3
  rw [shapeCast_self]
  show (v9 (ix2 p q) : EReal) + matmul (F := Ideal) _ none _ _ _ (ix2 p q) = _
  rw [matmul_into_zero_at _ dotT1_plain]
  rfl

/-- One step of the second accumulator. -/
theorem pay1_5_apply (v3 : Vec Ideal S1024x256 .f32) (v7 : Vec Ideal S512x1024 .f32) (v15 : Vec Ideal S512x256 .f32)
    (p : Fin 512) (q : Fin 256) :
    k1_pay5 (F := Ideal) v3 v7 v15 (ix2 p q) = v15 (ix2 p q) + ∑ l : Fin 1024, v7 (ix2 p l) * v3 (ix2 l q) := by
  unfold k1_pay5 k1_pay3
  rw [shapeCast_self]
  show (v15 (ix2 p q) : EReal) + matmul (F := Ideal) _ none _ _ _ (ix2 p q) = _
  rw [matmul_into_zero_at _ dotT1_plain]
  rfl

/-- The rectified hidden layer at an entry: the accumulated contraction plus the bias, cut below at zero. -/
theorem hidT_apply (v26 : Vec Ideal S512x256 .f32) (v27 : Vec Ideal S1x256 .f32) (p : Fin 512) (k : Fin 256) :
    (maximumf (addf (v26 : FVec Ideal S512x256 .f32)
        (broadcastTo S512x256 (shapeCast S1x256 v27 shapeCasts_S1x256_S1x256) broadcasts_S1x256_S512x256))
      (broadcast S512x256 (Scalar.ofBits (F := Ideal) .f32 0x00000000#32)) : FVec Ideal S512x256 .f32) (ix2 p k)
      = max (v26 (ix2 p k) + v27 (ix2 (0 : Fin 1) k)) 0 := by
  show max (v26 (ix2 p k) + broadcastTo S512x256 _ _ (ix2 p k)) (Ideal.ofBits .f32 0x00000000#32) = _
  rw [shapeCast_self, broadcastTo_1b_ab_apply, Ideal.ofBits_zero_f32]

/-- The first output of the last step at an entry. -/
theorem pay1_8_apply (v24 : Vec Ideal S256x128 .f32) (v26 : Vec Ideal S512x256 .f32) (v27 : Vec Ideal S1x256 .f32)
    (v35 : Vec Ideal S1x128 .f32) (v41 : Vec Ideal S512x128 .f32) (p : Fin 512) (j : Fin 128) :
    k1_pay8 (F := Ideal) v24 v26 v27 v35 v41 (ix2 p j)
      = max ((∑ k : Fin 256, max (v26 (ix2 p k) + v27 (ix2 (0 : Fin 1) k)) 0 * v24 (ix2 k j)) + v35 (ix2 (0 : Fin 1) j)) 0
          + v41 (ix2 p j) := by
  unfold k1_pay8 k1_pay7
  rw [shapeCast_self v41]
  show max (matmul _ none _ _ _ (ix2 p j) + broadcastTo S512x128 _ _ (ix2 p j)) (Ideal.ofBits .f32 0x00000000#32) + v41 (ix2 p j) = _
  rw [matmul_into_zero_at _ dotT2_plain, broadcastTo_1b_ab_apply, shapeCast_self v35, Ideal.ofBits_zero_f32]
  refine congrArg (fun s => max (s + v35 (ix2 (0 : Fin 1) j)) 0 + v41 (ix2 p j)) (Finset.sum_congr rfl fun k _ => ?_)
  exact congrArg (· * v24 (ix2 k j)) (hidT_apply v26 v27 p k)

/-- The second output of the last step at an entry. -/
theorem pay1_6_apply (v24 : Vec Ideal S256x128 .f32) (v45 : Vec Ideal S512x256 .f32) (v46 : Vec Ideal S1x256 .f32)
    (v54 : Vec Ideal S1x128 .f32) (v60 : Vec Ideal S512x128 .f32) (p : Fin 512) (j : Fin 128) :
    k1_pay6 (F := Ideal) (k1_pay9 v24 v45 v46 v54) k1_pay10 v60 (ix2 p j)
      = max ((∑ k : Fin 256, max (v45 (ix2 p k) + v46 (ix2 (0 : Fin 1) k)) 0 * v24 (ix2 k j)) + v54 (ix2 (0 : Fin 1) j)) 0
          + v60 (ix2 p j) := by
  unfold k1_pay6 k1_pay9 k1_pay10 k1_pay7
  rw [shapeCast_self v60]
  show max (matmul _ none _ _ _ (ix2 p j) + broadcastTo S512x128 _ _ (ix2 p j)) (Ideal.ofBits .f32 0x00000000#32) + v60 (ix2 p j) = _
  rw [matmul_into_zero_at _ dotT2_plain, broadcastTo_1b_ab_apply, shapeCast_self v54, Ideal.ofBits_zero_f32]
  refine congrArg (fun s => max (s + v54 (ix2 (0 : Fin 1) j)) 0 + v60 (ix2 p j)) (Finset.sum_congr rfl fun k _ => ?_)
  exact congrArg (· * v24 (ix2 k j)) (hidT_apply v45 v46 p k)

end Cert.Val

end
-- ==== Proof.Value.LibBlockSum.lean ====
/-
  A sum taken block by block.

  Let `N = n * m` and cut the range `0 … N − 1` into `n` consecutive blocks of `m` indices, block `k` holding the
  indices `m * k + l` for `l < m`.  An accumulator that starts at zero and, at step `k`, takes in the sum of block `k`
  holds, after the `n`-th step, the sum over the whole range.  Nothing is asked of the summands beyond a commutative
  additive monoid: on the extended reals no finiteness is involved, since only the order and the grouping of the
  additions change.  The literal instance at the end is the case of 60 blocks of 1024 indices (61440 in all).
-/
import Mathlib.Algebra.BigOperators.Fin
import Mathlib.Algebra.BigOperators.Intervals
import Mathlib.Tactic.Ring

namespace Cert.BlockSum

open Finset

/-- Index `l` of block `k` lies inside the whole range. -/
theorem block_index_lt {N n m k l : ℕ} (hN : n * m = N) (hk : k < n) (hl : l < m) : m * k + l < N :=
  calc m * k + l < m * k + m := by omega
    _ = m * (k + 1) := by ring
    _ ≤ m * n := Nat.mul_le_mul_left _ hk
    _ = N := by rw [Nat.mul_comm, hN]

/-- Accumulating the `n` block sums in order, from zero, gives the sum over all `n * m` indices. -/
theorem blocked_sum_general {M : Type*} [AddCommMonoid M] {N : ℕ} (n m : ℕ) (hN : n * m = N) (f : Fin N → M)
    (acc : ℕ → M) (h0 : acc 0 = 0)
    (hs : ∀ k (hk : k < n), acc (k + 1) = acc k + ∑ l : Fin m, f ⟨m * k + l.val, block_index_lt hN hk l.isLt⟩) :
    acc n = ∑ i : Fin N, f i := by
  -- the summand extended by zero beyond the range, so that every partial sum is a sum over an initial segment of ℕ
  let g : ℕ → M := fun i => if h : i < N then f ⟨i, h⟩ else 0
  have hg : ∀ (i : ℕ) (h : i < N), g i = f ⟨i, h⟩ := fun i h => dif_pos h
  -- after `k` steps the accumulator holds the sum over the first `m * k` indices
  have key : ∀ k, k ≤ n → acc k = ∑ i ∈ range (m * k), g i := by
    intro k
    induction k with
    | zero => intro _; rw [h0, Nat.mul_zero, Finset.range_zero, Finset.sum_empty]
    | succ k ih =>
      intro hk
      have hk' : k < n := hk
      rw [hs k hk', ih (Nat.le_of_lt hk'), Nat.mul_succ, Finset.sum_range_add]
      refine congrArg (_ + ·) ?_
      rw [← Fin.sum_univ_eq_sum_range (fun x => g (m * k + x)) m]
      exact Finset.sum_congr rfl fun l _ => (hg _ (block_index_lt hN hk' l.isLt)).symm
  rw [key n le_rfl, Nat.mul_comm, hN, ← Fin.sum_univ_eq_sum_range g N]
  exact Finset.sum_congr rfl fun i _ => hg i.val i.isLt

/-- Sixty blocks of 1024: the accumulation over the sixty blocks ends at the sum over all 61440 indices. -/
theorem blocked_sum {M : Type*} [AddCommMonoid M] (f : Fin 61440 → M) (acc : ℕ → M) (h0 : acc 0 = 0)
    (hs : ∀ (k : ℕ) (hk : k < 60), acc (k + 1) = acc k + ∑ l : Fin 1024, f ⟨1024 * k + l.val, by omega⟩) :
    acc 60 = ∑ i : Fin 61440, f i :=
  blocked_sum_general 60 1024 rfl f acc h0 fun k hk => hs k hk

end Cert.BlockSum
-- ==== Proof.Value.Blocks1.lean ====
/-
  The fused temporal call at the extended reals, first half: what each control case of its body leaves in the two
  accumulators and the two outputs, as the stored values over the point's blocks; a sum taken sixty blocks at a time;
  and the nine windows' blocks read off the call's arrays.

  Point t = 60 m + k of the 2 × 60 grid works on rows 512 m .. 512 m + 511 and on the k-th block of 1024 of the 61440
  temporal features: the feature matrices' blocks are rows 512 m .. and columns 1024 k .., the first weight matrix's
  block is rows 1024 k .., the biases and the second weight matrix are whole, and the spatial embedding's block and the
  results' blocks are rows 512 m ...
-/
import proofs.«179632_j35485019800147_2_alg».proof.Proof.FrameKernelIdeal.Reg1
import proofs.«179632_j35485019800147_2_alg».proof.Proof.Value.Pay1
import proofs.«179632_j35485019800147_2_alg».proof.Proof.Value.Spec
import proofs.«179632_j35485019800147_2_alg».proof.Proof.Value.LibBlockSum
import Idealize.ShloMosaic.Lib.Pipeline.Value
import Idealize.ShloMosaic.Lib.ValueIdx
import Idealize.ShloMosaic.Lib.ValueLayout
import Idealize.ShloMosaic.Lib.Tactic

noncomputable section

namespace Cert.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

/-- The offsets of a whole-buffer rectangle are zero. -/
theorem hz1 : (![0, 0] : Fin 2 → Nat) = fun _ => 0 := funext fun a => by fin_cases a <;> rfl

/-! ## What each control case leaves, as the stored values over the blocks -/

section Pieces
variable {F : FTy → Type} [FloatOps F]

set_option maxHeartbeats 1000000 in
/-- At the first step the first accumulator is cleared and takes in the first block's product. -/
theorem soutA0_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : cond1_0 i) (hc1 : ¬cond1_1 i) (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) :
    sout1_A_0 c i arg2 harg2 arg3 harg3 arg4 harg4 arg5 harg5 arg6 harg6 arg7 harg7 arg8 harg8 arg9 harg9 arg10 harg10 arg11 harg11 arg12 harg12 hc0 hc1 x0 x1 x2 x3 x4 x5 x6 = k1_pay4 x2 x0 (k1_pay1 (F := F)) := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun1_A
  dsimp only
  try sl_unfold_words
  rw [View.canon_cons_unit_zero hz1]
  simp only [View.readCov_unit_zero (S := S512x256) arg11.view hz1, View.readCov_unit_zero (S := S512x256) arg12.view hz1, View.readAt_eq_ld, harg2.read_unread, harg3.read_unread, harg4.read_unread, harg5.read_unread, harg6.read_unread, harg7.read_unread, harg8.read_unread, harg11.read_unread, harg12.read_unread, View.ld_unit_zero (S := S512x1024) hz1, View.ld_unit_zero (S := S1024x256) hz1, View.ld_unit_zero (S := S1x256) hz1, View.ld_unit_zero (S := S256x128) hz1, View.ld_unit_zero (S := S1x128) hz1, View.ld_unit_zero (S := S512x128) hz1, View.ld_unit_zero (S := S512x256) hz1]

set_option maxHeartbeats 1000000 in
/-- At the first step the second accumulator is cleared and takes in the first block's product. -/
theorem soutA1_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : cond1_0 i) (hc1 : ¬cond1_1 i) (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) :
    sout1_A_1 c i arg2 harg2 arg3 harg3 arg4 harg4 arg5 harg5 arg6 harg6 arg7 harg7 arg8 harg8 arg9 harg9 arg10 harg10 arg11 harg11 arg12 harg12 hc0 hc1 x0 x1 x2 x3 x4 x5 x6 = k1_pay5 x2 x1 (k1_pay2 (F := F)) := by
  unfold sout1_A_1
  rw [View.read_writes_eq_canon _ _ _ (scover1_A_1 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun1_A
  dsimp only
  try sl_unfold_words
  rw [View.canon_cons_unit_zero hz1]
  simp only [View.readCov_unit_zero (S := S512x256) arg11.view hz1, View.readCov_unit_zero (S := S512x256) arg12.view hz1, View.readAt_eq_ld, harg2.read_unread, harg3.read_unread, harg4.read_unread, harg5.read_unread, harg6.read_unread, harg7.read_unread, harg8.read_unread, harg11.read_unread, harg12.read_unread, View.ld_unit_zero (S := S512x1024) hz1, View.ld_unit_zero (S := S1024x256) hz1, View.ld_unit_zero (S := S1x256) hz1, View.ld_unit_zero (S := S256x128) hz1, View.ld_unit_zero (S := S1x128) hz1, View.ld_unit_zero (S := S512x128) hz1, View.ld_unit_zero (S := S512x256) hz1]

set_option maxHeartbeats 1000000 in
/-- At a middle step the first accumulator takes in the step's block product. -/
theorem soutB0_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : ¬cond1_1 i) (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) :
    sout1_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k1_pay4 x2 x0 xs0 := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun1_B
  dsimp only
  try sl_unfold_words
  rw [View.canon_cons_unit_zero hz1]
  simp only [View.readCov_unit_zero (S := S512x256) arg11.view hz1, View.readCov_unit_zero (S := S512x256) arg12.view hz1, View.readAt_eq_ld, harg2.read_unread, harg3.read_unread, harg4.read_unread, harg5.read_unread, harg6.read_unread, harg7.read_unread, harg8.read_unread, harg11.read_unread, harg12.read_unread, View.ld_unit_zero (S := S512x1024) hz1, View.ld_unit_zero (S := S1024x256) hz1, View.ld_unit_zero (S := S1x256) hz1, View.ld_unit_zero (S := S256x128) hz1, View.ld_unit_zero (S := S1x128) hz1, View.ld_unit_zero (S := S512x128) hz1, View.ld_unit_zero (S := S512x256) hz1]

set_option maxHeartbeats 1000000 in
/-- At a middle step the second accumulator takes in the step's block product. -/
theorem soutB1_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : ¬cond1_1 i) (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) :
    sout1_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k1_pay5 x2 x1 xs1 := by
  unfold sout1_B_1
  rw [View.read_writes_eq_canon _ _ _ (scover1_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun1_B
  dsimp only
  try sl_unfold_words
  rw [View.canon_cons_unit_zero hz1]
  simp only [View.readCov_unit_zero (S := S512x256) arg11.view hz1, View.readCov_unit_zero (S := S512x256) arg12.view hz1, View.readAt_eq_ld, harg2.read_unread, harg3.read_unread, harg4.read_unread, harg5.read_unread, harg6.read_unread, harg7.read_unread, harg8.read_unread, harg11.read_unread, harg12.read_unread, View.ld_unit_zero (S := S512x1024) hz1, View.ld_unit_zero (S := S1024x256) hz1, View.ld_unit_zero (S := S1x256) hz1, View.ld_unit_zero (S := S256x128) hz1, View.ld_unit_zero (S := S1x128) hz1, View.ld_unit_zero (S := S512x128) hz1, View.ld_unit_zero (S := S512x256) hz1]

set_option maxHeartbeats 1000000 in
/-- At the last step the first accumulator takes in the last block's product. -/
theorem soutC0_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : cond1_1 i) (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) :
    sout1_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k1_pay4 x2 x0 xs0 := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun1_C
  dsimp only
  try sl_unfold_words
  rw [View.canon_cons_unit_zero hz1]
  simp only [View.readCov_unit_zero (S := S512x256) arg11.view hz1, View.readCov_unit_zero (S := S512x256) arg12.view hz1, View.readAt_eq_ld, harg2.read_unread, harg3.read_unread, harg4.read_unread, harg5.read_unread, harg6.read_unread, harg7.read_unread, harg8.read_unread, harg11.read_unread, harg12.read_unread, View.ld_unit_zero (S := S512x1024) hz1, View.ld_unit_zero (S := S1024x256) hz1, View.ld_unit_zero (S := S1x256) hz1, View.ld_unit_zero (S := S256x128) hz1, View.ld_unit_zero (S := S1x128) hz1, View.ld_unit_zero (S := S512x128) hz1, View.ld_unit_zero (S := S512x256) hz1]

set_option maxHeartbeats 1000000 in
/-- At the last step the second accumulator takes in the last block's product. -/
theorem soutC1_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : cond1_1 i) (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) :
    sout1_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k1_pay5 x2 x1 xs1 := by
  unfold sout1_C_1
  rw [View.read_writes_eq_canon _ _ _ (scover1_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun1_C
  dsimp only
  try sl_unfold_words
  rw [View.canon_cons_unit_zero hz1]
  simp only [View.readCov_unit_zero (S := S512x256) arg11.view hz1, View.readCov_unit_zero (S := S512x256) arg12.view hz1, View.readAt_eq_ld, harg2.read_unread, harg3.read_unread, harg4.read_unread, harg5.read_unread, harg6.read_unread, harg7.read_unread, harg8.read_unread, harg11.read_unread, harg12.read_unread, View.ld_unit_zero (S := S512x1024) hz1, View.ld_unit_zero (S := S1024x256) hz1, View.ld_unit_zero (S := S1x256) hz1, View.ld_unit_zero (S := S256x128) hz1, View.ld_unit_zero (S := S1x128) hz1, View.ld_unit_zero (S := S512x128) hz1, View.ld_unit_zero (S := S512x256) hz1]

set_option maxHeartbeats 1000000 in
/-- At the last step the first output is finished from the first accumulator as that step leaves it. -/
theorem outC7_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : cond1_1 i) (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) :
    out1_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k1_pay8 x4 (k1_pay4 x2 x0 xs0) x3 x5 x6 := by
  unfold out1_C_7
  rw [View.read_writes_eq_canon _ _ _ (cover1_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun1_C
  dsimp only
  try sl_unfold_words
  rw [View.canon_cons_unit_zero hz1]
  simp only [View.readCov_unit_zero (S := S512x256) arg11.view hz1, View.readCov_unit_zero (S := S512x256) arg12.view hz1, View.readAt_eq_ld, harg2.read_unread, harg3.read_unread, harg4.read_unread, harg5.read_unread, harg6.read_unread, harg7.read_unread, harg8.read_unread, harg11.read_unread, harg12.read_unread, View.ld_unit_zero (S := S512x1024) hz1, View.ld_unit_zero (S := S1024x256) hz1, View.ld_unit_zero (S := S1x256) hz1, View.ld_unit_zero (S := S256x128) hz1, View.ld_unit_zero (S := S1x128) hz1, View.ld_unit_zero (S := S512x128) hz1, View.ld_unit_zero (S := S512x256) hz1]

set_option maxHeartbeats 1000000 in
/-- At the last step the second output is finished from the second accumulator as that step leaves it. -/
theorem outC8_eq (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S1024x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x256 .f32) (harg12 : arg12.IsWhole) (hc0 : ¬cond1_0 i) (hc1 : cond1_1 i) (x0 : Vec F S512x1024 .f32) (x1 : Vec F S512x1024 .f32) (x2 : Vec F S1024x256 .f32) (x3 : Vec F S1x256 .f32) (x4 : Vec F S256x128 .f32) (x5 : Vec F S1x128 .f32) (x6 : Vec F S512x128 .f32) (xs0 : Vec F S512x256 .f32) (xs1 : Vec F S512x256 .f32) :
    out1_C_8 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 = k1_pay6 (k1_pay9 x4 (k1_pay5 x2 x1 xs1) x3 x5) (k1_pay10 (F := F)) x6 := by
  unfold out1_C_8
  rw [View.read_writes_eq_canon _ _ _ (cover1_C_8 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1)]
  unfold kernelRun1_C
  dsimp only
  try sl_unfold_words
  rw [View.canon_cons_unit_zero hz1]
  simp only [View.readCov_unit_zero (S := S512x256) arg11.view hz1, View.readCov_unit_zero (S := S512x256) arg12.view hz1, View.readAt_eq_ld, harg2.read_unread, harg3.read_unread, harg4.read_unread, harg5.read_unread, harg6.read_unread, harg7.read_unread, harg8.read_unread, harg11.read_unread, harg12.read_unread, View.ld_unit_zero (S := S512x1024) hz1, View.ld_unit_zero (S := S1024x256) hz1, View.ld_unit_zero (S := S1x256) hz1, View.ld_unit_zero (S := S256x128) hz1, View.ld_unit_zero (S := S1x128) hz1, View.ld_unit_zero (S := S512x128) hz1, View.ld_unit_zero (S := S512x256) hz1]

end Pieces

/-! ## A sum taken sixty blocks at a time -/

/-- The sum of block k of a family over the 61440 features (zero beyond the sixty blocks). -/
def blk (f : Fin 61440 → EReal) (k : ℕ) : EReal :=
  if h : k < 60 then ∑ l : Fin 1024, f ⟨1024 * k + l.val, by have := l.isLt; omega⟩ else 0

/-- The sum of the first n blocks. -/
def partSum (f : Fin 61440 → EReal) (n : ℕ) : EReal := ∑ k ∈ Finset.range n, blk f k

theorem partSum_zero (f : Fin 61440 → EReal) : partSum f 0 = 0 := Finset.sum_range_zero _

theorem partSum_succ (f : Fin 61440 → EReal) (n : ℕ) : partSum f (n + 1) = partSum f n + blk f n :=
  Finset.sum_range_succ _ _

/-- All sixty blocks make the whole sum. -/
theorem partSum_full (f : Fin 61440 → EReal) : partSum f 60 = ∑ s : Fin 61440, f s :=
  Cert.BlockSum.blocked_sum f (partSum f) (partSum_zero f) fun k hk => by
    rw [partSum_succ]; unfold blk; rw [dif_pos hk]

/-- An accumulator that is cleared and takes in block 0 at the points divisible by sixty, and takes in the block of the
    point's remainder at every other point, holds after point n the first (n mod 60) + 1 blocks of the rows of n's row
    block. -/
theorem acc_rows {N : ℕ} (A : (n : ℕ) → n < N → Fin 512 → EReal) (g : Fin 1024 → Fin 61440 → EReal)
    (hfirst : ∀ (n : ℕ) (hn : n < N), n % 60 = 0 → ∀ (p : Fin 512) (r : Fin 1024), r.val = 512 * (n / 60) + p.val →
      A n hn p = 0 + blk (g r) (n % 60))
    (hnext : ∀ (n : ℕ) (hn : n + 1 < N), ¬(n + 1) % 60 = 0 → ∀ (p : Fin 512) (r : Fin 1024), r.val = 512 * ((n + 1) / 60) + p.val →
      A (n + 1) hn p = A n (Nat.lt_of_succ_lt hn) p + blk (g r) ((n + 1) % 60)) :
    ∀ (n : ℕ) (hn : n < N) (p : Fin 512) (r : Fin 1024), r.val = 512 * (n / 60) + p.val →
      A n hn p = partSum (g r) (n % 60 + 1) := by
  intro n
  induction n with
  | zero =>
    intro hn p r hr
    rw [hfirst 0 hn (Nat.zero_mod _) p r hr, Nat.zero_mod, partSum_succ, partSum_zero]
  | succ n ih =>
    intro hn p r hr
    by_cases h0 : (n + 1) % 60 = 0
    · rw [hfirst (n + 1) hn h0 p r hr, h0, partSum_succ, partSum_zero]
    · have hr' : r.val = 512 * (n / 60) + p.val := by omega
      have hk : n % 60 + 1 = (n + 1) % 60 := by omega
      rw [hnext n hn h0 p r hr, ih (Nat.lt_of_succ_lt hn) p r hr', hk, partSum_succ]

section Arrays
variable (V : (c : Dev nD) → (b : Ref sig .tc) → Buf (Elt Ideal) ((c : Thread nD τ).loc b))

/-! ## The blocks read off the arrays -/

/-- The block indices of the nine windows, decided over the 120 grid points: the feature matrices move by row block
    with the quotient and by column block with the remainder; the first weight matrix moves by row block with the
    remainder; the biases and the second weight matrix stay; the spatial embedding and the two results move by row block
    with the quotient. -/
theorem idx_facts1 : ∀ t : Fin cfg1.N, win1_0.index t (0 : Fin 2) = t.val / 60 ∧ win1_0.index t (1 : Fin 2) = t.val % 60
    ∧ win1_1.index t (0 : Fin 2) = t.val / 60 ∧ win1_1.index t (1 : Fin 2) = t.val % 60
    ∧ win1_2.index t (0 : Fin 2) = t.val % 60 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val / 60 ∧ win1_6.index t (1 : Fin 2) = 0
    ∧ win1_7.index t (0 : Fin 2) = t.val / 60 ∧ win1_7.index t (1 : Fin 2) = 0
    ∧ win1_8.index t (0 : Fin 2) = t.val / 60 ∧ win1_8.index t (1 : Fin 2) = 0 :=
  (by decide +kernel : ∀ t : Fin grid1.N, _)

/-- The first feature matrix's block at point t: rows 512 (t / 60) .., columns 1024 (t mod 60) ... -/
theorem iblk1_0_apply (c : Dev nD) (t : Fin cfg1.N) (p : Fin 512) (l : Fin 1024) (r : Fin 1024) (s : Fin 61440)
    (hr : r.val = 512 * (t.val / 60) + p.val) (hs : s.val = 1024 * (t.val % 60) + l.val) :
    (iblk1 V c 0 t : Vec Ideal S512x1024 .f32) (ix2 p l) = (V c main_arg1 : S1024x61440.Idx → EReal) (ix2 r s) := by
  obtain ⟨e0, e1, -⟩ := idx_facts1 t
  unfold iblk1
  rw [View.read_apply]
  show V c main_arg1 _ = V c main_arg1 _
  congr 1
  funext a; apply Fin.ext
  match a with
  | ⟨0, _⟩ => show win1_0.index t (0 : Fin 2) * 512 + 1 * p.val = r.val; rw [e0, hr]; omega
  | ⟨1, _⟩ => show win1_0.index t (1 : Fin 2) * 1024 + 1 * l.val = s.val; rw [e1, hs]; omega

/-- The second feature matrix's block, likewise. -/
theorem iblk1_1_apply (c : Dev nD) (t : Fin cfg1.N) (p : Fin 512) (l : Fin 1024) (r : Fin 1024) (s : Fin 61440)
    (hr : r.val = 512 * (t.val / 60) + p.val) (hs : s.val = 1024 * (t.val % 60) + l.val) :
    (iblk1 V c 1 t : Vec Ideal S512x1024 .f32) (ix2 p l) = (V c main_arg2 : S1024x61440.Idx → EReal) (ix2 r s) := by
  obtain ⟨-, -, e0, e1, -⟩ := idx_facts1 t
  unfold iblk1
  rw [View.read_apply]
  show V c main_arg2 _ = V c main_arg2 _
  congr 1
  funext a; apply Fin.ext
  match a with
  | ⟨0, _⟩ => show win1_1.index t (0 : Fin 2) * 512 + 1 * p.val = r.val; rw [e0, hr]; omega
  | ⟨1, _⟩ => show win1_1.index t (1 : Fin 2) * 1024 + 1 * l.val = s.val; rw [e1, hs]; omega

/-- The first weight matrix's block at point t: rows 1024 (t mod 60) .., all columns. -/
theorem iblk1_2_apply (c : Dev nD) (t : Fin cfg1.N) (l : Fin 1024) (q : Fin 256) (s : Fin 61440)
    (hs : s.val = 1024 * (t.val % 60) + l.val) :
    (iblk1 V c 2 t : Vec Ideal S1024x256 .f32) (ix2 l q) = (V c main_arg7 : S61440x256.Idx → EReal) (ix2 s q) := by
  obtain ⟨-, -, -, -, e0, e1, -⟩ := idx_facts1 t
  unfold iblk1
  rw [View.read_apply]
  show V c main_arg7 _ = V c main_arg7 _
  congr 1
  funext a; apply Fin.ext
  match a with
  | ⟨0, _⟩ => show win1_2.index t (0 : Fin 2) * 1024 + 1 * l.val = s.val; rw [e0, hs]; omega
  | ⟨1, _⟩ => show win1_2.index t (1 : Fin 2) * 256 + 1 * q.val = q.val; rw [e1]; omega

/-- The first bias row's block is the whole row. -/
theorem iblk1_3_eq (c : Dev nD) (t : Fin cfg1.N) : (iblk1 V c 3 t : Vec Ideal S1x256 .f32) = (V c main_v3 : S1x256.Idx → EReal) := by
  obtain ⟨-, -, -, -, -, -, e0, e1, -⟩ := idx_facts1 t
  funext j
  unfold iblk1
  rw [View.read_apply]
  show V c main_v3 _ = V c main_v3 _
  congr 1
  funext a; apply Fin.ext
  match a with
  | ⟨0, _⟩ => show win1_3.index t (0 : Fin 2) * 1 + 1 * (j 0).val = (j 0).val; rw [e0]; omega
  | ⟨1, _⟩ => show win1_3.index t (1 : Fin 2) * 256 + 1 * (j 1).val = (j 1).val; rw [e1]; omega

/-- The second weight matrix's block is the whole matrix. -/
theorem iblk1_4_eq (c : Dev nD) (t : Fin cfg1.N) : (iblk1 V c 4 t : Vec Ideal S256x128 .f32) = (V c main_arg9 : S256x128.Idx → EReal) := by
  obtain ⟨-, -, -, -, -, -, -, -, e0, e1, -⟩ := idx_facts1 t
  funext j
  unfold iblk1
  rw [View.read_apply]
  show V c main_arg9 _ = V c main_arg9 _
  congr 1
  funext a; apply Fin.ext
  match a with
  | ⟨0, _⟩ => show win1_4.index t (0 : Fin 2) * 256 + 1 * (j 0).val = (j 0).val; rw [e0]; omega
  | ⟨1, _⟩ => show win1_4.index t (1 : Fin 2) * 128 + 1 * (j 1).val = (j 1).val; rw [e1]; omega

/-- The second bias row's block is the whole row. -/
theorem iblk1_5_eq (c : Dev nD) (t : Fin cfg1.N) : (iblk1 V c 5 t : Vec Ideal S1x128 .f32) = (V c main_v4 : S1x128.Idx → EReal) := by
  obtain ⟨-, -, -, -, -, -, -, -, -, -, e0, e1, -⟩ := idx_facts1 t
  funext j
  unfold iblk1
  rw [View.read_apply]
  show V c main_v4 _ = V c main_v4 _
  congr 1
  funext a; apply Fin.ext
  match a with
  | ⟨0, _⟩ => show win1_5.index t (0 : Fin 2) * 1 + 1 * (j 0).val = (j 0).val; rw [e0]; omega
  | ⟨1, _⟩ => show win1_5.index t (1 : Fin 2) * 128 + 1 * (j 1).val = (j 1).val; rw [e1]; omega

/-- The spatial embedding's block at point t: rows 512 (t / 60) ... -/
theorem iblk1_6_apply (c : Dev nD) (t : Fin cfg1.N) (p : Fin 512) (j : Fin 128) (r : Fin 1024)
    (hr : r.val = 512 * (t.val / 60) + p.val) :
    (iblk1 V c 6 t : Vec Ideal S512x128 .f32) (ix2 p j) = (V c main_v2 : S1024x128.Idx → EReal) (ix2 r j) := by
  obtain ⟨-, -, -, -, -, -, -, -, -, -, -, -, e0, e1, -⟩ := idx_facts1 t
  unfold iblk1
  rw [View.read_apply]
  show V c main_v2 _ = V c main_v2 _
  congr 1
  funext a; apply Fin.ext
  match a with
  | ⟨0, _⟩ => show win1_6.index t (0 : Fin 2) * 512 + 1 * p.val = r.val; rw [e0, hr]; omega
  | ⟨1, _⟩ => show win1_6.index t (1 : Fin 2) * 128 + 1 * j.val = j.val; rw [e1]; omega

/-! ## The call's arrays as plain coordinate functions -/

/-- The two feature matrices, the two weight matrices, the two bias rows and the spatial embedding, as the call finds them. -/
abbrev feat1 (c : Dev nD) : Fin 1024 → Fin 61440 → EReal := fun a b => (V c main_arg1 : S1024x61440.Idx → EReal) (ix2 a b)
abbrev feat2 (c : Dev nD) : Fin 1024 → Fin 61440 → EReal := fun a b => (V c main_arg2 : S1024x61440.Idx → EReal) (ix2 a b)
abbrev wgt1 (c : Dev nD) : Fin 61440 → Fin 256 → EReal := fun a b => (V c main_arg7 : S61440x256.Idx → EReal) (ix2 a b)
abbrev bias1 (c : Dev nD) : Fin 256 → EReal := fun b => (V c main_v3 : S1x256.Idx → EReal) (ix2 (0 : Fin 1) b)
abbrev wgt2 (c : Dev nD) : Fin 256 → Fin 128 → EReal := fun a b => (V c main_arg9 : S256x128.Idx → EReal) (ix2 a b)
abbrev bias2 (c : Dev nD) : Fin 128 → EReal := fun b => (V c main_v4 : S1x128.Idx → EReal) (ix2 (0 : Fin 1) b)
abbrev spat (c : Dev nD) : Fin 1024 → Fin 128 → EReal := fun a b => (V c main_v2 : S1024x128.Idx → EReal) (ix2 a b)

end Arrays

end Cert.Val

end
-- ==== Proof.Value.Val1.lean ====
/-
  The value of the fused temporal call at the extended reals.

  The call walks a grid of 2 × 60 points; point t = 60 m + k works on rows 512 m .. 512 m + 511 and on the k-th block
  of 1024 of the 61440 temporal features.  Two accumulators are carried from point to point: they are cleared at k = 0,
  and every point adds to each the product of its block of a feature matrix with its block of the first weight matrix.
  So after the point with remainder k an accumulator holds, at row p and column q, the sum over the first k + 1 blocks
  of the products feature(512 m + p, s) · weight(s, q); after k = 59 that is the sum over all 61440 features, because a
  sum taken block by block is the whole sum (only the order and the grouping of the additions change, so nothing is
  asked of the summands).  The point with k = 59 finishes both embeddings from the accumulators — bias, rectifier,
  second layer, bias, rectifier, plus the spatial embedding — and these are the only points that write back: what such
  a point writes back is rows 512 m .. 512 m + 511 of the embedding.
-/
import proofs.«179632_j35485019800147_2_alg».proof.Proof.Value.Blocks1

noncomputable section

namespace Cert.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

section Arrays
variable (V : (c : Dev nD) → (b : Ref sig .tc) → Buf (Elt Ideal) ((c : Thread nD τ).loc b))

/-- The product of a block of a feature matrix with a block of the first weight matrix, at an entry. -/
abbrev dotBlk (x : Vec Ideal S512x1024 .f32) (w : Vec Ideal S1024x256 .f32) (p : Fin 512) (q : Fin 256) : EReal :=
  ∑ l : Fin 1024, x (ix2 p l) * w (ix2 l q)

/-! ## The first accumulator and what the last step stores for the first result -/

/-- At a point divisible by sixty the first accumulator is cleared and takes in the point's block product. -/
theorem acc0_first (c : Dev nD) (t : Fin cfg1.N) (h0 : t.val % 60 = 0) :
    (outsAt1 V c t.val t.isLt).2.2.1 = k1_pay4 (iblk1 V c 2 t) (iblk1 V c 0 t) (k1_pay1 (F := Ideal)) := by
  have h1 : ¬t.val % 60 = 59 := by omega
  rw [outsAt1_A V c t h0 h1]
  dsimp only
  exact soutA0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)

/-- At any other point it takes in the point's block product over what the point before left. -/
theorem acc0_step (c : Dev nD) (t : Fin cfg1.N) (h0 : ¬t.val % 60 = 0) :
    (outsAt1 V c t.val t.isLt).2.2.1 = k1_pay4 (iblk1 V c 2 t) (iblk1 V c 0 t) (outsAt1 V c (t.val - 1) (Nat.lt_of_le_of_lt (Nat.sub_le _ _) t.isLt)).2.2.1 := by
  by_cases h1 : t.val % 60 = 59
  · rw [outsAt1_C V c t h0 h1]
    dsimp only
    exact soutC0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2
  · rw [outsAt1_B V c t h0 h1]
    dsimp only
    exact soutB0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2

/-- At a point with remainder 59 the first result's staging buffer holds the embedding finished from the first accumulator as
    this point leaves it. -/
theorem out7_last (c : Dev nD) (t : Fin cfg1.N) (h1 : t.val % 60 = 59) :
    (outsAt1 V c t.val t.isLt).1 = k1_pay8 (iblk1 V c 4 t) ((outsAt1 V c t.val t.isLt).2.2.1) (iblk1 V c 3 t) (iblk1 V c 5 t) (iblk1 V c 6 t) := by
  have h0 : ¬t.val % 60 = 0 := by omega
  rw [outsAt1_C V c t h0 h1]
  dsimp only
  exact (outC7_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2).trans
    (congrArg (fun z => k1_pay8 (iblk1 V c 4 t) z (iblk1 V c 3 t) (iblk1 V c 5 t) (iblk1 V c 6 t)) (soutC0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2).symm)

/-- The block product of a point, as the block of the point's remainder of the products over all the features. -/
theorem block0_eq (c : Dev nD) (t : Fin cfg1.N) (p : Fin 512) (q : Fin 256) (r : Fin 1024) (hr : r.val = 512 * (t.val / 60) + p.val) :
    dotBlk (iblk1 V c 0 t) (iblk1 V c 2 t) p q = blk (fun s => feat1 V c r s * wgt1 V c s q) (t.val % 60) := by
  have hk : t.val % 60 < 60 := Nat.mod_lt _ (by decide)
  unfold blk
  rw [dif_pos hk]
  exact Finset.sum_congr rfl fun l _ => congrArg₂ (fun a b : EReal => a * b)
    (iblk1_0_apply V c t p l r ⟨1024 * (t.val % 60) + l.val, by have := l.isLt; omega⟩ hr rfl)
    (iblk1_2_apply V c t l q ⟨1024 * (t.val % 60) + l.val, by have := l.isLt; omega⟩ rfl)

/-- THE ACCUMULATOR'S INVARIANT: after point n it holds, at row p and column q, the first (n mod 60) + 1 blocks of the
    products of row 512 (n / 60) + p of the feature matrix with column q of the first weight matrix. -/
theorem acc0_value (c : Dev nD) (q : Fin 256) (n : ℕ) (hn : n < cfg1.N) (p : Fin 512) (r : Fin 1024) (hr : r.val = 512 * (n / 60) + p.val) :
    (outsAt1 V c n hn).2.2.1 (ix2 p q) = partSum (fun s => feat1 V c r s * wgt1 V c s q) (n % 60 + 1) :=
  acc_rows (fun n hn p => (outsAt1 V c n hn).2.2.1 (ix2 p q)) (fun r s => feat1 V c r s * wgt1 V c s q)
    (fun n hn h0 p r hr => by
      refine (congrFun (acc0_first V c ⟨n, hn⟩ h0) (ix2 p q)).trans ?_
      refine (pay1_4_apply (iblk1 V c 2 ⟨n, hn⟩) (iblk1 V c 0 ⟨n, hn⟩) (k1_pay1 (F := Ideal)) p q).trans ?_
      rw [pay1_1_apply p q]
      exact congrArg (fun z : EReal => 0 + z) (block0_eq V c ⟨n, hn⟩ p q r hr))
    (fun n hn h0 p r hr => by
      refine (congrFun (acc0_step V c ⟨n + 1, hn⟩ h0) (ix2 p q)).trans ?_
      refine (pay1_4_apply (iblk1 V c 2 ⟨n + 1, hn⟩) (iblk1 V c 0 ⟨n + 1, hn⟩) _ p q).trans ?_
      exact congrArg (fun z : EReal => _ + z) (block0_eq V c ⟨n + 1, hn⟩ p q r hr))
    n hn p r hr

/-- The first result array as one function of the call's arrays: the temporal perceptron of the row of the first feature
    matrix, plus the spatial embedding of the row. -/
def embArr1 (c : Dev nD) : S1024x128.Idx → EReal := fun i =>
  Cert.Spec.emb (spat V c) (Cert.Spec.tp (feat1 V c) (wgt1 V c) (bias1 V c) (wgt2 V c) (bias2 V c)) (i 0) (i 1)

/-- What a point with remainder 59 writes back is its row block of that array. -/
theorem flushed1_7_eq (c : Dev nD) (t : Fin cfg1.N) (hf : (cfg1.win 7).flush t = true) :
    (dat1 V c).flushed 7 t = ((cfg1.win 7).blk t).view.read (Elt Ideal) (embArr1 V c) := by
  have h1 : t.val % 60 = 59 := (flush1_7 t).mp hf
  have hN : cfg1.N = 120 := N_1
  have ht : t.val < 120 := hN ▸ t.isLt
  show (cfg1.win 7).cut (grid1.coords t) ((dat1 V c).after 7 t) = _
  rw [after1_7, out7_last V c t h1, iblk1_3_eq V c t, iblk1_4_eq V c t, iblk1_5_eq V c t]
  funext (j : S512x128.Idx)
  obtain ⟨p, q, rfl⟩ : ∃ (p : Fin 512) (q : Fin 128), j = ix2 p q := ⟨j 0, j 1, eq_ix2 j⟩
  refine (pay1_8_apply (V c main_arg9 : S256x128.Idx → EReal) ((outsAt1 V c t.val t.isLt).2.2.1) (V c main_v3 : S1x256.Idx → EReal) (V c main_v4 : S1x128.Idx → EReal) (iblk1 V c 6 t) p q).trans ?_
  obtain ⟨-, -, -, -, -, -, -, -, -, -, -, -, -, -, e0, e1, -⟩ := idx_facts1 t
  have he : ((cfg1.win 7).blk t).view.emb (ix2 p q) = (ix2 (⟨512 * (t.val / 60) + p.val, by omega⟩ : Fin 1024) q : S1024x128.Idx) := by
    funext a; apply Fin.ext
    match a with
    | ⟨0, _⟩ => show win1_7.index t (0 : Fin 2) * 512 + 1 * p.val = 512 * (t.val / 60) + p.val; rw [e0]; omega
    | ⟨1, _⟩ => show win1_7.index t (1 : Fin 2) * 128 + 1 * q.val = q.val; rw [e1]; omega
  have hacc : ∀ k : Fin 256, (outsAt1 V c t.val t.isLt).2.2.1 (ix2 p k)
      = ∑ s : Fin 61440, feat1 V c (⟨512 * (t.val / 60) + p.val, by omega⟩ : Fin 1024) s * wgt1 V c s k := fun k => by
    rw [acc0_value V c k t.val t.isLt p ⟨512 * (t.val / 60) + p.val, by omega⟩ rfl, h1]
    exact partSum_full _
  rw [View.read_apply, he]
  unfold embArr1 Cert.Spec.emb Cert.Spec.tp Cert.Spec.hidT
  simp only [hacc, iblk1_6_apply V c t p q ⟨512 * (t.val / 60) + p.val, by omega⟩ rfl]
  rfl

/-! ## The second accumulator and what the last step stores for the second result -/

/-- At a point divisible by sixty the second accumulator is cleared and takes in the point's block product. -/
theorem acc1_first (c : Dev nD) (t : Fin cfg1.N) (h0 : t.val % 60 = 0) :
    (outsAt1 V c t.val t.isLt).2.2.2 = k1_pay5 (iblk1 V c 2 t) (iblk1 V c 1 t) (k1_pay2 (F := Ideal)) := by
  have h1 : ¬t.val % 60 = 59 := by omega
  rw [outsAt1_A V c t h0 h1]
  dsimp only
  exact soutA1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)

/-- At any other point it takes in the point's block product over what the point before left. -/
theorem acc1_step (c : Dev nD) (t : Fin cfg1.N) (h0 : ¬t.val % 60 = 0) :
    (outsAt1 V c t.val t.isLt).2.2.2 = k1_pay5 (iblk1 V c 2 t) (iblk1 V c 1 t) (outsAt1 V c (t.val - 1) (Nat.lt_of_le_of_lt (Nat.sub_le _ _) t.isLt)).2.2.2 := by
  by_cases h1 : t.val % 60 = 59
  · rw [outsAt1_C V c t h0 h1]
    dsimp only
    exact soutC1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2
  · rw [outsAt1_B V c t h0 h1]
    dsimp only
    exact soutB1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2

/-- At a point with remainder 59 the second result's staging buffer holds the embedding finished from the second accumulator as
    this point leaves it. -/
theorem out8_last (c : Dev nD) (t : Fin cfg1.N) (h1 : t.val % 60 = 59) :
    (outsAt1 V c t.val t.isLt).2.1 = k1_pay6 (k1_pay9 (iblk1 V c 4 t) ((outsAt1 V c t.val t.isLt).2.2.2) (iblk1 V c 3 t) (iblk1 V c 5 t)) (k1_pay10 (F := Ideal)) (iblk1 V c 6 t) := by
  have h0 : ¬t.val % 60 = 0 := by omega
  rw [outsAt1_C V c t h0 h1]
  dsimp only
  exact (outC8_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2).trans
    (congrArg (fun z => k1_pay6 (k1_pay9 (iblk1 V c 4 t) z (iblk1 V c 3 t) (iblk1 V c 5 t)) (k1_pay10 (F := Ideal)) (iblk1 V c 6 t)) (soutC1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2).symm)

/-- The block product of a point, as the block of the point's remainder of the products over all the features. -/
theorem block1_eq (c : Dev nD) (t : Fin cfg1.N) (p : Fin 512) (q : Fin 256) (r : Fin 1024) (hr : r.val = 512 * (t.val / 60) + p.val) :
    dotBlk (iblk1 V c 1 t) (iblk1 V c 2 t) p q = blk (fun s => feat2 V c r s * wgt1 V c s q) (t.val % 60) := by
  have hk : t.val % 60 < 60 := Nat.mod_lt _ (by decide)
  unfold blk
  rw [dif_pos hk]
  exact Finset.sum_congr rfl fun l _ => congrArg₂ (fun a b : EReal => a * b)
    (iblk1_1_apply V c t p l r ⟨1024 * (t.val % 60) + l.val, by have := l.isLt; omega⟩ hr rfl)
    (iblk1_2_apply V c t l q ⟨1024 * (t.val % 60) + l.val, by have := l.isLt; omega⟩ rfl)

/-- THE ACCUMULATOR'S INVARIANT: after point n it holds, at row p and column q, the first (n mod 60) + 1 blocks of the
    products of row 512 (n / 60) + p of the feature matrix with column q of the first weight matrix. -/
theorem acc1_value (c : Dev nD) (q : Fin 256) (n : ℕ) (hn : n < cfg1.N) (p : Fin 512) (r : Fin 1024) (hr : r.val = 512 * (n / 60) + p.val) :
    (outsAt1 V c n hn).2.2.2 (ix2 p q) = partSum (fun s => feat2 V c r s * wgt1 V c s q) (n % 60 + 1) :=
  acc_rows (fun n hn p => (outsAt1 V c n hn).2.2.2 (ix2 p q)) (fun r s => feat2 V c r s * wgt1 V c s q)
    (fun n hn h0 p r hr => by
      refine (congrFun (acc1_first V c ⟨n, hn⟩ h0) (ix2 p q)).trans ?_
      refine (pay1_5_apply (iblk1 V c 2 ⟨n, hn⟩) (iblk1 V c 1 ⟨n, hn⟩) (k1_pay2 (F := Ideal)) p q).trans ?_
      rw [pay1_2_apply p q]
      exact congrArg (fun z : EReal => 0 + z) (block1_eq V c ⟨n, hn⟩ p q r hr))
    (fun n hn h0 p r hr => by
      refine (congrFun (acc1_step V c ⟨n + 1, hn⟩ h0) (ix2 p q)).trans ?_
      refine (pay1_5_apply (iblk1 V c 2 ⟨n + 1, hn⟩) (iblk1 V c 1 ⟨n + 1, hn⟩) _ p q).trans ?_
      exact congrArg (fun z : EReal => _ + z) (block1_eq V c ⟨n + 1, hn⟩ p q r hr))
    n hn p r hr

/-- The second result array as one function of the call's arrays: the temporal perceptron of the row of the second feature
    matrix, plus the spatial embedding of the row. -/
def embArr2 (c : Dev nD) : S1024x128.Idx → EReal := fun i =>
  Cert.Spec.emb (spat V c) (Cert.Spec.tp (feat2 V c) (wgt1 V c) (bias1 V c) (wgt2 V c) (bias2 V c)) (i 0) (i 1)

/-- What a point with remainder 59 writes back is its row block of that array. -/
theorem flushed1_8_eq (c : Dev nD) (t : Fin cfg1.N) (hf : (cfg1.win 8).flush t = true) :
    (dat1 V c).flushed 8 t = ((cfg1.win 8).blk t).view.read (Elt Ideal) (embArr2 V c) := by
  have h1 : t.val % 60 = 59 := (flush1_8 t).mp hf
  have hN : cfg1.N = 120 := N_1
  have ht : t.val < 120 := hN ▸ t.isLt
  show (cfg1.win 8).cut (grid1.coords t) ((dat1 V c).after 8 t) = _
  rw [after1_8, out8_last V c t h1, iblk1_3_eq V c t, iblk1_4_eq V c t, iblk1_5_eq V c t]
  funext (j : S512x128.Idx)
  obtain ⟨p, q, rfl⟩ : ∃ (p : Fin 512) (q : Fin 128), j = ix2 p q := ⟨j 0, j 1, eq_ix2 j⟩
  refine (pay1_6_apply (V c main_arg9 : S256x128.Idx → EReal) ((outsAt1 V c t.val t.isLt).2.2.2) (V c main_v3 : S1x256.Idx → EReal) (V c main_v4 : S1x128.Idx → EReal) (iblk1 V c 6 t) p q).trans ?_
  obtain ⟨-, -, -, -, -, -, -, -, -, -, -, -, -, -, -, -, e0, e1⟩ := idx_facts1 t
  have he : ((cfg1.win 8).blk t).view.emb (ix2 p q) = (ix2 (⟨512 * (t.val / 60) + p.val, by omega⟩ : Fin 1024) q : S1024x128.Idx) := by
    funext a; apply Fin.ext
    match a with
    | ⟨0, _⟩ => show win1_8.index t (0 : Fin 2) * 512 + 1 * p.val = 512 * (t.val / 60) + p.val; rw [e0]; omega
    | ⟨1, _⟩ => show win1_8.index t (1 : Fin 2) * 128 + 1 * q.val = q.val; rw [e1]; omega
  have hacc : ∀ k : Fin 256, (outsAt1 V c t.val t.isLt).2.2.2 (ix2 p k)
      = ∑ s : Fin 61440, feat2 V c (⟨512 * (t.val / 60) + p.val, by omega⟩ : Fin 1024) s * wgt1 V c s k := fun k => by
    rw [acc1_value V c k t.val t.isLt p ⟨512 * (t.val / 60) + p.val, by omega⟩ rfl, h1]
    exact partSum_full _
  rw [View.read_apply, he]
  unfold embArr2 Cert.Spec.emb Cert.Spec.tp Cert.Spec.hidT
  simp only [hacc, iblk1_6_apply V c t p q ⟨512 * (t.val / 60) + p.val, by omega⟩ rfl]
  rfl

end Arrays

end Cert.Val

end
-- ==== Proof.Value.Val1Cover.lean ====
/-
  The fused temporal call, from its write-backs to its two result arrays.

  The call runs 120 points, 60 per row block of 512 rows. A result window's staging buffer is written back only at the
  last point of each row block, the points 59 and 119; the block written back by point t is rows 512 (t / 60) ..
  512 (t / 60) + 511 of the result array. Row r therefore lies in the block that point 60 (r / 512) + 59 writes back,
  so the two write-backs fill the array: if each of them writes the matching rows of one function G of the array's
  index, the array ends holding G.
-/
import proofs.«179632_j35485019800147_2_alg».proof.Proof.FrameKernelIdeal.Reg1
import Idealize.ShloMosaic.Lib.Pipeline.Value
import Idealize.ShloMosaic.Lib.ValueIdx

noncomputable section

namespace Cert.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

section AnyFloat
variable {F : FTy → Type} [FloatOps F]
variable (V : (c : Dev nD) → (b : Ref sig .tc) → Buf (Elt F) ((c : Thread nD τ).loc b))

/-- The block indices of the two result windows, decided over the 120 points: the row block is the point's quotient by
    sixty, the column block is zero. -/
theorem idx_facts1_out : ∀ t : Fin cfg1.N, win1_7.index t (0 : Fin 2) = t.val / 60 ∧ win1_7.index t (1 : Fin 2) = 0
    ∧ win1_8.index t (0 : Fin 2) = t.val / 60 ∧ win1_8.index t (1 : Fin 2) = 0 :=
  (by decide +kernel : ∀ t : Fin grid1.N, _)

/-- An index of the first result array lies in point t's block exactly when its row is among the block's 512 rows. -/
theorem mem_blk1_7 (t : Fin cfg1.N) (i : S1024x128.Idx) :
    i ∈ ((cfg1.win 7).blk t).view.set ↔ ∀ a : Fin 2, win1_7.index t a * S512x128.size a ≤ (i a).val ∧ (i a).val < win1_7.index t a * S512x128.size a + S512x128.size a := by
  show i ∈ ((View.whole main_v5_0).slice (win1_7.rect t)).set ↔ _
  rw [View.set_slice_whole, Rect.mem_set_unit]
  exact Iff.rfl

/-- The same for the second result array. -/
theorem mem_blk1_8 (t : Fin cfg1.N) (i : S1024x128.Idx) :
    i ∈ ((cfg1.win 8).blk t).view.set ↔ ∀ a : Fin 2, win1_8.index t a * S512x128.size a ≤ (i a).val ∧ (i a).val < win1_8.index t a * S512x128.size a + S512x128.size a := by
  show i ∈ ((View.whole main_v5_1).slice (win1_8.rect t)).set ↔ _
  rw [View.set_slice_whole, Rect.mem_set_unit]
  exact Iff.rfl

/-- Row r of the first result is written back by point 60 (r / 512) + 59. -/
theorem cover1_7 (i : S1024x128.Idx) : ∃ t : Fin cfg1.N, (cfg1.win 7).flush t = true ∧ i ∈ ((cfg1.win 7).blk t).view.set := by
  have hi0 : (i 0).val < 1024 := (i 0).isLt
  have hi1 : (i 1).val < 128 := (i 1).isLt
  have hN : cfg1.N = 120 := N_1
  have hlt : 60 * ((i 0).val / 512) + 59 < cfg1.N := by rw [hN]; omega
  refine ⟨⟨60 * ((i 0).val / 512) + 59, hlt⟩, (flush1_7 _).mpr (by show (60 * ((i 0).val / 512) + 59) % 60 = 59; omega), ?_⟩
  rw [mem_blk1_7]
  obtain ⟨e0, e1, -⟩ := idx_facts1_out ⟨60 * ((i 0).val / 512) + 59, hlt⟩
  intro a
  match a with
  | ⟨0, _⟩ =>
    show win1_7.index _ (0 : Fin 2) * 512 ≤ (i 0).val ∧ (i 0).val < win1_7.index _ (0 : Fin 2) * 512 + 512
    rw [e0]; show (60 * ((i 0).val / 512) + 59) / 60 * 512 ≤ (i 0).val ∧ (i 0).val < (60 * ((i 0).val / 512) + 59) / 60 * 512 + 512; omega
  | ⟨1, _⟩ =>
    show win1_7.index _ (1 : Fin 2) * 128 ≤ (i 1).val ∧ (i 1).val < win1_7.index _ (1 : Fin 2) * 128 + 128
    rw [e1]; omega

/-- Row r of the second result is written back by the same point. -/
theorem cover1_8 (i : S1024x128.Idx) : ∃ t : Fin cfg1.N, (cfg1.win 8).flush t = true ∧ i ∈ ((cfg1.win 8).blk t).view.set := by
  have hi0 : (i 0).val < 1024 := (i 0).isLt
  have hi1 : (i 1).val < 128 := (i 1).isLt
  have hN : cfg1.N = 120 := N_1
  have hlt : 60 * ((i 0).val / 512) + 59 < cfg1.N := by rw [hN]; omega
  refine ⟨⟨60 * ((i 0).val / 512) + 59, hlt⟩, (flush1_8 _).mpr (by show (60 * ((i 0).val / 512) + 59) % 60 = 59; omega), ?_⟩
  rw [mem_blk1_8]
  obtain ⟨-, -, e0, e1⟩ := idx_facts1_out ⟨60 * ((i 0).val / 512) + 59, hlt⟩
  intro a
  match a with
  | ⟨0, _⟩ =>
    show win1_8.index _ (0 : Fin 2) * 512 ≤ (i 0).val ∧ (i 0).val < win1_8.index _ (0 : Fin 2) * 512 + 512
    rw [e0]; show (60 * ((i 0).val / 512) + 59) / 60 * 512 ≤ (i 0).val ∧ (i 0).val < (60 * ((i 0).val / 512) + 59) / 60 * 512 + 512; omega
  | ⟨1, _⟩ =>
    show win1_8.index _ (1 : Fin 2) * 128 ≤ (i 1).val ∧ (i 1).val < win1_8.index _ (1 : Fin 2) * 128 + 128
    rw [e1]; omega

/-- The index in the first result array of entry (p, q) of the block point t writes back: row 512 (t / 60) + p. -/
theorem emb1_7 (t : Fin cfg1.N) (p : Fin 512) (q : Fin 128) (r : Fin 1024) (hr : r.val = 512 * (t.val / 60) + p.val) :
    ((cfg1.win 7).blk t).view.emb (ix2 p q) = (ix2 r q : S1024x128.Idx) := by
  obtain ⟨e0, e1, -⟩ := idx_facts1_out t
  funext a; apply Fin.ext
  match a with
  | ⟨0, _⟩ => show win1_7.index t (0 : Fin 2) * 512 + 1 * p.val = r.val; rw [e0, hr]; omega
  | ⟨1, _⟩ => show win1_7.index t (1 : Fin 2) * 128 + 1 * q.val = q.val; rw [e1]; omega

/-- The same for the second result array. -/
theorem emb1_8 (t : Fin cfg1.N) (p : Fin 512) (q : Fin 128) (r : Fin 1024) (hr : r.val = 512 * (t.val / 60) + p.val) :
    ((cfg1.win 8).blk t).view.emb (ix2 p q) = (ix2 r q : S1024x128.Idx) := by
  obtain ⟨-, -, e0, e1⟩ := idx_facts1_out t
  funext a; apply Fin.ext
  match a with
  | ⟨0, _⟩ => show win1_8.index t (0 : Fin 2) * 512 + 1 * p.val = r.val; rw [e0, hr]; omega
  | ⟨1, _⟩ => show win1_8.index t (1 : Fin 2) * 128 + 1 * q.val = q.val; rw [e1]; omega

/-- If each write-back of the first result window writes the matching rows of G, the first result array ends at G. -/
theorem final1_7_of (c : Dev nD) (G : S1024x128.Idx → Elt F .f32)
    (hG : ∀ t : Fin cfg1.N, (cfg1.win 7).flush t = true → (dat1 V c).flushed 7 t = ((cfg1.win 7).blk t).view.read (Elt F) G) :
    (dat1 V c).arrAt 7 cfg1.N = G :=
  (dat1 V c).arrAt_eq_of_cover 7 G hG cover1_7

/-- The same for the second result array. -/
theorem final1_8_of (c : Dev nD) (G : S1024x128.Idx → Elt F .f32)
    (hG : ∀ t : Fin cfg1.N, (cfg1.win 8).flush t = true → (dat1 V c).flushed 8 t = ((cfg1.win 8).blk t).view.read (Elt F) G) :
    (dat1 V c).arrAt 8 cfg1.N = G :=
  (dat1 V c).arrAt_eq_of_cover 8 G hG cover1_8

end AnyFloat

end Cert.Val

end
-- ==== Proof.Value.Final1.lean ====
/-
  The two result arrays of the fused temporal call, after the call: the points with remainder 59 write back the row
  blocks of the two embeddings, and these two points' blocks cover each array, so each array ends holding its embedding:
  at row i and column j the temporal perceptron of row i of the feature matrix (the contraction over all 61440 features)
  plus the spatial embedding.
-/
import proofs.«179632_j35485019800147_2_alg».proof.Proof.Value.Val1
import proofs.«179632_j35485019800147_2_alg».proof.Proof.Value.Val1Cover

noncomputable section

namespace Cert.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

section Arrays
variable (V : (c : Dev nD) → (b : Ref sig .tc) → Buf (Elt Ideal) ((c : Thread nD τ).loc b))

/-- The first result array after the call. -/
theorem final1_7 (c : Dev nD) : (dat1 V c).arrAt 7 cfg1.N = embArr1 V c :=
  final1_7_of V c (embArr1 V c) (flushed1_7_eq V c)

/-- The second result array after the call. -/
theorem final1_8 (c : Dev nD) : (dat1 V c).arrAt 8 cfg1.N = embArr2 V c :=
  final1_8_of V c (embArr2 V c) (flushed1_8_eq V c)

/-- The same two facts with the embeddings written out over the call's arrays. -/
theorem final1_7_spelt (c : Dev nD) : (dat1 V c).arrAt 7 cfg1.N = fun i =>
    Cert.Spec.emb (fun a b => (V c main_v2 : S1024x128.Idx → EReal) (ix2 a b))
      (Cert.Spec.tp (fun a b => (V c main_arg1 : S1024x61440.Idx → EReal) (ix2 a b)) (fun a b => (V c main_arg7 : S61440x256.Idx → EReal) (ix2 a b))
        (fun b => (V c main_v3 : S1x256.Idx → EReal) (ix2 (0 : Fin 1) b)) (fun a b => (V c main_arg9 : S256x128.Idx → EReal) (ix2 a b))
        (fun b => (V c main_v4 : S1x128.Idx → EReal) (ix2 (0 : Fin 1) b))) (i 0) (i 1) :=
  final1_7 V c

theorem final1_8_spelt (c : Dev nD) : (dat1 V c).arrAt 8 cfg1.N = fun i =>
    Cert.Spec.emb (fun a b => (V c main_v2 : S1024x128.Idx → EReal) (ix2 a b))
      (Cert.Spec.tp (fun a b => (V c main_arg2 : S1024x61440.Idx → EReal) (ix2 a b)) (fun a b => (V c main_arg7 : S61440x256.Idx → EReal) (ix2 a b))
        (fun b => (V c main_v3 : S1x256.Idx → EReal) (ix2 (0 : Fin 1) b)) (fun a b => (V c main_arg9 : S256x128.Idx → EReal) (ix2 a b))
        (fun b => (V c main_v4 : S1x128.Idx → EReal) (ix2 (0 : Fin 1) b))) (i 0) (i 1) :=
  final1_8 V c

end Arrays

end Cert.Val

end
-- ==== Proof.Value.Val2.lean ====
/- The value of region 2 (the score kernel) at the extended reals.

   One grid point takes a 128-row block x0 of the first embedding, the bilinear form x1 and the whole second
   embedding x2, and stores the 128-by-1024 block whose (p, q) entry is exp(T p q − M p) / Σ_q' exp(T p q' − M p),
   where T p q is the logit Σ_b (Σ_a x0 p a · x1 a b) · x2 q b with values below the threshold replaced by zero, and
   M p the maximum of row p. Row p of that block depends on row p of x0 only, so it is row 128 t + p of the
   whole-array score at point t; the eight row blocks tile the result array, which therefore ends holding the score. -/
import proofs.«179632_j35485019800147_2_alg».proof.Proof.FrameKernelIdeal.Reg2
import proofs.«179632_j35485019800147_2_alg».proof.Proof.Value.Spec
import Idealize.ShloMosaic.Lib.Pipeline.Value
import Idealize.ShloMosaic.Lib.ValueLayout
import Idealize.ShloMosaic.PureOps.Ideal.Laws

noncomputable section

open scoped BigOperators
open Idealize.ShloMosaic Idealize.ShloMosaic.ValueIdx

namespace Cert.Val.R2

open Cert.KernelIdeal Cert.KernelIdeal.Gen

/-! ## Two layout forms of a kept reduced axis -/

/-- A vector of length a viewed as an a-by-1 column reads, at (i, u), the vector at i. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a-by-1 column spread over b lanes reads, at (p, c), the column at p. -/
theorem broadcastTo_a1_ab_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two contractions -/

abbrev D1 : DotDims S128x128 S128x128 S128x128 := dot_S128x128_S128x128_S128x128_1_0_0_1_n_n
abbrev D2 : DotDims S128x128 S1024x128 S128x1024 := dot_S128x128_S1024x128_S128x1024_1_1_0_0_n_n

theorem lhs1_0 (i : S128x128.Idx) (q : D1.contr.Idx) : (D1.lhsIdx i q 0).val = (i 0).val := by
  unfold DotDims.lhsIdx
  rw [dif_neg (show ¬(0 : Fin S128x128.rank) ∈ D1.lhsBatch by decide), dif_pos (show (0 : Fin S128x128.rank) ∈ D1.lhsNonContracting by decide)]
  rfl
theorem lhs1_1 (i : S128x128.Idx) (q : D1.contr.Idx) : (D1.lhsIdx i q 1).val = (q ⟨0, by decide⟩).val :=
  D1.lhsIdx_val_of_single rfl i q
theorem rhs1_0 (i : S128x128.Idx) (q : D1.contr.Idx) : (D1.rhsIdx i q 0).val = (q ⟨0, by decide⟩).val :=
  D1.rhsIdx_val_of_single rfl i q
theorem rhs1_1 (i : S128x128.Idx) (q : D1.contr.Idx) : (D1.rhsIdx i q 1).val = (i 1).val := by
  unfold DotDims.rhsIdx
  rw [dif_neg (show ¬(1 : Fin S128x128.rank) ∈ D1.rhsBatch by decide), dif_pos (show (1 : Fin S128x128.rank) ∈ D1.rhsNonContracting by decide)]
  rfl

/-- The first product, rows of the left factor against columns of the right, into the zero accumulator. -/
theorem mm1_apply (l r : FVec Ideal S128x128 .bf16) (p b : Fin 128) :
    matmul D1 none l r (constant (F := Ideal) S128x128 .f32 0x00000000#32) (ix2 p b)
      = ∑ a : Fin 128, l (ix2 p a) * r (ix2 a b) := by
  simp only [matmul]
  rw [Ideal.matmul_constant_zero_apply, ← Equiv.sum_comp (contrEquiv1 D1 128 rfl rfl).symm]
  refine Finset.sum_congr rfl fun k _ => ?_
  have hk := contrEquiv1_symm_val D1 128 rfl rfl k
  have el : D1.lhsIdx (ix2 p b) ((contrEquiv1 D1 128 rfl rfl).symm k) = ix2 p k := funext fun a => Fin.ext (by
    match a with
    | ⟨0, _⟩ => exact lhs1_0 _ _
    | ⟨1, _⟩ => exact (lhs1_1 _ _).trans hk)
  have er : D1.rhsIdx (ix2 p b) ((contrEquiv1 D1 128 rfl rfl).symm k) = ix2 k b := funext fun a => Fin.ext (by
    match a with
    | ⟨0, _⟩ => exact (rhs1_0 _ _).trans hk
    | ⟨1, _⟩ => exact rhs1_1 _ _)
  rw [el, er]

theorem lhs2_0 (i : S128x1024.Idx) (q : D2.contr.Idx) : (D2.lhsIdx i q 0).val = (i 0).val := by
  unfold DotDims.lhsIdx
  rw [dif_neg (show ¬(0 : Fin S128x128.rank) ∈ D2.lhsBatch by decide), dif_pos (show (0 : Fin S128x128.rank) ∈ D2.lhsNonContracting by decide)]
  rfl
theorem lhs2_1 (i : S128x1024.Idx) (q : D2.contr.Idx) : (D2.lhsIdx i q 1).val = (q ⟨0, by decide⟩).val :=
  D2.lhsIdx_val_of_single rfl i q
theorem rhs2_0 (i : S128x1024.Idx) (q : D2.contr.Idx) : (D2.rhsIdx i q 0).val = (i 1).val := by
  unfold DotDims.rhsIdx
  rw [dif_neg (show ¬(0 : Fin S1024x128.rank) ∈ D2.rhsBatch by decide), dif_pos (show (0 : Fin S1024x128.rank) ∈ D2.rhsNonContracting by decide)]
  rfl
theorem rhs2_1 (i : S128x1024.Idx) (q : D2.contr.Idx) : (D2.rhsIdx i q 1).val = (q ⟨0, by decide⟩).val :=
  D2.rhsIdx_val_of_single rfl i q

/-- The second product contracts the LAST axis of both factors: rows against rows. -/
theorem mm2_apply (l : FVec Ideal S128x128 .bf16) (r : FVec Ideal S1024x128 .bf16) (p : Fin 128) (q : Fin 1024) :
    matmul D2 none l r (constant (F := Ideal) S128x1024 .f32 0x00000000#32) (ix2 p q)
      = ∑ b : Fin 128, l (ix2 p b) * r (ix2 q b) := by
  simp only [matmul]
  rw [Ideal.matmul_constant_zero_apply, ← Equiv.sum_comp (contrEquiv1 D2 128 rfl rfl).symm]
  refine Finset.sum_congr rfl fun k _ => ?_
  have hk := contrEquiv1_symm_val D2 128 rfl rfl k
  have el : D2.lhsIdx (ix2 p q) ((contrEquiv1 D2 128 rfl rfl).symm k) = ix2 p k := funext fun a => Fin.ext (by
    match a with
    | ⟨0, _⟩ => exact lhs2_0 _ _
    | ⟨1, _⟩ => exact (lhs2_1 _ _).trans hk)
  have er : D2.rhsIdx (ix2 p q) ((contrEquiv1 D2 128 rfl rfl).symm k) = ix2 q k := funext fun a => Fin.ext (by
    match a with
    | ⟨0, _⟩ => exact rhs2_0 _ _
    | ⟨1, _⟩ => exact (rhs2_1 _ _).trans hk)
  rw [el, er]

/-! ## The payload, stage by stage

The stored value is a tree of whole-block operations; each stage below is one of its subterms, so that the
payload IS the last stage by unfolding, and each stage is read at an index from the one before. -/

section Stages
variable (x0 x1 : Vec Ideal S128x128 .f32) (x2 : Vec Ideal S1024x128 .f32)

/-- The block's logits: (x0 · x1) · x2ᵀ, both products into zero accumulators. -/
def lgV : FVec Ideal S128x1024 .f32 :=
  matmul D2 none
    (truncf .bf16 (matmul D1 none (truncf .bf16 (shapeCast S128x128 x0 shapeCasts_S128x128_S128x128) bitsLt_bf16_f32)
      (truncf .bf16 x1 bitsLt_bf16_f32) (constant S128x128 .f32 0x00000000#32)) bitsLt_bf16_f32)
    (truncf .bf16 (shapeCast S1024x128 x2 shapeCasts_S1024x128_S1024x128) bitsLt_bf16_f32)
    (constant S128x1024 .f32 0x00000000#32)

/-- The logits with those below the threshold replaced by zero. -/
def thV : FVec Ideal S128x1024 .f32 :=
  select (cmpf .oge (lgV x0 x1 x2) (broadcast S128x1024 (Scalar.ofBits .f32 0x3D4CCCCD#32))) (lgV x0 x1 x2)
    (broadcast S128x1024 (Scalar.ofBits .f32 0x00000000#32))

/-- Each row's maximum. -/
def mxV : FVec Ideal S128 .f32 :=
  multiReduction .maximumf [1] S128 (thV x0 x1 x2) 0xFF800000#32 reduces_S128x1024_S128 (.inl rfl) rfl

/-- The exponentials of the entries less their row's maximum. -/
def exV : FVec Ideal S128x1024 .f32 :=
  exp (subf (thV x0 x1 x2)
    (broadcastTo S128x1024 (shapeCast S128x1 (mxV x0 x1 x2) shapeCasts_S128_S128x1) broadcasts_S128x1_S128x1024))

/-- Each row's sum of those exponentials. -/
def smV : FVec Ideal S128 .f32 :=
  multiReduction .add [1] S128 (exV x0 x1 x2) 0x00000000#32 reduces_S128x1024_S128 (.inl rfl) rfl

/-- The payload is the exponentials over their row sums. -/
theorem pay_eq : k2_pay1 (F := Ideal) x0 x1 x2
    = divf (exV x0 x1 x2) (broadcastTo S128x1024 (shapeCast S128x1 (smV x0 x1 x2) shapeCasts_S128_S128x1) broadcasts_S128x1_S128x1024) := rfl

/-- The index a lane reduction of a 128-by-1024 block reads: row p, lane k. -/
theorem lift_ix (p : Fin 128) (k : Fin 1024) : reduces_S128x1024_S128.lift (ix1 p) k = ix2 p k :=
  funext fun a => Fin.ext (by match a with | ⟨0, _⟩ => rfl | ⟨1, _⟩ => rfl)

theorem lg_apply (p : Fin 128) (q : Fin 1024) :
    lgV x0 x1 x2 (ix2 p q) = ∑ b : Fin 128, (∑ a : Fin 128, x0 (ix2 p a) * x1 (ix2 a b)) * x2 (ix2 q b) := by
  unfold lgV
  rw [shapeCast_self, shapeCast_self]
  refine (mm2_apply _ _ p q).trans (Finset.sum_congr rfl fun b _ => ?_)
  show matmul D1 none (truncf .bf16 x0 bitsLt_bf16_f32) (truncf .bf16 x1 bitsLt_bf16_f32)
      (constant (F := Ideal) S128x128 .f32 0x00000000#32) (ix2 p b) * x2 (ix2 q b) = _
  rw [mm1_apply]
  rfl

theorem th_apply (p : Fin 128) (q : Fin 1024) : thV x0 x1 x2 (ix2 p q) = Cert.Spec.thr (lgV x0 x1 x2 (ix2 p q)) := by
  show Scalar.select (Ideal.cmp .oge (lgV x0 x1 x2 (ix2 p q)) (Ideal.ofBits .f32 0x3D4CCCCD#32)) (lgV x0 x1 x2 (ix2 p q))
      (Ideal.ofBits .f32 0x00000000#32) = _
  rw [Ideal.ofBits_zero_f32]
  rfl

/-- The word the maximum is folded from is the bottom element. -/
theorem ofBits_neg_inf : Ideal.ofBits .f32 0xFF800000#32 = (⊥ : EReal) := by simp [Ideal.ofBits, Ideal.ieee]

theorem mx_apply (p : Fin 128) :
    mxV x0 x1 x2 (ix1 p) = (Finset.univ : Finset (Fin 1024)).fold max ⊥ (fun q => thV x0 x1 x2 (ix2 p q)) := by
  unfold mxV
  refine (Ideal.multiReduction_maximumf_single (thV x0 x1 x2) 0xFF800000#32 reduces_S128x1024_S128 (.inl rfl) rfl (ix1 p)).trans ?_
  show (Finset.univ : Finset (Fin 1024)).fold max (Ideal.ofBits .f32 0xFF800000#32)
      (fun k => thV x0 x1 x2 (reduces_S128x1024_S128.lift (ix1 p) k)) = _
  rw [ofBits_neg_inf]
  have e : (fun k : Fin 1024 => thV x0 x1 x2 (reduces_S128x1024_S128.lift (ix1 p) k)) = fun q => thV x0 x1 x2 (ix2 p q) :=
    funext fun k => by rw [lift_ix]
  exact congrArg (fun f : Fin 1024 → EReal => (Finset.univ : Finset (Fin 1024)).fold max ⊥ f) e

theorem ex_apply (p : Fin 128) (q : Fin 1024) :
    exV x0 x1 x2 (ix2 p q) = Ideal.exp (thV x0 x1 x2 (ix2 p q) - mxV x0 x1 x2 (ix1 p)) := by
  unfold exV
  show Ideal.exp (thV x0 x1 x2 (ix2 p q)
      - broadcastTo S128x1024 (shapeCast S128x1 (mxV x0 x1 x2) shapeCasts_S128_S128x1) broadcasts_S128x1_S128x1024 (ix2 p q)) = _
  rw [broadcastTo_a1_ab_apply, shapeCast_a_a1_apply]

theorem sm_apply (p : Fin 128) : smV x0 x1 x2 (ix1 p) = ∑ q : Fin 1024, exV x0 x1 x2 (ix2 p q) := by
  unfold smV
  refine (Ideal.multiReduction_add_single (exV x0 x1 x2) 0x00000000#32 reduces_S128x1024_S128 (.inl rfl) rfl (ix1 p)).trans ?_
  show ∑ k : Fin 1024, exV x0 x1 x2 (reduces_S128x1024_S128.lift (ix1 p) k) = _
  exact Finset.sum_congr rfl fun k _ => congrArg _ (lift_ix p k)

theorem pay_apply (p : Fin 128) (q : Fin 1024) :
    k2_pay1 (F := Ideal) x0 x1 x2 (ix2 p q) = Ideal.div (exV x0 x1 x2 (ix2 p q)) (smV x0 x1 x2 (ix1 p)) := by
  rw [pay_eq]
  show Ideal.div (exV x0 x1 x2 (ix2 p q))
      (broadcastTo S128x1024 (shapeCast S128x1 (smV x0 x1 x2) shapeCasts_S128_S128x1) broadcasts_S128x1_S128x1024 (ix2 p q)) = _
  rw [broadcastTo_a1_ab_apply, shapeCast_a_a1_apply]

/-- The payload at (p, q) is the score at (i, q), when the first block's row p is row i of the first embedding and
    the other two blocks are the bilinear form and the second embedding: the row softmax of the thresholded
    logits reads, in row i, only that row of the first embedding. -/
theorem pay_score (U1 U2 : Fin 1024 → Fin 128 → EReal) (B : Fin 128 → Fin 128 → EReal) (i : Fin 1024) (p : Fin 128) (q : Fin 1024)
    (h0 : ∀ a, x0 (ix2 p a) = U1 i a) (h1 : ∀ a b, x1 (ix2 a b) = B a b) (h2 : ∀ r b, x2 (ix2 r b) = U2 r b) :
    k2_pay1 (F := Ideal) x0 x1 x2 (ix2 p q) = Cert.Spec.score U1 U2 B i q := by
  have hT : ∀ r : Fin 1024, thV x0 x1 x2 (ix2 p r) = Cert.Spec.thr (Cert.Spec.logit U1 U2 B i r) := fun r => by
    rw [th_apply, lg_apply]
    unfold Cert.Spec.logit
    simp only [h0, h1, h2]
  rw [pay_apply, sm_apply]
  simp only [ex_apply, mx_apply, hT]
  rfl

end Stages

/-! ## From blocks to the array -/

section Array
open Cert.KernelIdeal.Fr
open Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the eight points: the first embedding's window and the result's window are both on
    row block t at point t; the bilinear form and the second embedding are one block each. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The scores of the arrays the region finds: what the result array ends holding. -/
def G2 (c : Dev nD) : Buf (Elt Ideal) ((c : Thread nD τ).loc main_v6) := fun i =>
  Cert.Spec.score (fun a b => V c main_v5_0 (ix2 a b)) (fun a b => V c main_v5_1 (ix2 a b)) (fun a b => V c main_arg11 (ix2 a b)) (i 0) (i 1)

/-- What point t writes back is rows 128 t … 128 t + 127 of the scores. -/
theorem flushed2_eq (c : Dev nD) (t : Fin cfg2.N) :
    (dat2 (F := Ideal) V c).flushed 3 t = ((cfg2.win 3).blk t).view.read (Elt Ideal) (G2 V c) := by
  show (cfg2.win 3).cut (grid2.coords t) ((dat2 V c).after 3 t) = _
  rw [after2_3]
  unfold out2_3
  rw [View.canon_unit_zero hz]
  simp only [View.ld_unit_zero (S := S128x128) hz, View.ld_unit_zero (S := S1024x128) hz]
  obtain ⟨e00, e01, e10, e11, e20, e21, e30, e31⟩ := idx_facts2 t
  have ht : t.val < 8 := Nat.lt_of_lt_of_eq t.isLt N_2
  refine funext fun (j : S128x1024.Idx) => ?_
  obtain ⟨p, q, rfl⟩ : ∃ (p : Fin 128) (q : Fin 1024), j = ix2 p q := ⟨j 0, j 1, eq_ix2 j⟩
  show k2_pay1 (F := Ideal) (iblk2 V c 0 t) (iblk2 V c 1 t) (iblk2 V c 2 t) (ix2 p q)
      = G2 V c (((cfg2.win 3).blk t).view.emb (ix2 p q))
  refine (pay_score (iblk2 V c 0 t) (iblk2 V c 1 t) (iblk2 V c 2 t) (fun a b => V c main_v5_0 (ix2 a b))
    (fun a b => V c main_v5_1 (ix2 a b)) (fun a b => V c main_arg11 (ix2 a b)) ⟨128 * t.val + p.val, by omega⟩ p q ?_ ?_ ?_).trans ?_
  · intro a
    show V c main_v5_0 (((cfg2.win 0).blk t).view.emb (ix2 p a)) = V c main_v5_0 (ix2 (⟨128 * t.val + p.val, by omega⟩ : Fin 1024) a)
    refine congrArg (V c main_v5_0) (funext fun ax => Fin.ext ?_)
    match ax with
    | ⟨0, _⟩ => show win2_0.index t (0 : Fin 2) * 128 + 1 * p.val = 128 * t.val + p.val; omega
    | ⟨1, _⟩ => show win2_0.index t (1 : Fin 2) * 128 + 1 * a.val = a.val; omega
  · intro a b
    show V c main_arg11 (((cfg2.win 1).blk t).view.emb (ix2 a b)) = V c main_arg11 (ix2 a b)
    refine congrArg (V c main_arg11) (funext fun ax => Fin.ext ?_)
    match ax with
    | ⟨0, _⟩ => show win2_1.index t (0 : Fin 2) * 128 + 1 * a.val = a.val; omega
    | ⟨1, _⟩ => show win2_1.index t (1 : Fin 2) * 128 + 1 * b.val = b.val; omega
  · intro r b
    show V c main_v5_1 (((cfg2.win 2).blk t).view.emb (ix2 r b)) = V c main_v5_1 (ix2 r b)
    refine congrArg (V c main_v5_1) (funext fun ax => Fin.ext ?_)
    match ax with
    | ⟨0, _⟩ => show win2_2.index t (0 : Fin 2) * 1024 + 1 * r.val = r.val; omega
    | ⟨1, _⟩ => show win2_2.index t (1 : Fin 2) * 128 + 1 * b.val = b.val; omega
  · have r0 : (((cfg2.win 3).blk t).view.emb (ix2 p q)) 0 = (⟨128 * t.val + p.val, by omega⟩ : Fin 1024) :=
      Fin.ext (by show win2_3.index t (0 : Fin 2) * 128 + 1 * p.val = 128 * t.val + p.val; omega)
    have r1 : (((cfg2.win 3).blk t).view.emb (ix2 p q)) 1 = q :=
      Fin.ext (by show win2_3.index t (1 : Fin 2) * 1024 + 1 * q.val = q.val; omega)
    show Cert.Spec.score _ _ _ _ _ = Cert.Spec.score _ _ _ ((((cfg2.win 3).blk t).view.emb (ix2 p q)) 0) ((((cfg2.win 3).blk t).view.emb (ix2 p q)) 1)
    rw [r0, r1]

/-- An index of the result array is in point t's block iff each coordinate is in the block's range. -/
theorem mem_blk2 (t : Fin cfg2.N) (i : S1024x1024.Idx) :
    i ∈ ((cfg2.win 3).blk t).view.set ↔ ∀ a : Fin 2, win2_3.index t a * S128x1024.size a ≤ (i a).val ∧ (i a).val < win2_3.index t a * S128x1024.size a + S128x1024.size a := by
  show i ∈ ((View.whole main_v6).slice (win2_3.rect t)).set ↔ _
  rw [View.set_slice_whole, Rect.mem_set_unit]
  exact Iff.rfl

/-- Row r of the result is written back by point r / 128: the eight row blocks tile the array. -/
theorem cover2 (i : S1024x1024.Idx) : ∃ t : Fin cfg2.N, (cfg2.win 3).flush t = true ∧ i ∈ ((cfg2.win 3).blk t).view.set := by
  have hi0 : (i 0).val < 1024 := (i 0).isLt
  have hi1 : (i 1).val < 1024 := (i 1).isLt
  have hN : cfg2.N = 8 := N_2
  obtain ⟨t, ht⟩ : ∃ t : Fin cfg2.N, t.val = (i 0).val / 128 := ⟨⟨(i 0).val / 128, by rw [hN]; omega⟩, rfl⟩
  obtain ⟨-, -, -, -, -, -, e30, e31⟩ := idx_facts2 t
  refine ⟨t, flush2_3 t, ?_⟩
  rw [mem_blk2]
  intro a
  match a with
  | ⟨0, _⟩ => show win2_3.index t (0 : Fin 2) * 128 ≤ (i 0).val ∧ (i 0).val < win2_3.index t (0 : Fin 2) * 128 + 128; omega
  | ⟨1, _⟩ => show win2_3.index t (1 : Fin 2) * 1024 ≤ (i 1).val ∧ (i 1).val < win2_3.index t (1 : Fin 2) * 1024 + 1024; omega

/-- The result array after the region: the scores of the arrays the region found. -/
theorem final (c : Dev nD) : (dat2 (F := Ideal) V c).arrAt 3 cfg2.N = G2 V c :=
  (dat2 V c).arrAt_eq_of_cover 3 (G2 V c) (fun t _ => flushed2_eq V c t) (cover2)

end Array

end Cert.Val.R2

namespace Cert.Val

open Cert.KernelIdeal Cert.KernelIdeal.Gen Cert.KernelIdeal.Fr
open Idealize.ShloMosaic.TcCoe Idealize.SL.Sem

/-- REGION 2's VALUE: whatever the region finds in its three input arrays, its result array ends holding, at
    (i, j), the row softmax of the thresholded bilinear logits of those arrays — entry j of row i. -/
theorem final2 (V : (c : Dev nD) → (b : Ref sig .tc) → Buf (Elt Ideal) ((c : Thread nD τ).loc b)) (c : Dev nD) :
    (dat2 (F := Ideal) V c).arrAt 3 cfg2.N = fun i =>
      Cert.Spec.score (fun a b => V c main_v5_0 (ix2 a b)) (fun a b => V c main_v5_1 (ix2 a b))
        (fun a b => V c main_arg11 (ix2 a b)) (i 0) (i 1) :=
  R2.final V c

end Cert.Val

end
-- ==== Proof.Value.Final.lean ====
/-
  The kernel program's result array, read back to the launch memory.

  The third call leaves in the result array the row softmax of the thresholded bilinear logits of the two node embeddings
  it finds.  Each of these is what the second call left: the temporal perceptron of that call's temporal input plus the
  spatial embedding the call finds.  That spatial embedding is what the first call left: the spatial perceptron of the
  node matrix.  Every argument array a call reads is, when it is read, what the launch memory holds (no item of the
  program writes an argument), and every bias row a call reads is the reshape of the launched bias vector.  Substituting
  step by step gives the specification's `result` of the twelve launched arrays; nothing but substitution is involved.
-/
import proofs.«179632_j35485019800147_2_alg».proof.Proof.FrameKernelIdeal.Run
import proofs.«179632_j35485019800147_2_alg».proof.Proof.Value.Spec
import proofs.«179632_j35485019800147_2_alg».proof.Proof.Value.Walk
import proofs.«179632_j35485019800147_2_alg».proof.Proof.Value.Final1
import proofs.«179632_j35485019800147_2_alg».proof.Proof.Value.Val2
import Idealize.ShloMosaic.Lib.ValueIdx

noncomputable section

namespace Cert.Val

open Cert.KernelIdeal Cert.KernelIdeal.Gen Cert.KernelIdeal.Fr
open Idealize.ShloMosaic Idealize.ShloMosaic.TcCoe Idealize.SL.Sem Idealize.ShloMosaic.ValueIdx

/-! ## The kernel program's result as the specification's function of the launch memory -/

variable (m : (ℓ : Loc nD τ sig) → Buf (Elt Ideal) ℓ) (ρ : Dev nD → PrngReg)

/-- The specification's result of the twelve argument arrays as the launch memory of core `c` holds them. -/
def Gres (c : Dev nD) : S1024x1024.Idx → EReal := fun i =>
  Cert.Spec.result (fun a b => m ((c.tc : Thread nD τ).loc main_arg0) (ix2 a b)) (fun a b => m ((c.tc : Thread nD τ).loc main_arg1) (ix2 a b))
    (fun a b => m ((c.tc : Thread nD τ).loc main_arg2) (ix2 a b)) (fun a b => m ((c.tc : Thread nD τ).loc main_arg3) (ix2 a b))
    (fun a => m ((c.tc : Thread nD τ).loc main_arg4) (ix1 a)) (fun a b => m ((c.tc : Thread nD τ).loc main_arg5) (ix2 a b))
    (fun a => m ((c.tc : Thread nD τ).loc main_arg6) (ix1 a)) (fun a b => m ((c.tc : Thread nD τ).loc main_arg7) (ix2 a b))
    (fun a => m ((c.tc : Thread nD τ).loc main_arg8) (ix1 a)) (fun a b => m ((c.tc : Thread nD τ).loc main_arg9) (ix2 a b))
    (fun a => m ((c.tc : Thread nD τ).loc main_arg10) (ix1 a)) (fun a b => m ((c.tc : Thread nD τ).loc main_arg11) (ix2 a b)) (i 0) (i 1)

/-- A node embedding as the third call finds it: what the second call left, which is the temporal perceptron of that
    call's temporal input plus the spatial embedding the first call left, all read back to the launch memory. -/
theorem emb1_walk (c : Dev nD) :
    (fun (a : Fin 1024) (b : Fin 128) => Vb4 m ρ c main_v5_0 (ix2 a b))
      = Cert.Spec.emb
          (Cert.Spec.sp (fun a b => m ((c.tc : Thread nD τ).loc main_arg0) (ix2 a b)) (fun a b => m ((c.tc : Thread nD τ).loc main_arg3) (ix2 a b))
            (fun b => m ((c.tc : Thread nD τ).loc main_arg4) (ix1 b)) (fun a b => m ((c.tc : Thread nD τ).loc main_arg5) (ix2 a b))
            (fun b => m ((c.tc : Thread nD τ).loc main_arg6) (ix1 b)))
          (Cert.Spec.tp (fun a b => m ((c.tc : Thread nD τ).loc main_arg1) (ix2 a b)) (fun a b => m ((c.tc : Thread nD τ).loc main_arg7) (ix2 a b))
            (fun b => m ((c.tc : Thread nD τ).loc main_arg8) (ix1 b)) (fun a b => m ((c.tc : Thread nD τ).loc main_arg9) (ix2 a b))
            (fun b => m ((c.tc : Thread nD τ).loc main_arg10) (ix1 b))) := by
  funext a b
  have h3 : (fun b : Fin 256 => Vb3 m ρ c main_v3 (ix2 (0 : Fin 1) b)) = fun b => m ((c.tc : Thread nD τ).loc main_arg8) (ix1 b) :=
    funext fun b => walk3_v3 m ρ c b
  have h4 : (fun b : Fin 128 => Vb3 m ρ c main_v4 (ix2 (0 : Fin 1) b)) = fun b => m ((c.tc : Thread nD τ).loc main_arg10) (ix1 b) :=
    funext fun b => walk3_v4 m ρ c b
  rw [walk4_v5_0, final1_7_spelt (Vb3 m ρ) c, sp_walk, walk3_arg1, walk3_arg7, walk3_arg9, h3, h4]
  rfl

/-- The other node embedding, of the second temporal input. -/
theorem emb2_walk (c : Dev nD) :
    (fun (a : Fin 1024) (b : Fin 128) => Vb4 m ρ c main_v5_1 (ix2 a b))
      = Cert.Spec.emb
          (Cert.Spec.sp (fun a b => m ((c.tc : Thread nD τ).loc main_arg0) (ix2 a b)) (fun a b => m ((c.tc : Thread nD τ).loc main_arg3) (ix2 a b))
            (fun b => m ((c.tc : Thread nD τ).loc main_arg4) (ix1 b)) (fun a b => m ((c.tc : Thread nD τ).loc main_arg5) (ix2 a b))
            (fun b => m ((c.tc : Thread nD τ).loc main_arg6) (ix1 b)))
          (Cert.Spec.tp (fun a b => m ((c.tc : Thread nD τ).loc main_arg2) (ix2 a b)) (fun a b => m ((c.tc : Thread nD τ).loc main_arg7) (ix2 a b))
            (fun b => m ((c.tc : Thread nD τ).loc main_arg8) (ix1 b)) (fun a b => m ((c.tc : Thread nD τ).loc main_arg9) (ix2 a b))
            (fun b => m ((c.tc : Thread nD τ).loc main_arg10) (ix1 b))) := by
  funext a b
  have h3 : (fun b : Fin 256 => Vb3 m ρ c main_v3 (ix2 (0 : Fin 1) b)) = fun b => m ((c.tc : Thread nD τ).loc main_arg8) (ix1 b) :=
    funext fun b => walk3_v3 m ρ c b
  have h4 : (fun b : Fin 128 => Vb3 m ρ c main_v4 (ix2 (0 : Fin 1) b)) = fun b => m ((c.tc : Thread nD τ).loc main_arg10) (ix1 b) :=
    funext fun b => walk3_v4 m ρ c b
  rw [walk4_v5_1, final1_8_spelt (Vb3 m ρ) c, sp_walk, walk3_arg2, walk3_arg7, walk3_arg9, h3, h4]
  rfl

/-- The result array at the return: the score of the two node embeddings, that is the specification's result. -/
theorem kernel_result (c : Dev nD) : Wb5 (F := Ideal) m ρ c (Proc.devRef .tc main_v6) = Gres m c := by
  rw [Wb5_result, final2 (Vb4 m ρ) c, emb1_walk, emb2_walk, walk4_arg11]
  rfl

/-- THE KERNEL PROGRAM'S RUN at the extended reals: from any memory with zero counters every weakly fair execution
    terminates with the result array at the specification's result of the launched arguments, and the arguments as
    launched. -/
theorem kernel_run : θ_run (defs (F := Ideal)) (onTc (τ := τ) (main (F := Ideal))) ⟨m, fun _ => 0, ρ⟩ (fun r => ∀ c : Dev nD,
      r.2.mem ((c.tc : Thread nD τ).loc main_v6) = Gres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_v6 (by decide))).trans (kernel_result m ρ c),
     (h c _ (mem_uc main_arg0 (by decide))).trans (Wb5_main_arg0 m ρ c),
     (h c _ (mem_uc main_arg1 (by decide))).trans (Wb5_main_arg1 m ρ c),
     (h c _ (mem_uc main_arg2 (by decide))).trans (Wb5_main_arg2 m ρ c),
     (h c _ (mem_uc main_arg3 (by decide))).trans (Wb5_main_arg3 m ρ c),
     (h c _ (mem_uc main_arg4 (by decide))).trans (Wb5_main_arg4 m ρ c),
     (h c _ (mem_uc main_arg5 (by decide))).trans (Wb5_main_arg5 m ρ c),
     (h c _ (mem_uc main_arg6 (by decide))).trans (Wb5_main_arg6 m ρ c),
     (h c _ (mem_uc main_arg7 (by decide))).trans (Wb5_main_arg7 m ρ c),
     (h c _ (mem_uc main_arg8 (by decide))).trans (Wb5_main_arg8 m ρ c),
     (h c _ (mem_uc main_arg9 (by decide))).trans (Wb5_main_arg9 m ρ c),
     (h c _ (mem_uc main_arg10 (by decide))).trans (Wb5_main_arg10 m ρ c),
     (h c _ (mem_uc main_arg11 (by decide))).trans (Wb5_main_arg11 m ρ c)⟩) (run_all m ρ)

end Cert.Val

end
-- ==== Proof.lean ====
/-
  The certificate's claim, assembled from its parts.

  The kernel program is two host reshapes of bias vectors and three grid calls: the spatial perceptron
  relu (relu (space · Ws1 + bs1) · Ws2 + bs2) over two blocks of 512 rows; the two temporal perceptrons fused in one call,
  whose first layer time · Wt1 is accumulated over sixty blocks of 1024 of the 61440 temporal features and whose last grid
  step finishes relu (relu (acc + bt1) · Wt2 + bt2) and adds the spatial embedding; and the row softmax of the bilinear
  logits (U1 · B) · U2ᵀ, a logit below the threshold replaced by zero, over eight blocks of 128 rows.

  One run of this program is proved once, for any float instance: its post names, for every core, the contents of every
  unscoped buffer at the return.  Read at the argument arrays, that post is the frame of the word-level program and of its
  reading at the extended reals (no item of the program writes an argument).  Read at the result array, at the extended
  reals, it is the value: the blocks the calls write back are blocks of the specification's functions, because a product
  into a zero accumulator is the sum over the contracted coordinate, a change of number format is the identity, and the
  sixty accumulated partial sums are the sum over all 61440 features (only the grouping of the additions changes).
  The reference's frame is its run with the result forgotten; the idealization rewrote no operation, so there is nothing
  to preserve.  The reference's result is the same specification of its arguments, up to the order of the two summands of
  each node embedding, and addition on the extended reals commutes.  From memories that agree on the arguments the two
  results are therefore equal entry by entry.
-/
import proofs.«179632_j35485019800147_2_alg».proof.Defs
import proofs.«179632_j35485019800147_2_alg».proof.Proof.Gen.Kernel
import proofs.«179632_j35485019800147_2_alg».proof.Proof.Gen.KernelIdeal
import proofs.«179632_j35485019800147_2_alg».proof.Proof.Gen.ReferenceIdeal
import proofs.«179632_j35485019800147_2_alg».proof.Proof.Gen.Pre_finite_inputs
import proofs.«179632_j35485019800147_2_alg».proof.Proof.Gen.ReferenceIdeal.Run
import proofs.«179632_j35485019800147_2_alg».proof.Proof.FrameKernel.Run
import proofs.«179632_j35485019800147_2_alg».proof.Proof.FrameKernelIdeal.Run
import proofs.«179632_j35485019800147_2_alg».proof.Proof.Value.RefIsSpec
import proofs.«179632_j35485019800147_2_alg».proof.Proof.Value.Final
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Fr.frame_all m ρ

/-- So does its reading at the extended reals: the same proof at the other float instance. -/
theorem frame_ki : Cert.frame_KernelIdeal := fun m ρ _ => Cert.KernelIdeal.Fr.frame_all m ρ

/-- The reference runs and leaves its arguments as launched: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the extended reals the two programs, from memories that agree on the twelve arguments, both run and end with
    the same result: the specification's function of the arguments, which the kernel program reaches through its three
    calls and the reference through its whole-array operations. -/
theorem algebraic : Cert.algebraic_KernelIdeal_ReferenceIdeal := fun m ρ m' ρ' _ hagree =>
  ⟨fun c => Cert.Val.Gres m c, Cert.Val.kernel_run m ρ,
    (θ_run Cert.ReferenceIdeal.defs _ _).mono (fun _ h c =>
      ⟨(h c).1.trans (by
          rw [Cert.ReferenceIdeal.Read.val_main_v58_eq, Cert.Val.Ref.ref_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
          rfl),
        (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
